-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S4x2048x1024 .f32) (main_arg1 : FVec F S4x2048x1024 .f32) (main_arg2 : IVec S4x2048x2048 1) (main_arg3 : FVec F S1024x1024 .f32) (main_arg4 : FVec F S1024x1024 .f32) (main_arg5 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩
abbrev S1x2048x1024 : Shape := ⟨3, ![1, 2048, 1024]⟩
abbrev S1x256x1024 : Shape := ⟨3, ![1, 256, 1024]⟩
abbrev S1x2048x256 : Shape := ⟨3, ![1, 2048, 256]⟩
abbrev S256x1024 : Shape := ⟨2, ![256, 1024]⟩
abbrev S2048x256 : Shape := ⟨2, ![2048, 256]⟩
abbrev S256 : Shape := ⟨1, ![256]⟩
abbrev S1x256 : Shape := ⟨2, ![1, 256]⟩

abbrev nBuf : Space → Nat
  | .hbm => 19
  | .vmem => 19
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .i1⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .bf16⟩
  | .hbm, ⟨10, _⟩ => ⟨S2048x1024, .f32⟩
  | .hbm, ⟨11, _⟩ => ⟨S1024x2048, .f32⟩
  | .hbm, ⟨12, _⟩ => ⟨S1024x2048, .bf16⟩
  | .hbm, ⟨13, _⟩ => ⟨S8192x1024, .bf16⟩
  | .hbm, ⟨14, _⟩ => ⟨S4x2048x1024, .bf16⟩
  | .hbm, ⟨15, _⟩ => ⟨S8192x2048, .bf16⟩
  | .hbm, ⟨16, _⟩ => ⟨S4x2048x2048, .bf16⟩
  | .hbm, ⟨17, _⟩ => ⟨S4x2048x2048, .i32⟩
  | .hbm, ⟨18, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1x2048x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x2048x256, .i32⟩
  | .local _ .vmem, ⟨16, _⟩ => ⟨S1x2048x256, .i32⟩
  | .local _ .vmem, ⟨17, _⟩ => ⟨S1x2048x1024, .f32⟩
  | .local _ .vmem, ⟨18, _⟩ => ⟨S1x2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S1x2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S1x256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x256 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x2048x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  concatenates_S1024x1024_S1024x1024_S2048x1024_d0 : Shape.Concatenates [S1024x1024, S1024x1024] S2048x1024 0
  transposes_S2048x1024_S1024x2048_1_0 : S2048x1024.Transposes [1, 0] S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S8192x1024_S4x2048x1024 : S8192x1024.ShapeCasts S4x2048x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  shapeCasts_S8192x2048_S4x2048x2048 : S8192x2048.ShapeCasts S4x2048x2048
  natLt_1_32 : 1 < 32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S2048x256_S256 : S2048x256.Reduces [0] S256
  shapeCasts_S256_S1x256 : S256.ShapeCasts S1x256
  broadcasts_S1x256_S2048x256 : S1x256.Broadcasts S2048x256
  dot_S1024x1024_S1024x1024_S1024x1024_1_0_0_1_n_n_wf : DotDims.WF S1024x1024 S1024x1024 S1024x1024 [1] [0] [0] [1] [] []
  dot_S1024x1024_S1024x2048_S1024x2048_1_0_0_1_n_n_wf : DotDims.WF S1024x1024 S1024x2048 S1024x2048 [1] [0] [0] [1] [] []
  dot_S2048x1024_S256x1024_S2048x256_1_1_0_0_n_n_wf : DotDims.WF S2048x1024 S256x1024 S2048x256 [1] [1] [0] [0] [] []
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x2048.size a
  hwx1_2 : ∀ i : grid1.Coords, EltTy.bits .bf16 = 32 ∨ (Rect.block (s := S8192x2048) S1024x2048.size (cc1_transform_2 i) (hinb1_2 i)).WholeWords (EltTy.packing .bf16)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x2048x1024.size a ≤ S4x2048x1024.size a
  hwx2_0 : ∀ i : grid2.Coords, EltTy.bits .bf16 = 32 ∨ (Rect.block (s := S4x2048x1024) S1x2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x1024.size a ≤ S4x2048x2048.size a
  hwx2_1 : ∀ i : grid2.Coords, EltTy.bits .bf16 = 32 ∨ (Rect.block (s := S4x2048x2048) S1x256x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x1024.size a ≤ S4x2048x2048.size a
  hwx2_2 : ∀ i : grid2.Coords, EltTy.bits .bf16 = 32 ∨ (Rect.block (s := S4x2048x2048) S1x256x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x256.size a ≤ S4x2048x2048.size a
  hwx2_3 : ∀ i : grid2.Coords, EltTy.bits .i32 = 32 ∨ (Rect.block (s := S4x2048x2048) S1x2048x256.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x2048x1024.size a ≤ S4x2048x1024.size a
  hwx2_4 : ∀ i : grid2.Coords, EltTy.bits .f32 = 32 ∨ (Rect.block (s := S4x2048x1024) S1x2048x1024.size (cc2_transform_4 i) (hinb2_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S1x2048x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1x256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x256x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x2048x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x2048x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S_ : Shape := ⟨0, ![]⟩
abbrev S4x2048 : Shape := ⟨2, ![4, 2048]⟩
abbrev S4x1x2048 : Shape := ⟨3, ![4, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x2048, .i1⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x2048, .f32⟩
  | .hbm, ⟨10, _⟩ => ⟨S_, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x2048, .f32⟩
  | .hbm, ⟨16, _⟩ => ⟨S4x2048x2048, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S4x1x2048, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call0_v0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d1 : S4x2048x2048.ReducesTo [1] S4x2048
  h_S_ : 0 < S_.numel
  bcast_S_S4x2048 : S_.BroadcastsInDim S4x2048 (![] : Fin 0 → Fin S4x2048.rank)
  bcast_S4x2048_S4x1x2048_0_2 : S4x2048.BroadcastsInDim S4x1x2048 (![0, 2] : Fin 2 → Fin S4x1x2048.rank)
  bcast_S4x1x2048_S4x2048x2048_0_1_2 : S4x1x2048.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Kernel.Data01.lean ====
/-
  The two projection kernels (x·Wᵀ, one block of 1024 rows per grid point), as data for the pipeline's run: at the
  buffer contents `V` a kernel region is entered with, what each window's block is at a grid point, and what the
  body leaves in each staging buffer — the inputs' blocks as fetched, the output block the body's one stored value
  (the product of the row block with the whole weight matrix) of the two input blocks.
-/
import proofs.«151926_j33698313404453_2_alg».proof.Proof.Gen.Kernel.Launch
import proofs.«151926_j33698313404453_2_alg».proof.Proof.Gen.Kernel.Skeleton
import proofs.«151926_j33698313404453_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The query projection (pipeline 0) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 × 1024 block: the rectangle of every load and of the store. -/
abbrev r0 : Rect S1024x1024 := Rect.unit (s := S1024x1024) ![0, 0] S1024x1024.size inb_S1024x1024_S1024x1024_0_0

/-- The output block after the body: its one store, of the product of the two input blocks. -/
def out0_2 (x0 : Vec F S1024x1024 .f32) (x1 : Vec F S1024x1024 .bf16) : Vec F S1024x1024 .bf16 :=
  View.canon [⟨r0, k0_pay1 (View.ld x0 r0) (View.ld x1 r0)⟩]

/-- The run's data: arrays as found; after the body each input at its block, the output at the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The key/value projection (pipeline 1) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1024 × 2048 block. -/
abbrev r1 : Rect S1024x2048 := Rect.unit (s := S1024x2048) ![0, 0] S1024x2048.size inb_S1024x2048_S1024x2048_0_0

def out1_2 (x0 : Vec F S1024x1024 .f32) (x1 : Vec F S1024x2048 .bf16) : Vec F S1024x2048 .bf16 :=
  View.canon [⟨r1, k1_pay1 (View.ld x0 r0) (View.ld x1 r1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.Kernel.Frame

end
-- ==== Proof.Kernel.Body0.lean ====
/-
  The body obligation of projection kernel 0 (the query projection): at every grid point the body, called on the current staging buffers,
  finds each input window's block in its buffer (whether or not the block was moved in at that point: a window whose
  block index does not change keeps the block it already holds), reads both, and overwrites the whole output buffer
  with the one value it computes from them; the run's invariant and what is owed pass through untouched.
-/
import proofs.«151926_j33698313404453_2_alg».proof.Proof.Kernel.Data01

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Input window 0's current buffer holds its block at every point, moved in there or not, for any run data whose
    array is the entry contents and whose body leaves the block in place: the window is whole and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1, the weight matrix: its block index is constant, so it is moved in at the first
    point only and every later point finds the block the first one left. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The output buffer after the body -/

/-- The body's one store is over the whole output block, so it covers it. -/
theorem cover0_2 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

/-! ## The body's triple -/

set_option maxHeartbeats 1000000 in
/-- The body on whole staging buffers, the inputs' at read contents `x0`, `x1` and the output's at anything, runs to
    the continuation holding the inputs' as they were and the output's at the product block `out0_2 x0 x1`. -/
theorem sound_kernel0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.Kernel.Body1.lean ====
/-
  The body obligation of projection kernel 1 (the key/value projection): at every grid point the body, called on the current staging buffers,
  finds each input window's block in its buffer (whether or not the block was moved in at that point: a window whose
  block index does not change keeps the block it already holds), reads both, and overwrites the whole output buffer
  with the one value it computes from them; the run's invariant and what is owed pass through untouched.
-/
import proofs.«151926_j33698313404453_2_alg».proof.Proof.Kernel.Data01

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Input window 0's current buffer holds its block at every point, moved in there or not, for any run data whose
    array is the entry contents and whose body leaves the block in place: the window is whole and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1, the weight matrix: its block index is constant, so it is moved in at the first
    point only and every later point finds the block the first one left. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The output buffer after the body -/

/-- The body's one store is over the whole output block, so it covers it. -/
theorem cover1_2 (p0 : Vec F S1024x2048 .bf16) (y : S1024x2048.Idx) :
    ∃ pc ∈ ([⟨r1, p0⟩] : List (View.Piece (Elt F) S1024x2048 .bf16)), y ∈ pc.1.set :=
  View.cover_of_tiled [⟨r1, p0⟩] S1024x2048.size (by rfl) y

/-! ## The body's triple -/

set_option maxHeartbeats 1000000 in
/-- The body on whole staging buffers, the inputs' at read contents `x0`, `x1` and the output's at anything, runs to
    the continuation holding the inputs' as they were and the output's at the product block `out1_2 x0 x1`. -/
theorem sound_kernel1 (c : Dev nD) (E : Set ℕ) (i : grid1.Coords)
    (arg1 : Memref sig .tc .vmem S1024x1024 .f32) (harg1 : arg1.IsWhole)
    (arg2 : Memref sig .tc .vmem S1024x2048 .bf16) (harg2 : arg2.IsWhole)
    (arg3 : Memref sig .tc .vmem S1024x2048 .bf16) (harg3 : arg3.IsWhole)
    (x0 : Vec F S1024x1024 .f32) (x1 : Vec F S1024x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.Kernel.Data2.lean ====
/-
  The attention kernel (grid 4 × 8: batch b, key block kb of 256 keys), as data for the pipeline's run. Its output
  block — batch b's whole 2048 × 1024 result — stays in one staging buffer over the eight key blocks of a batch:
  at kb = 0 the body zeroes it first; at every point it then adds that key block's contribution (the column-wise
  softmax of the masked, scaled scores of all 2048 queries against the block's 256 keys, times the block's values);
  the buffer is written back after kb = 7. So what the buffer holds after point n is a recursion over the points:
  the contribution added to zero at the first key block, to what the point before left otherwise.
  The key and the value windows read ONE array (the fused projection), through two block maps: each holds half a share of it.
-/
import proofs.«151926_j33698313404453_2_alg».proof.Proof.Gen.Kernel.Launch
import proofs.«151926_j33698313404453_2_alg».proof.Proof.Gen.Kernel.Skeleton
import proofs.«151926_j33698313404453_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's one branch condition: the key-block coordinate is 0. -/
abbrev cond2 (i : grid2.Coords) : Prop :=
  (Scalar.cmpi .ne (Scalar.extui (Scalar.cmpi .eq (BitVec.ofNat 32 (i 1).val) 0#32)) 0#32) = 1#1

/-- It holds exactly at the first key block of each batch. -/
theorem hcond2 : ∀ t : Fin cfg2.N, cond2 (grid2.coords t) ↔ t.val % 8 = 0 :=
  (by decide +kernel : ∀ t : Fin grid2.N, cond2 (grid2.coords t) ↔ t.val % 8 = 0)

/-- One point's step on the output buffer: the key block's contribution added to what the buffer held. -/
def acc2 (x0 : Vec F S1x2048x1024 .bf16) (x1 x2 : Vec F S1x256x1024 .bf16) (x3 : Vec F S1x2048x256 .i32)
    (prev : Vec F S1x2048x1024 .f32) : Vec F S1x2048x1024 .f32 :=
  k2_pay1 (k2_pay3 x0 x1 x2 x3 prev)

/-- The zero block the first key block starts from. -/
def zero2 : Vec F S1x2048x1024 .f32 := k2_pay2

/-- What the output's staging buffer holds after the body at position `n`. -/
def outsAt2 (c : Dev nD) : (n : ℕ) → n < cfg2.N → Vec F S1x2048x1024 .f32
  | 0, hn => acc2 (iblk2 V c 0 ⟨0, hn⟩) (iblk2 V c 1 ⟨0, hn⟩) (iblk2 V c 2 ⟨0, hn⟩) (iblk2 V c 3 ⟨0, hn⟩) zero2
  | n + 1, hn =>
    if (n + 1) % 8 = 0 then
      acc2 (iblk2 V c 0 ⟨n + 1, hn⟩) (iblk2 V c 1 ⟨n + 1, hn⟩) (iblk2 V c 2 ⟨n + 1, hn⟩) (iblk2 V c 3 ⟨n + 1, hn⟩) zero2
    else
      acc2 (iblk2 V c 0 ⟨n + 1, hn⟩) (iblk2 V c 1 ⟨n + 1, hn⟩) (iblk2 V c 2 ⟨n + 1, hn⟩) (iblk2 V c 3 ⟨n + 1, hn⟩)
        (outsAt2 c n (Nat.lt_of_succ_lt hn))

/-- At a first key block: from zero. -/
theorem outsAt2_first (c : Dev nD) (t : Fin cfg2.N) (h0 : t.val % 8 = 0) :
    outsAt2 V c t.val t.isLt = acc2 (iblk2 V c 0 t) (iblk2 V c 1 t) (iblk2 V c 2 t) (iblk2 V c 3 t) zero2 := by
  obtain ⟨n, hn⟩ := t
  cases n with
  | zero => exact rfl
  | succ n => exact (if_pos h0).trans rfl

/-- At a later key block: from what the point before left. -/
theorem outsAt2_later (c : Dev nD) (t : Fin cfg2.N) (h0 : ¬t.val % 8 = 0) :
    outsAt2 V c t.val t.isLt = acc2 (iblk2 V c 0 t) (iblk2 V c 1 t) (iblk2 V c 2 t) (iblk2 V c 3 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The run's data: arrays as found; after the body each input at its block, the output at the recursion;
    the two windows on the fused projection hold half a share of it each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

end Cert.Kernel.Frame

end
-- ==== Proof.Kernel.Body2A.lean ====
/-
  The attention kernel's body at a first key block of a batch (key-block coordinate 0): it zeroes the output's
  staging buffer, then adds the key block's contribution to what it reads back. Run once on any whole staging
  buffers; what the run leaves in the output buffer is read back as a value.
-/
import proofs.«151926_j33698313404453_2_alg».proof.Proof.Kernel.Data2
import Idealize.ShloMosaic.Lib.Pipeline.Value

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The offsets of every load and store of the attention body: all zero, the whole block. -/
theorem off2_zero : (![0, 0, 0] : Fin 3 → Nat) = fun _ => 0 := funext fun a => by fin_cases a <;> rfl

set_option maxHeartbeats 1000000 in
/-- The attention body at a FIRST key block (the branch taken): on whole staging buffers, the four inputs at
    their contents and the output buffer at anything, it runs to the continuation with the inputs as they were
    and the output buffer overwritten by its stores, last first — the accumulation over the zero block it has
    just stored, then that zero block. -/
noncomputable def kernelRun2_A (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : cond2 i)
    (x0 : Vec F S1x2048x1024 .bf16) (x1 x2 : Vec F S1x256x1024 .bf16) (x3 : Vec F S1x2048x256 .i32) :
    { L : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc2_kernel i arg2 harg2 arg3 harg3 arg4 harg4 arg5 harg5 arg6 harg6) K } := by
  refine ⟨?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- Its stores cover the output block (each is the whole block). -/
theorem cover2_A (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : cond2 i)
    (x0 : Vec F S1x2048x1024 .bf16) (x1 x2 : Vec F S1x256x1024 .bf16) (x3 : Vec F S1x2048x256 .i32) (y : S1x2048x1024.Idx) :
    ∃ pc ∈ (kernelRun2_A c i arg2 harg2 arg3 harg3 arg4 harg4 arg5 harg5 arg6 harg6 hc x0 x1 x2 x3).1, y ∈ pc.1.set :=
  View.cover_of_tiledL (kernelRun2_A c i arg2 harg2 arg3 harg3 arg4 harg4 arg5 harg5 arg6 harg6 hc x0 x1 x2 x3).1 S1x2048x1024.size (by sl_kernel_rfl) y

/-- What the body leaves in the output buffer at a first key block, whatever it held: the key block's
    contribution added to the zero block. -/
theorem out2_A (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : cond2 i)
    (x0 : Vec F S1x2048x1024 .bf16) (x1 x2 : Vec F S1x256x1024 .bf16) (x3 : Vec F S1x2048x256 .i32) (f : arg6.view.ty.Contents (Elt F)) :
    arg6.view.read (Elt F) (arg6.view.writes (Elt F) f (kernelRun2_A c i arg2 harg2 arg3 harg3 arg4 harg4 arg5 harg5 arg6 harg6 hc x0 x1 x2 x3).1) = acc2 x0 x1 x2 x3 zero2 := by
  rw [View.read_writes_eq_canon _ _ _ (cover2_A c i arg2 harg2 arg3 harg3 arg4 harg4 arg5 harg5 arg6 harg6 hc x0 x1 x2 x3)]
  unfold kernelRun2_A
  dsimp only
  sl_unfold_words
  rw [View.canon_cons_unit_zero (S := S1x2048x1024) off2_zero, View.readCov_unit_zero (S := S1x2048x1024) _ off2_zero]
  unfold acc2 zero2
  simp only [View.readAt_eq_ld, harg2.read_unread, harg3.read_unread, harg4.read_unread, harg5.read_unread,
    View.ld_unit_zero (S := S1x2048x1024) off2_zero, View.ld_unit_zero (S := S1x256x1024) off2_zero, View.ld_unit_zero (S := S1x2048x256) off2_zero]

end Cert.Kernel.Frame

end
-- ==== Proof.Kernel.Body2B.lean ====
/-
  The attention kernel's body at a later key block of a batch (key-block coordinate not 0): it adds the key
  block's contribution to what the output's staging buffer holds. Run once on any whole staging buffers; what
  the run leaves in the output buffer is read back as a value.
-/
import proofs.«151926_j33698313404453_2_alg».proof.Proof.Kernel.Body2A

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The attention body at a LATER key block (the branch not taken): on whole staging buffers, the four inputs at
    their contents and the output buffer at its running contents `xo`, it runs to the continuation with the inputs
    as they were and the output buffer overwritten by its one store — the accumulation over `xo`. -/
noncomputable def kernelRun2_B (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : ¬cond2 i)
    (x0 : Vec F S1x2048x1024 .bf16) (x1 x2 : Vec F S1x256x1024 .bf16) (x3 : Vec F S1x2048x256 .i32) (xo : Vec F S1x2048x1024 .f32) :
    { L : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc2_kernel i arg2 harg2 arg3 harg3 arg4 harg4 arg5 harg5 arg6 harg6) K } := by
  refine ⟨?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- Its store covers the output block (it is the whole block). -/
theorem cover2_B (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : ¬cond2 i)
    (x0 : Vec F S1x2048x1024 .bf16) (x1 x2 : Vec F S1x256x1024 .bf16) (x3 : Vec F S1x2048x256 .i32) (xo : Vec F S1x2048x1024 .f32) (y : S1x2048x1024.Idx) :
    ∃ pc ∈ (kernelRun2_B c i arg2 harg2 arg3 harg3 arg4 harg4 arg5 harg5 arg6 harg6 hc x0 x1 x2 x3 xo).1, y ∈ pc.1.set :=
  View.cover_of_tiledL (kernelRun2_B c i arg2 harg2 arg3 harg3 arg4 harg4 arg5 harg5 arg6 harg6 hc x0 x1 x2 x3 xo).1 S1x2048x1024.size (by sl_kernel_rfl) y

/-- What the body leaves in the output buffer at a later key block: the key block's contribution added to what
    the buffer held. -/
theorem out2_B (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : ¬cond2 i)
    (x0 : Vec F S1x2048x1024 .bf16) (x1 x2 : Vec F S1x256x1024 .bf16) (x3 : Vec F S1x2048x256 .i32) (xo : Vec F S1x2048x1024 .f32) (f : arg6.view.ty.Contents (Elt F)) :
    arg6.view.read (Elt F) (arg6.view.writes (Elt F) f (kernelRun2_B c i arg2 harg2 arg3 harg3 arg4 harg4 arg5 harg5 arg6 harg6 hc x0 x1 x2 x3 xo).1) = acc2 x0 x1 x2 x3 xo := by
  rw [View.read_writes_eq_canon _ _ _ (cover2_B c i arg2 harg2 arg3 harg3 arg4 harg4 arg5 harg5 arg6 harg6 hc x0 x1 x2 x3 xo)]
  unfold kernelRun2_B
  dsimp only
  rw [View.canon_unit_zero (S := S1x2048x1024) off2_zero]
  unfold acc2
  simp only [View.readAt_eq_ld, harg2.read_unread, harg3.read_unread, harg4.read_unread, harg5.read_unread, harg6.read_unread,
    View.ld_unit_zero (S := S1x2048x1024) off2_zero, View.ld_unit_zero (S := S1x256x1024) off2_zero, View.ld_unit_zero (S := S1x2048x256) off2_zero]

end Cert.Kernel.Frame

end
-- ==== Proof.Kernel.Body2.lean ====
/-
  The attention kernel's body obligation: at every grid point (batch b, key block kb) the body, called on the
  five windows' current staging buffers at what they then hold, leaves them at what the run's data says —
  the inputs untouched, the output at one more step of the accumulation over the batch's key blocks.
-/
import proofs.«151926_j33698313404453_2_alg».proof.Proof.Kernel.Body2B

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each staging buffer holds when the body is called -/

/-- Each input's current staging buffer holds its block at every point, fetched there or not: where it is not
    fetched its block index has not moved (the query block over a batch's eight key blocks). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- At a later key block the output's staging buffer holds what the body left at the point before: the point
    is not the first, and the buffer is written back only after a batch's last key block. -/
theorem before2_4_later (c : Dev nD) (t : Fin cfg2.N) (h0 : ¬t.val % 8 = 0) (d) :
    (dat2 V c).before 4 t d = outsAt2 V c (t.val - 1) (Nat.lt_of_le_of_lt (Nat.sub_le _ _) t.isLt) := by
  have hN : t.val < 32 := lt_of_lt_of_eq t.isLt (show cfg2.N = 32 from N_2)
  rw [Dat.before_out_kept _ 4 rfl t (by omega) (Bool.eq_false_iff.mpr fun h => by have := (flush2_4 _).mp h; dsimp only at this; omega)
    (fun _ => rfl) (fun _ _ => rfl)]
  dsimp only [dat2]

/-! ## The body obligation, at a generic point -/

/-- Each window's current staging buffer at point `t`, and that it is a whole buffer. -/
abbrev ms2_0 (t : Fin cfg2.N) : Memref sig .tc .vmem S1x2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048x256 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048x1024 .f32 := win2_4.stage (cfg2.slots t 4)
abbrev hs2_4 (t : Fin cfg2.N) : (ms2_4 t).IsWhole := hstage2_4 ((cfg2.slots t 4).cast nbuf2_4)

/-- What the body is called with at point `t`: the invariant, what the core owes, the five windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1000000 in
/-- The body at any point. The inputs' buffers hold their blocks. At a first key block the output buffer holds
    anything and the body leaves the contribution over zero; at a later one it holds what the point before left
    and the body leaves the contribution over that: the recursion of the run's data. The invariant passes
    through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 32 := lt_of_lt_of_eq t.isLt (show cfg2.N = 32 from N_2)
  by_cases h0 : t.val % 8 = 0
  · rw [outsAt2_first V c t h0]
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact out2_A c _ _ _ _ _ _ _ _ _ _ _ _ _ _ _ _ _
  · rw [outsAt2_later V c t h0]
    simp only [before2_4_later V c t h0]
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact out2_B c _ _ _ _ _ _ _ _ _ _ _ _ _ _ _ _ _ _

/-- The library's body obligation for the attention kernel's pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.Kernel.Bounds.lean ====
/-
  The run of the whole program: host operations, the query projection, a reshape, the key/value projection, a reshape
  and the mask's widening, the attention kernel. The buffer contents at each boundary are a fold from the launch
  memory: a host stretch applies its operations; a kernel region replaces its output array by what the pipeline's
  write-backs leave (the proof data's final array) and changes nothing else. Each region is entered holding every
  unscoped buffer at the boundary's contents and left holding them at the next boundary's.
-/
import proofs.«151926_j33698313404453_2_alg».proof.Proof.Gen.Kernel.Regions
import proofs.«151926_j33698313404453_2_alg».proof.Proof.Kernel.Data01
import proofs.«151926_j33698313404453_2_alg».proof.Proof.Kernel.Data2

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- After the first host stretch (the query projection's entry), read at the TensorCore's references. -/
abbrev VR1 (c : Dev nD) (b : Ref sig .tc) : Buf (Elt F) ((c : Thread nD τ).loc b) := Gen.V1 m c b

/-- After the query projection: its output array at what the pipeline leaves. -/
def W2 (c : Dev nD) : Valuation τ sig (Elt F) :=
  Function.update (Gen.V1 m c) main_v7 ((dat0 (VR1 m) c).arrAt 2 cfg0.N)
abbrev VR2 (c : Dev nD) (b : Ref sig .tc) : Buf (Elt F) ((c : Thread nD τ).loc b) := W2 m c b

/-- After the reshape of the projected queries (the key/value projection's entry). -/
abbrev W3 (c : Dev nD) : Valuation τ sig (Elt F) := StableHlo.after hostOps1 (W2 m c)
abbrev VR3 (c : Dev nD) (b : Ref sig .tc) : Buf (Elt F) ((c : Thread nD τ).loc b) := W3 m c b

/-- After the key/value projection. -/
def W4 (c : Dev nD) : Valuation τ sig (Elt F) :=
  Function.update (W3 m c) main_v9 ((dat1 (VR3 m) c).arrAt 2 cfg1.N)
abbrev VR4 (c : Dev nD) (b : Ref sig .tc) : Buf (Elt F) ((c : Thread nD τ).loc b) := W4 m c b

/-- After the reshape of the fused projection and the mask's widening (the attention kernel's entry). -/
abbrev W5 (c : Dev nD) : Valuation τ sig (Elt F) := StableHlo.after hostOps2 (W4 m c)
abbrev VR5 (c : Dev nD) (b : Ref sig .tc) : Buf (Elt F) ((c : Thread nD τ).loc b) := W5 m c b

/-- After the attention kernel: the end. -/
def W6 (c : Dev nD) : Valuation τ sig (Elt F) :=
  Function.update (W5 m c) main_v12 ((dat2 (VR5 m) c).arrAt 4 cfg2.N)
abbrev VR6 (c : Dev nD) (b : Ref sig .tc) : Buf (Elt F) ((c : Thread nD τ).loc b) := W6 m c b

theorem W2_out (c : Dev nD) : W2 m c main_v7 = (dat0 (VR1 m) c).arrAt 2 cfg0.N := by
  unfold W2; exact Function.update_self ..
theorem W2_of_ne (c : Dev nD) (b : Ref sig .tc) (h : b ≠ main_v7) : W2 m c b = Gen.V1 m c b := by
  unfold W2; exact Function.update_of_ne (StableHlo.devRef_ne_of_ne h) ..
theorem W4_out (c : Dev nD) : W4 m c main_v9 = (dat1 (VR3 m) c).arrAt 2 cfg1.N := by
  unfold W4; exact Function.update_self ..
theorem W4_of_ne (c : Dev nD) (b : Ref sig .tc) (h : b ≠ main_v9) : W4 m c b = W3 m c b := by
  unfold W4; exact Function.update_of_ne (StableHlo.devRef_ne_of_ne h) ..
theorem W6_out (c : Dev nD) : W6 m c main_v12 = (dat2 (VR5 m) c).arrAt 4 cfg2.N := by
  unfold W6; exact Function.update_self ..
theorem W6_of_ne (c : Dev nD) (b : Ref sig .tc) (h : b ≠ main_v12) : W6 m c b = W5 m c b := by
  unfold W6; exact Function.update_of_ne (StableHlo.devRef_ne_of_ne h) ..

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR3 m) c
  | ⟨2, _⟩ => fun c => dat2 (VR5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Frame

end
-- ==== Proof.Kernel.Reg0.lean ====
/-
  The query projection as one segment of the run: entered holding every unscoped buffer at the first host stretch's
  contents, left holding them at the next boundary's — its output array at what the write-backs leave, nothing else changed.
-/
import proofs.«151926_j33698313404453_2_alg».proof.Proof.Kernel.Bounds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)
/-! ## The query projection as a segment -/

theorem hF0 (c : Dev nD) (w : Fin cfg0.W) : (dat0 (VR1 m) c).arrAt w cfg0.N = VR2 m c (Pipeline.arrRef spec0 w) := by
  match w with
  | ⟨0, _⟩ => exact ((dat0 (VR1 m) c).arrAt_in 0 rfl _).trans ((A_eq0 (VR1 m) c 0).trans (W2_of_ne m c main_v0 (by decide)).symm)
  | ⟨1, _⟩ => exact ((dat0 (VR1 m) c).arrAt_in 1 rfl _).trans ((A_eq0 (VR1 m) c 1).trans (W2_of_ne m c main_v3 (by decide)).symm)
  | ⟨2, _⟩ => exact (W2_out m c).symm
theorem hrest0 (c : Dev nD) : ∀ b, b ∉ Finset.univ.image (Pipeline.arrRef spec0) → VR2 m c b = VR1 m c b :=
  fun b hb => W2_of_ne m c b fun e => hb (Finset.mem_image.mpr ⟨2, Finset.mem_univ _, e.symm⟩)

set_option backward.isDefEq.respectTransparency.types false in
/-- The query projection: entered holding every unscoped buffer at the first stretch's contents, left at `W2`. -/
def reg0 (hb : ∀ c, BodyObligation (dat0 (F := F) (VR1 m) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.Kernel.Reg1.lean ====
/-
  The key/value projection as one segment of the run: entered at the contents after the queries' reshape, left with its
  output array at what the write-backs leave, nothing else changed.
-/
import proofs.«151926_j33698313404453_2_alg».proof.Proof.Kernel.Bounds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)
/-! ## The key/value projection as a segment -/

theorem hF1 (c : Dev nD) (w : Fin cfg1.W) : (dat1 (VR3 m) c).arrAt w cfg1.N = VR4 m c (Pipeline.arrRef spec1 w) := by
  match w with
  | ⟨0, _⟩ => exact ((dat1 (VR3 m) c).arrAt_in 0 rfl _).trans ((A_eq1 (VR3 m) c 0).trans (W4_of_ne m c main_v1 (by decide)).symm)
  | ⟨1, _⟩ => exact ((dat1 (VR3 m) c).arrAt_in 1 rfl _).trans ((A_eq1 (VR3 m) c 1).trans (W4_of_ne m c main_v6 (by decide)).symm)
  | ⟨2, _⟩ => exact (W4_out m c).symm
theorem hrest1 (c : Dev nD) : ∀ b, b ∉ Finset.univ.image (Pipeline.arrRef spec1) → VR4 m c b = VR3 m c b :=
  fun b hb => W4_of_ne m c b fun e => hb (Finset.mem_image.mpr ⟨2, Finset.mem_univ _, e.symm⟩)

set_option backward.isDefEq.respectTransparency.types false in
/-- The key/value projection: entered at `W3`, left at `W4`. -/
def reg1 (hb : ∀ c, BodyObligation (dat1 (F := F) (VR3 m) c) (defs₀ (F := F)) Variants.none () Set.univ) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (VR4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.Kernel.Reg2.lean ====
/-
  The attention kernel as one segment of the run: entered holding every unscoped buffer at the contents after the fused
  projection's reshape and the mask's widening, left with its output array at what the write-backs leave, nothing else changed.
-/
import proofs.«151926_j33698313404453_2_alg».proof.Proof.Kernel.Bounds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The attention kernel as a segment

Its key window and its value window read ONE array (the fused projection), so the arrays are not distinct buffers: the
four buffers behind the five windows are split explicitly — the shared one into two half shares — and joined back. -/

/-- The buffers behind the five windows, each whole at the full share, make the pipeline's arrays at entry: the fused
    projection's buffer splits into the two windows' half shares. -/
theorem arrays2_of_arrBufs (c : Dev nD) (V : (b : Ref sig .tc) → Buf (Elt F) ((c : Thread nD τ).loc b))
    (dat : Dat τ (Elt F) Unit ℕ (UR sig nD τ) ℕ cfg2 c)
    (hq1 : dat.q 1 = fullShare.left) (hq2 : dat.q 2 = fullShare.right) (hq0 : dat.q 0 = fullShare) (hq3 : dat.q 3 = fullShare)
    (G : (w : Fin cfg2.W) → Buf (Elt F) ((cfg2.win w).arr.view.loc (c : Thread nD τ))) (hG : ∀ w, G w = V (Pipeline.arrRef spec2 w)) :
    (Pipeline.arrBufs (Ix := Unit) (Name := ℕ) (U := UR sig nD τ) (Lvl := ℕ) spec2 c V : sProp 𝕄) ⊢ dat.arrays G := by
  unfold Pipeline.arrBufs Dat.arrays
  rw [bigSep_eq_bigSepL_of_eq [main_v8, main_v10, main_v11, main_v12] (by decide) (by decide), bigSep_W2]
  have s0 : dat.share 0 = fullShare := by unfold Dat.share; rw [if_neg (by decide), hq0]
  have s1 : dat.share 1 = fullShare.left := by unfold Dat.share; rw [if_neg (by decide), hq1]
  have s2 : dat.share 2 = fullShare.right := by unfold Dat.share; rw [if_neg (by decide), hq2]
  have s3 : dat.share 3 = fullShare := by unfold Dat.share; rw [if_neg (by decide), hq3]
  have s4 : dat.share 4 = fullShare := by unfold Dat.share; rw [if_pos (by decide)]
  rw [s0, s1, s2, s3, s4, (arr_whole2 0).set_eq_univ, (arr_whole2 1).set_eq_univ,
    (arr_whole2 3).set_eq_univ, (arr_whole2 4).set_eq_univ, hG 0, hG 1, hG 2, hG 3, hG 4]
  show (iprop((((c : Thread nD τ).loc main_v8) ↦{fullShare} V main_v8) ∗ (((c : Thread nD τ).loc main_v10) ↦{fullShare} V main_v10) ∗ (((c : Thread nD τ).loc main_v11) ↦{fullShare} V main_v11) ∗ (((c : Thread nD τ).loc main_v12) ↦{fullShare} V main_v12)) : sProp 𝕄) ⊢ _
  iintro ⟨H8, H10, H11, H12⟩
  ihave H10s := (pointsTo_share (PosShare.mem_left_op_right fullShare)).1 $$ H10
  icases H10s with ⟨H10l, H10r⟩
  isplitl [H8]; · iexact H8
  isplitl [H10l]; · iexact H10l
  isplitl [H10r]; · iexact H10r
  isplitl [H11]; · iexact H11
  iexact H12

/-- The way back: the five windows' arrays, held at contents that are one valuation's, are the four buffers behind them
    whole at the full share: the two half shares of the fused projection's buffer join. -/
theorem arrBufs_of_arrays2 (c : Dev nD) (V : (b : Ref sig .tc) → Buf (Elt F) ((c : Thread nD τ).loc b))
    (dat : Dat τ (Elt F) Unit ℕ (UR sig nD τ) ℕ cfg2 c)
    (hq1 : dat.q 1 = fullShare.left) (hq2 : dat.q 2 = fullShare.right) (hq0 : dat.q 0 = fullShare) (hq3 : dat.q 3 = fullShare)
    (G : (w : Fin cfg2.W) → Buf (Elt F) ((cfg2.win w).arr.view.loc (c : Thread nD τ))) (hG : ∀ w, G w = V (Pipeline.arrRef spec2 w)) :
    dat.arrays G ⊢ (Pipeline.arrBufs (Ix := Unit) (Name := ℕ) (U := UR sig nD τ) (Lvl := ℕ) spec2 c V : sProp 𝕄) := by
  unfold Pipeline.arrBufs Dat.arrays
  rw [bigSep_eq_bigSepL_of_eq [main_v8, main_v10, main_v11, main_v12] (by decide) (by decide), bigSep_W2]
  have s0 : dat.share 0 = fullShare := by unfold Dat.share; rw [if_neg (by decide), hq0]
  have s1 : dat.share 1 = fullShare.left := by unfold Dat.share; rw [if_neg (by decide), hq1]
  have s2 : dat.share 2 = fullShare.right := by unfold Dat.share; rw [if_neg (by decide), hq2]
  have s3 : dat.share 3 = fullShare := by unfold Dat.share; rw [if_neg (by decide), hq3]
  have s4 : dat.share 4 = fullShare := by unfold Dat.share; rw [if_pos (by decide)]
  rw [s0, s1, s2, s3, s4, (arr_whole2 0).set_eq_univ, (arr_whole2 1).set_eq_univ,
    (arr_whole2 3).set_eq_univ, (arr_whole2 4).set_eq_univ, hG 0, hG 1, hG 2, hG 3, hG 4]
  show _ ⊢ (iprop((((c : Thread nD τ).loc main_v8) ↦{fullShare} V main_v8) ∗ (((c : Thread nD τ).loc main_v10) ↦{fullShare} V main_v10) ∗ (((c : Thread nD τ).loc main_v11) ↦{fullShare} V main_v11) ∗ (((c : Thread nD τ).loc main_v12) ↦{fullShare} V main_v12)) : sProp 𝕄)
  iintro ⟨H8, H10l, H10r, H11, H12⟩
  ihave H10 := (pointsTo_share (PosShare.mem_left_op_right fullShare)).2 $$ [H10l H10r]
  · isplitl [H10l]; · iexact H10l
    iexact H10r
  isplitl [H8]; · iexact H8
  isplitl [H10]; · iexact H10
  isplitl [H11]; · iexact H11
  iexact H12

theorem hF2 (c : Dev nD) (w : Fin cfg2.W) : (dat2 (VR5 m) c).arrAt w cfg2.N = VR6 m c (Pipeline.arrRef spec2 w) := by
  match w with
  | ⟨0, _⟩ => exact ((dat2 (VR5 m) c).arrAt_in 0 rfl _).trans ((A_eq2 (VR5 m) c 0).trans (W6_of_ne m c main_v8 (by decide)).symm)
  | ⟨1, _⟩ => exact ((dat2 (VR5 m) c).arrAt_in 1 rfl _).trans ((A_eq2 (VR5 m) c 1).trans (W6_of_ne m c main_v10 (by decide)).symm)
  | ⟨2, _⟩ => exact ((dat2 (VR5 m) c).arrAt_in 2 rfl _).trans ((A_eq2 (VR5 m) c 2).trans (W6_of_ne m c main_v10 (by decide)).symm)
  | ⟨3, _⟩ => exact ((dat2 (VR5 m) c).arrAt_in 3 rfl _).trans ((A_eq2 (VR5 m) c 3).trans (W6_of_ne m c main_v11 (by decide)).symm)
  | ⟨4, _⟩ => exact (W6_out m c).symm
theorem hrest2 (c : Dev nD) : ∀ b, b ∉ Finset.univ.image (Pipeline.arrRef spec2) → VR6 m c b = VR5 m c b :=
  fun b hb => W6_of_ne m c b fun e => hb (Finset.mem_image.mpr ⟨4, Finset.mem_univ _, e.symm⟩)

/-- The last thread state without the `owes`: every unscoped buffer at the final contents, the generator register
    at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- The attention kernel: entered at `W5`, left at `W6`. -/
def reg2 (hb : ∀ c, BodyObligation (dat2 (F := F) (VR5 m) c) (defs₀ (F := F)) Variants.none () Set.univ) :
    Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VR5 m c)
  hentry c := by
    rw [Pipeline.ownSems0_none]
    have hsplit : (unscopedBufs (Ix := Unit) (Name := ℕ) (U := UR sig nD τ) (Lvl := ℕ) c (VR5 m c) : sProp 𝕄)
        ⊢ iprop((pdats m 2 c).arrays ((pdats m 2 c).arrAt · 0) ∗ Pipeline.unscopedRest spec2 c (VR5 m c)) := by
      rw [Pipeline.unscopedBufs_split₀ (Pipeline.pin (pcfgs (F := F)) adm) 2 winFacts₀2.arr_unscoped c (VR5 m c)]
      exact sep_mono (arrays2_of_arrBufs c (VR5 m c) (pdats m 2 c) rfl rfl rfl rfl _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (VR5 m c))
        ⊢ (unscopedBufs (Ix := Unit) (Name := ℕ) (U := UR sig nD τ) (Lvl := ℕ) c (VR6 m c) : sProp 𝕄) := by
      rw [Pipeline.unscopedBufs_split₀ (Pipeline.pin (pcfgs (F := F)) adm) 2 winFacts₀2.arr_unscoped c (VR6 m c)]
      refine sep_mono (arrBufs_of_arrays2 c (VR6 m c) (pdats m 2 c) rfl rfl rfl rfl _ (hF2 m c)) (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Frame

end
-- ==== Proof.Kernel.Run.lean ====
/-
  The whole run: the program is its six segments in order (three host stretches, three kernel regions), each entered
  from the thread state the one before leaves; so every weakly fair execution ends, faulting nowhere, with every unscoped
  buffer at the last boundary's contents. Read at the arguments (no host operation writes one, no region changes one)
  this is the frame; read at the result it is the attention kernel's final output array.
-/
import proofs.«151926_j33698313404453_2_alg».proof.Proof.Kernel.Reg0
import proofs.«151926_j33698313404453_2_alg».proof.Proof.Kernel.Reg1
import proofs.«151926_j33698313404453_2_alg».proof.Proof.Kernel.Reg2

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

variable (hb0 : ∀ c, BodyObligation (dat0 (F := F) (VR1 m) c) (defs₀ (F := F)) Variants.none () Set.univ)
  (hb1 : ∀ c, BodyObligation (dat1 (F := F) (VR3 m) c) (defs₀ (F := F)) Variants.none () Set.univ)
  (hb2 : ∀ c, BodyObligation (dat2 (F := F) (VR5 m) c) (defs₀ (F := F)) Variants.none () Set.univ)

/-- The program's six segments in order. -/
abbrev segs : List (Pipeline.Seg (pcfgs (F := F)) adm (pdats m) () defs₀ 𝒱₀ L lv) :=
  [ .host (hseg hostOps0 hostOps0_sub hostOps0_fresh (Gen.V0 m)),
    .region (reg0 m hb0),
    .host (hseg hostOps1 hostOps1_sub hostOps1_fresh (W2 m)),
    .region (reg1 m hb1),
    .host (hseg hostOps2 hostOps2_sub hostOps2_fresh (W4 m)),
    .region (reg2 m hb2) ]

/-- The program IS the run of its segments. -/
theorem main_run (c : Dev nD) : main (F := F) c = Pipeline.Seg.run (segs m hb0 hb1 hb2) := (main_chain c).trans (by chain_rfl)

include hb0 hb1 hb2 in
set_option backward.isDefEq.respectTransparency.types false in
/-- Every weakly fair execution from memory `m` with zero counters terminates, nothing faulting, and ends with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m hb0 hb1 hb2)
    (fun c Q => by rw [main_run m hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- No segment changes an argument: no host stretch writes it, a region changes its output array only. -/
theorem W6_arg (c : Dev nD) (r : Ref sig .tc) (h12 : r ≠ main_v12) (h2 : r ∉ hostOps2_W) (h9 : r ≠ main_v9)
    (h1 : r ∉ hostOps1_W) (h7 : r ≠ main_v7) (h0 : r ∉ hostOps0_W) : W6 m c r = m ((c : Thread nD τ).loc r) :=
  (W6_of_ne m c r h12).trans <| (StableHlo.after_of_writes_sub hostOps2 _ hostOps2_writes h2).trans <|
    (W4_of_ne m c r h9).trans <| (StableHlo.after_of_writes_sub hostOps1 _ hostOps1_writes h1).trans <|
    (W2_of_ne m c r h7).trans <| (Gen.V1_of m c r h0).trans rfl

include hb0 hb1 hb2 in
/-- The run read at the result and at the six arguments. -/
theorem run_value : θ_run defs (onTc (τ := τ) (main (F := F))) ⟨m, fun _ => 0, ρ⟩ (fun r => ∀ c : Dev nD,
      r.2.mem ((c.tc : Thread nD τ).loc main_v12) = (dat2 (VR5 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v12 (by decide))).trans (W6_out m c),
     (h c _ (mem_uc main_arg0 (by decide))).trans (W6_arg m c main_arg0 (by decide) (by decide) (by decide) (by decide) (by decide) (by decide)),
     (h c _ (mem_uc main_arg1 (by decide))).trans (W6_arg m c main_arg1 (by decide) (by decide) (by decide) (by decide) (by decide) (by decide)),
     (h c _ (mem_uc main_arg2 (by decide))).trans (W6_arg m c main_arg2 (by decide) (by decide) (by decide) (by decide) (by decide) (by decide)),
     (h c _ (mem_uc main_arg3 (by decide))).trans (W6_arg m c main_arg3 (by decide) (by decide) (by decide) (by decide) (by decide) (by decide)),
     (h c _ (mem_uc main_arg4 (by decide))).trans (W6_arg m c main_arg4 (by decide) (by decide) (by decide) (by decide) (by decide) (by decide)),
     (h c _ (mem_uc main_arg5 (by decide))).trans (W6_arg m c main_arg5 (by decide) (by decide) (by decide) (by decide) (by decide) (by decide))⟩)
    (run_all m ρ hb0 hb1 hb2)

include hb0 hb1 hb2 in
/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ hb0 hb1 hb2)

end Cert.Kernel.Frame

end
-- ==== Proof.KernelIdeal.Data01.lean ====
/-
  The two projection kernels (x·Wᵀ, one block of 1024 rows per grid point), as data for the pipeline's run: at the
  buffer contents `V` a kernel region is entered with, what each window's block is at a grid point, and what the
  body leaves in each staging buffer — the inputs' blocks as fetched, the output block the body's one stored value
  (the product of the row block with the whole weight matrix) of the two input blocks.
-/
import proofs.«151926_j33698313404453_2_alg».proof.Proof.Gen.KernelIdeal.Launch
import proofs.«151926_j33698313404453_2_alg».proof.Proof.Gen.KernelIdeal.Skeleton
import proofs.«151926_j33698313404453_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The query projection (pipeline 0) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 1024 × 1024 block: the rectangle of every load and of the store. -/
abbrev r0 : Rect S1024x1024 := Rect.unit (s := S1024x1024) ![0, 0] S1024x1024.size inb_S1024x1024_S1024x1024_0_0

/-- The output block after the body: its one store, of the product of the two input blocks. -/
def out0_2 (x0 : Vec F S1024x1024 .f32) (x1 : Vec F S1024x1024 .bf16) : Vec F S1024x1024 .bf16 :=
  View.canon [⟨r0, k0_pay1 (View.ld x0 r0) (View.ld x1 r0)⟩]

/-- The run's data: arrays as found; after the body each input at its block, the output at the product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The key/value projection (pipeline 1) -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1024 × 2048 block. -/
abbrev r1 : Rect S1024x2048 := Rect.unit (s := S1024x2048) ![0, 0] S1024x2048.size inb_S1024x2048_S1024x2048_0_0

def out1_2 (x0 : Vec F S1024x1024 .f32) (x1 : Vec F S1024x2048 .bf16) : Vec F S1024x2048 .bf16 :=
  View.canon [⟨r1, k1_pay1 (View.ld x0 r0) (View.ld x1 r1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.KernelIdeal.Frame

end
-- ==== Proof.KernelIdeal.Body0.lean ====
/-
  The body obligation of projection kernel 0 (the query projection): at every grid point the body, called on the current staging buffers,
  finds each input window's block in its buffer (whether or not the block was moved in at that point: a window whose
  block index does not change keeps the block it already holds), reads both, and overwrites the whole output buffer
  with the one value it computes from them; the run's invariant and what is owed pass through untouched.
-/
import proofs.«151926_j33698313404453_2_alg».proof.Proof.KernelIdeal.Data01

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Input window 0's current buffer holds its block at every point, moved in there or not, for any run data whose
    array is the entry contents and whose body leaves the block in place: the window is whole and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1, the weight matrix: its block index is constant, so it is moved in at the first
    point only and every later point finds the block the first one left. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The output buffer after the body -/

/-- The body's one store is over the whole output block, so it covers it. -/
theorem cover0_2 (p0 : Vec F S1024x1024 .bf16) (y : S1024x1024.Idx) :
    ∃ pc ∈ ([⟨r0, p0⟩] : List (View.Piece (Elt F) S1024x1024 .bf16)), y ∈ pc.1.set :=
  View.cover_of_tiled [⟨r0, p0⟩] S1024x1024.size (by rfl) y

/-! ## The body's triple -/

set_option maxHeartbeats 1000000 in
/-- The body on whole staging buffers, the inputs' at read contents `x0`, `x1` and the output's at anything, runs to
    the continuation holding the inputs' as they were and the output's at the product block `out0_2 x0 x1`. -/
theorem sound_kernel0 (c : Dev nD) (E : Set ℕ) (i : grid0.Coords)
    (arg1 : Memref sig .tc .vmem S1024x1024 .f32) (harg1 : arg1.IsWhole)
    (arg2 : Memref sig .tc .vmem S1024x1024 .bf16) (harg2 : arg2.IsWhole)
    (arg3 : Memref sig .tc .vmem S1024x1024 .bf16) (harg3 : arg3.IsWhole)
    (x0 : Vec F S1024x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KernelIdeal.Body1.lean ====
/-
  The body obligation of projection kernel 1 (the key/value projection): at every grid point the body, called on the current staging buffers,
  finds each input window's block in its buffer (whether or not the block was moved in at that point: a window whose
  block index does not change keeps the block it already holds), reads both, and overwrites the whole output buffer
  with the one value it computes from them; the run's invariant and what is owed pass through untouched.
-/
import proofs.«151926_j33698313404453_2_alg».proof.Proof.KernelIdeal.Data01

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Input window 0's current buffer holds its block at every point, moved in there or not, for any run data whose
    array is the entry contents and whose body leaves the block in place: the window is whole and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same of input window 1, the weight matrix: its block index is constant, so it is moved in at the first
    point only and every later point finds the block the first one left. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The output buffer after the body -/

/-- The body's one store is over the whole output block, so it covers it. -/
theorem cover1_2 (p0 : Vec F S1024x2048 .bf16) (y : S1024x2048.Idx) :
    ∃ pc ∈ ([⟨r1, p0⟩] : List (View.Piece (Elt F) S1024x2048 .bf16)), y ∈ pc.1.set :=
  View.cover_of_tiled [⟨r1, p0⟩] S1024x2048.size (by rfl) y

/-! ## The body's triple -/

set_option maxHeartbeats 1000000 in
/-- The body on whole staging buffers, the inputs' at read contents `x0`, `x1` and the output's at anything, runs to
    the continuation holding the inputs' as they were and the output's at the product block `out1_2 x0 x1`. -/
theorem sound_kernel1 (c : Dev nD) (E : Set ℕ) (i : grid1.Coords)
    (arg1 : Memref sig .tc .vmem S1024x1024 .f32) (harg1 : arg1.IsWhole)
    (arg2 : Memref sig .tc .vmem S1024x2048 .bf16) (harg2 : arg2.IsWhole)
    (arg3 : Memref sig .tc .vmem S1024x2048 .bf16) (harg3 : arg3.IsWhole)
    (x0 : Vec F S1024x1024 .f32) (x1 : Vec F S1024x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation, at a generic point -/

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the body's triple applies; the invariant and
    what is owed pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdeal.Data2.lean ====
/-
  The attention kernel (grid 4 × 8: batch b, key block kb of 256 keys), as data for the pipeline's run. Its output
  block — batch b's whole 2048 × 1024 result — stays in one staging buffer over the eight key blocks of a batch:
  at kb = 0 the body zeroes it first; at every point it then adds that key block's contribution (the column-wise
  softmax of the masked, scaled scores of all 2048 queries against the block's 256 keys, times the block's values);
  the buffer is written back after kb = 7. So what the buffer holds after point n is a recursion over the points:
  the contribution added to zero at the first key block, to what the point before left otherwise.
  The key and the value windows read ONE array (the fused projection), through two block maps: each holds half a share of it.
-/
import proofs.«151926_j33698313404453_2_alg».proof.Proof.Gen.KernelIdeal.Launch
import proofs.«151926_j33698313404453_2_alg».proof.Proof.Gen.KernelIdeal.Skeleton
import proofs.«151926_j33698313404453_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The body's one branch condition: the key-block coordinate is 0. -/
abbrev cond2 (i : grid2.Coords) : Prop :=
  (Scalar.cmpi .ne (Scalar.extui (Scalar.cmpi .eq (BitVec.ofNat 32 (i 1).val) 0#32)) 0#32) = 1#1

/-- It holds exactly at the first key block of each batch. -/
theorem hcond2 : ∀ t : Fin cfg2.N, cond2 (grid2.coords t) ↔ t.val % 8 = 0 :=
  (by decide +kernel : ∀ t : Fin grid2.N, cond2 (grid2.coords t) ↔ t.val % 8 = 0)

/-- One point's step on the output buffer: the key block's contribution added to what the buffer held. -/
def acc2 (x0 : Vec F S1x2048x1024 .bf16) (x1 x2 : Vec F S1x256x1024 .bf16) (x3 : Vec F S1x2048x256 .i32)
    (prev : Vec F S1x2048x1024 .f32) : Vec F S1x2048x1024 .f32 :=
  k2_pay1 (k2_pay3 x0 x1 x2 x3 prev)

/-- The zero block the first key block starts from. -/
def zero2 : Vec F S1x2048x1024 .f32 := k2_pay2

/-- What the output's staging buffer holds after the body at position `n`. -/
def outsAt2 (c : Dev nD) : (n : ℕ) → n < cfg2.N → Vec F S1x2048x1024 .f32
  | 0, hn => acc2 (iblk2 V c 0 ⟨0, hn⟩) (iblk2 V c 1 ⟨0, hn⟩) (iblk2 V c 2 ⟨0, hn⟩) (iblk2 V c 3 ⟨0, hn⟩) zero2
  | n + 1, hn =>
    if (n + 1) % 8 = 0 then
      acc2 (iblk2 V c 0 ⟨n + 1, hn⟩) (iblk2 V c 1 ⟨n + 1, hn⟩) (iblk2 V c 2 ⟨n + 1, hn⟩) (iblk2 V c 3 ⟨n + 1, hn⟩) zero2
    else
      acc2 (iblk2 V c 0 ⟨n + 1, hn⟩) (iblk2 V c 1 ⟨n + 1, hn⟩) (iblk2 V c 2 ⟨n + 1, hn⟩) (iblk2 V c 3 ⟨n + 1, hn⟩)
        (outsAt2 c n (Nat.lt_of_succ_lt hn))

/-- At a first key block: from zero. -/
theorem outsAt2_first (c : Dev nD) (t : Fin cfg2.N) (h0 : t.val % 8 = 0) :
    outsAt2 V c t.val t.isLt = acc2 (iblk2 V c 0 t) (iblk2 V c 1 t) (iblk2 V c 2 t) (iblk2 V c 3 t) zero2 := by
  obtain ⟨n, hn⟩ := t
  cases n with
  | zero => exact rfl
  | succ n => exact (if_pos h0).trans rfl

/-- At a later key block: from what the point before left. -/
theorem outsAt2_later (c : Dev nD) (t : Fin cfg2.N) (h0 : ¬t.val % 8 = 0) :
    outsAt2 V c t.val t.isLt = acc2 (iblk2 V c 0 t) (iblk2 V c 1 t) (iblk2 V c 2 t) (iblk2 V c 3 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The run's data: arrays as found; after the body each input at its block, the output at the recursion;
    the two windows on the fused projection hold half a share of it each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => outsAt2 V c t.val t.isLt
  Φ _ := Pipeline.ΦA spec2 c
  q w := match w with
    | ⟨1, _⟩ => fullShare.left
    | ⟨2, _⟩ => fullShare.right
    | _ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t.val t.isLt := by dsimp only [dat2]

end Cert.KernelIdeal.Frame

end
-- ==== Proof.KernelIdeal.Body2A.lean ====
/-
  The attention kernel's body at a first key block of a batch (key-block coordinate 0): it zeroes the output's
  staging buffer, then adds the key block's contribution to what it reads back. Run once on any whole staging
  buffers; what the run leaves in the output buffer is read back as a value.
-/
import proofs.«151926_j33698313404453_2_alg».proof.Proof.KernelIdeal.Data2
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The offsets of every load and store of the attention body: all zero, the whole block. -/
theorem off2_zero : (![0, 0, 0] : Fin 3 → Nat) = fun _ => 0 := funext fun a => by fin_cases a <;> rfl

set_option maxHeartbeats 1000000 in
/-- The attention body at a FIRST key block (the branch taken): on whole staging buffers, the four inputs at
    their contents and the output buffer at anything, it runs to the continuation with the inputs as they were
    and the output buffer overwritten by its stores, last first — the accumulation over the zero block it has
    just stored, then that zero block. -/
noncomputable def kernelRun2_A (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : cond2 i)
    (x0 : Vec F S1x2048x1024 .bf16) (x1 x2 : Vec F S1x256x1024 .bf16) (x3 : Vec F S1x2048x256 .i32) :
    { L : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc2_kernel i arg2 harg2 arg3 harg3 arg4 harg4 arg5 harg5 arg6 harg6) K } := by
  refine ⟨?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- Its stores cover the output block (each is the whole block). -/
theorem cover2_A (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : cond2 i)
    (x0 : Vec F S1x2048x1024 .bf16) (x1 x2 : Vec F S1x256x1024 .bf16) (x3 : Vec F S1x2048x256 .i32) (y : S1x2048x1024.Idx) :
    ∃ pc ∈ (kernelRun2_A c i arg2 harg2 arg3 harg3 arg4 harg4 arg5 harg5 arg6 harg6 hc x0 x1 x2 x3).1, y ∈ pc.1.set :=
  View.cover_of_tiledL (kernelRun2_A c i arg2 harg2 arg3 harg3 arg4 harg4 arg5 harg5 arg6 harg6 hc x0 x1 x2 x3).1 S1x2048x1024.size (by sl_kernel_rfl) y

/-- What the body leaves in the output buffer at a first key block, whatever it held: the key block's
    contribution added to the zero block. -/
theorem out2_A (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : cond2 i)
    (x0 : Vec F S1x2048x1024 .bf16) (x1 x2 : Vec F S1x256x1024 .bf16) (x3 : Vec F S1x2048x256 .i32) (f : arg6.view.ty.Contents (Elt F)) :
    arg6.view.read (Elt F) (arg6.view.writes (Elt F) f (kernelRun2_A c i arg2 harg2 arg3 harg3 arg4 harg4 arg5 harg5 arg6 harg6 hc x0 x1 x2 x3).1) = acc2 x0 x1 x2 x3 zero2 := by
  rw [View.read_writes_eq_canon _ _ _ (cover2_A c i arg2 harg2 arg3 harg3 arg4 harg4 arg5 harg5 arg6 harg6 hc x0 x1 x2 x3)]
  unfold kernelRun2_A
  dsimp only
  sl_unfold_words
  rw [View.canon_cons_unit_zero (S := S1x2048x1024) off2_zero, View.readCov_unit_zero (S := S1x2048x1024) _ off2_zero]
  unfold acc2 zero2
  simp only [View.readAt_eq_ld, harg2.read_unread, harg3.read_unread, harg4.read_unread, harg5.read_unread,
    View.ld_unit_zero (S := S1x2048x1024) off2_zero, View.ld_unit_zero (S := S1x256x1024) off2_zero, View.ld_unit_zero (S := S1x2048x256) off2_zero]

end Cert.KernelIdeal.Frame

end
-- ==== Proof.KernelIdeal.Body2B.lean ====
/-
  The attention kernel's body at a later key block of a batch (key-block coordinate not 0): it adds the key
  block's contribution to what the output's staging buffer holds. Run once on any whole staging buffers; what
  the run leaves in the output buffer is read back as a value.
-/
import proofs.«151926_j33698313404453_2_alg».proof.Proof.KernelIdeal.Body2A

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The attention body at a LATER key block (the branch not taken): on whole staging buffers, the four inputs at
    their contents and the output buffer at its running contents `xo`, it runs to the continuation with the inputs
    as they were and the output buffer overwritten by its one store — the accumulation over `xo`. -/
noncomputable def kernelRun2_B (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : ¬cond2 i)
    (x0 : Vec F S1x2048x1024 .bf16) (x1 x2 : Vec F S1x256x1024 .bf16) (x3 : Vec F S1x2048x256 .i32) (xo : Vec F S1x2048x1024 .f32) :
    { L : List (View.Piece (Elt F) S1x2048x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L)) -∗ K ⟨⟩))
          ⊢ wp frame (wpE (defs₀ (F := F)) Variants.none c none) E (cc2_kernel i arg2 harg2 arg3 harg3 arg4 harg4 arg5 harg5 arg6 harg6) K } := by
  refine ⟨?_, fun E K => ?run⟩
  case run =>
    simp only [cc2_kernel_eq_skeleton]; unfold cc2_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- Its store covers the output block (it is the whole block). -/
theorem cover2_B (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : ¬cond2 i)
    (x0 : Vec F S1x2048x1024 .bf16) (x1 x2 : Vec F S1x256x1024 .bf16) (x3 : Vec F S1x2048x256 .i32) (xo : Vec F S1x2048x1024 .f32) (y : S1x2048x1024.Idx) :
    ∃ pc ∈ (kernelRun2_B c i arg2 harg2 arg3 harg3 arg4 harg4 arg5 harg5 arg6 harg6 hc x0 x1 x2 x3 xo).1, y ∈ pc.1.set :=
  View.cover_of_tiledL (kernelRun2_B c i arg2 harg2 arg3 harg3 arg4 harg4 arg5 harg5 arg6 harg6 hc x0 x1 x2 x3 xo).1 S1x2048x1024.size (by sl_kernel_rfl) y

/-- What the body leaves in the output buffer at a later key block: the key block's contribution added to what
    the buffer held. -/
theorem out2_B (c : Dev nD) (i : grid2.Coords) (arg2 : Memref sig .tc .vmem S1x2048x1024 .bf16) (harg2 : arg2.IsWhole) (arg3 : Memref sig .tc .vmem S1x256x1024 .bf16) (harg3 : arg3.IsWhole) (arg4 : Memref sig .tc .vmem S1x256x1024 .bf16) (harg4 : arg4.IsWhole) (arg5 : Memref sig .tc .vmem S1x2048x256 .i32) (harg5 : arg5.IsWhole) (arg6 : Memref sig .tc .vmem S1x2048x1024 .f32) (harg6 : arg6.IsWhole) (hc : ¬cond2 i)
    (x0 : Vec F S1x2048x1024 .bf16) (x1 x2 : Vec F S1x256x1024 .bf16) (x3 : Vec F S1x2048x256 .i32) (xo : Vec F S1x2048x1024 .f32) (f : arg6.view.ty.Contents (Elt F)) :
    arg6.view.read (Elt F) (arg6.view.writes (Elt F) f (kernelRun2_B c i arg2 harg2 arg3 harg3 arg4 harg4 arg5 harg5 arg6 harg6 hc x0 x1 x2 x3 xo).1) = acc2 x0 x1 x2 x3 xo := by
  rw [View.read_writes_eq_canon _ _ _ (cover2_B c i arg2 harg2 arg3 harg3 arg4 harg4 arg5 harg5 arg6 harg6 hc x0 x1 x2 x3 xo)]
  unfold kernelRun2_B
  dsimp only
  rw [View.canon_unit_zero (S := S1x2048x1024) off2_zero]
  unfold acc2
  simp only [View.readAt_eq_ld, harg2.read_unread, harg3.read_unread, harg4.read_unread, harg5.read_unread, harg6.read_unread,
    View.ld_unit_zero (S := S1x2048x1024) off2_zero, View.ld_unit_zero (S := S1x256x1024) off2_zero, View.ld_unit_zero (S := S1x2048x256) off2_zero]

end Cert.KernelIdeal.Frame

end
-- ==== Proof.KernelIdeal.Body2.lean ====
/-
  The attention kernel's body obligation: at every grid point (batch b, key block kb) the body, called on the
  five windows' current staging buffers at what they then hold, leaves them at what the run's data says —
  the inputs untouched, the output at one more step of the accumulation over the batch's key blocks.
-/
import proofs.«151926_j33698313404453_2_alg».proof.Proof.KernelIdeal.Body2B

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each staging buffer holds when the body is called -/

/-- Each input's current staging buffer holds its block at every point, fetched there or not: where it is not
    fetched its block index has not moved (the query block over a batch's eight key blocks). -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-- At a later key block the output's staging buffer holds what the body left at the point before: the point
    is not the first, and the buffer is written back only after a batch's last key block. -/
theorem before2_4_later (c : Dev nD) (t : Fin cfg2.N) (h0 : ¬t.val % 8 = 0) (d) :
    (dat2 V c).before 4 t d = outsAt2 V c (t.val - 1) (Nat.lt_of_le_of_lt (Nat.sub_le _ _) t.isLt) := by
  have hN : t.val < 32 := lt_of_lt_of_eq t.isLt (show cfg2.N = 32 from N_2)
  rw [Dat.before_out_kept _ 4 rfl t (by omega) (Bool.eq_false_iff.mpr fun h => by have := (flush2_4 _).mp h; dsimp only at this; omega)
    (fun _ => rfl) (fun _ _ => rfl)]
  dsimp only [dat2]

/-! ## The body obligation, at a generic point -/

/-- Each window's current staging buffer at point `t`, and that it is a whole buffer. -/
abbrev ms2_0 (t : Fin cfg2.N) : Memref sig .tc .vmem S1x2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x2048x256 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x2048x1024 .f32 := win2_4.stage (cfg2.slots t 4)
abbrev hs2_4 (t : Fin cfg2.N) : (ms2_4 t).IsWhole := hstage2_4 ((cfg2.slots t 4).cast nbuf2_4)

/-- What the body is called with at point `t`: the invariant, what the core owes, the five windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 1000000 in
/-- The body at any point. The inputs' buffers hold their blocks. At a first key block the output buffer holds
    anything and the body leaves the contribution over zero; at a later one it holds what the point before left
    and the body leaves the contribution over that: the recursion of the run's data. The invariant passes
    through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  have hN : t.val < 32 := lt_of_lt_of_eq t.isLt (show cfg2.N = 32 from N_2)
  by_cases h0 : t.val % 8 = 0
  · rw [outsAt2_first V c t h0]
    iintro ⟨HΦ, Ho, ⟨%d0, H0⟩, ⟨%d1, H1⟩, ⟨%d2, H2⟩, ⟨%d3, H3⟩, ⟨%d4, H4⟩⟩
    iapply ((kernelRun2_A c (grid2.coords t) _ _ _ _ _ _ _ _ _ _ ((hcond2 t).mpr h0) (iblk2 V c 0 t) (iblk2 V c 1 t) (iblk2 V c 2 t) (iblk2 V c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact out2_A c _ _ _ _ _ _ _ _ _ _ _ _ _ _ _ _ _
  · rw [outsAt2_later V c t h0]
    simp only [before2_4_later V c t h0]
    iintro ⟨HΦ, Ho, ⟨%d0, H0⟩, ⟨%d1, H1⟩, ⟨%d2, H2⟩, ⟨%d3, H3⟩, ⟨%d4, H4⟩⟩
    iapply ((kernelRun2_B c (grid2.coords t) _ _ _ _ _ _ _ _ _ _ (fun h => h0 ((hcond2 t).mp h)) (iblk2 V c 0 t) (iblk2 V c 1 t) (iblk2 V c 2 t) (iblk2 V c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact out2_B c _ _ _ _ _ _ _ _ _ _ _ _ _ _ _ _ _ _

/-- The library's body obligation for the attention kernel's pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KernelIdeal.Bounds.lean ====
/-
  The run of the whole program: host operations, the query projection, a reshape, the key/value projection, a reshape
  and the mask's widening, the attention kernel. The buffer contents at each boundary are a fold from the launch
  memory: a host stretch applies its operations; a kernel region replaces its output array by what the pipeline's
  write-backs leave (the proof data's final array) and changes nothing else. Each region is entered holding every
  unscoped buffer at the boundary's contents and left holding them at the next boundary's.
-/
import proofs.«151926_j33698313404453_2_alg».proof.Proof.Gen.KernelIdeal.Regions
import proofs.«151926_j33698313404453_2_alg».proof.Proof.KernelIdeal.Data01
import proofs.«151926_j33698313404453_2_alg».proof.Proof.KernelIdeal.Data2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- After the first host stretch (the query projection's entry), read at the TensorCore's references. -/
abbrev VR1 (c : Dev nD) (b : Ref sig .tc) : Buf (Elt F) ((c : Thread nD τ).loc b) := Gen.V1 m c b

/-- After the query projection: its output array at what the pipeline leaves. -/
def W2 (c : Dev nD) : Valuation τ sig (Elt F) :=
  Function.update (Gen.V1 m c) main_v7 ((dat0 (VR1 m) c).arrAt 2 cfg0.N)
abbrev VR2 (c : Dev nD) (b : Ref sig .tc) : Buf (Elt F) ((c : Thread nD τ).loc b) := W2 m c b

/-- After the reshape of the projected queries (the key/value projection's entry). -/
abbrev W3 (c : Dev nD) : Valuation τ sig (Elt F) := StableHlo.after hostOps1 (W2 m c)
abbrev VR3 (c : Dev nD) (b : Ref sig .tc) : Buf (Elt F) ((c : Thread nD τ).loc b) := W3 m c b

/-- After the key/value projection. -/
def W4 (c : Dev nD) : Valuation τ sig (Elt F) :=
  Function.update (W3 m c) main_v9 ((dat1 (VR3 m) c).arrAt 2 cfg1.N)
abbrev VR4 (c : Dev nD) (b : Ref sig .tc) : Buf (Elt F) ((c : Thread nD τ).loc b) := W4 m c b

/-- After the reshape of the fused projection and the mask's widening (the attention kernel's entry). -/
abbrev W5 (c : Dev nD) : Valuation τ sig (Elt F) := StableHlo.after hostOps2 (W4 m c)
abbrev VR5 (c : Dev nD) (b : Ref sig .tc) : Buf (Elt F) ((c : Thread nD τ).loc b) := W5 m c b

/-- After the attention kernel: the end. -/
def W6 (c : Dev nD) : Valuation τ sig (Elt F) :=
  Function.update (W5 m c) main_v12 ((dat2 (VR5 m) c).arrAt 4 cfg2.N)
abbrev VR6 (c : Dev nD) (b : Ref sig .tc) : Buf (Elt F) ((c : Thread nD τ).loc b) := W6 m c b

theorem W2_out (c : Dev nD) : W2 m c main_v7 = (dat0 (VR1 m) c).arrAt 2 cfg0.N := by
  unfold W2; exact Function.update_self ..
theorem W2_of_ne (c : Dev nD) (b : Ref sig .tc) (h : b ≠ main_v7) : W2 m c b = Gen.V1 m c b := by
  unfold W2; exact Function.update_of_ne (StableHlo.devRef_ne_of_ne h) ..
theorem W4_out (c : Dev nD) : W4 m c main_v9 = (dat1 (VR3 m) c).arrAt 2 cfg1.N := by
  unfold W4; exact Function.update_self ..
theorem W4_of_ne (c : Dev nD) (b : Ref sig .tc) (h : b ≠ main_v9) : W4 m c b = W3 m c b := by
  unfold W4; exact Function.update_of_ne (StableHlo.devRef_ne_of_ne h) ..
theorem W6_out (c : Dev nD) : W6 m c main_v12 = (dat2 (VR5 m) c).arrAt 4 cfg2.N := by
  unfold W6; exact Function.update_self ..
theorem W6_of_ne (c : Dev nD) (b : Ref sig .tc) (h : b ≠ main_v12) : W6 m c b = W5 m c b := by
  unfold W6; exact Function.update_of_ne (StableHlo.devRef_ne_of_ne h) ..

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (VR1 m) c
  | ⟨1, _⟩ => fun c => dat1 (VR3 m) c
  | ⟨2, _⟩ => fun c => dat2 (VR5 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Frame

end
-- ==== Proof.KernelIdeal.Reg0.lean ====
/-
  The query projection as one segment of the run: entered holding every unscoped buffer at the first host stretch's
  contents, left holding them at the next boundary's — its output array at what the write-backs leave, nothing else changed.
-/
import proofs.«151926_j33698313404453_2_alg».proof.Proof.KernelIdeal.Bounds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)
/-! ## The query projection as a segment -/

theorem hF0 (c : Dev nD) (w : Fin cfg0.W) : (dat0 (VR1 m) c).arrAt w cfg0.N = VR2 m c (Pipeline.arrRef spec0 w) := by
  match w with
  | ⟨0, _⟩ => exact ((dat0 (VR1 m) c).arrAt_in 0 rfl _).trans ((A_eq0 (VR1 m) c 0).trans (W2_of_ne m c main_v0 (by decide)).symm)
  | ⟨1, _⟩ => exact ((dat0 (VR1 m) c).arrAt_in 1 rfl _).trans ((A_eq0 (VR1 m) c 1).trans (W2_of_ne m c main_v3 (by decide)).symm)
  | ⟨2, _⟩ => exact (W2_out m c).symm
theorem hrest0 (c : Dev nD) : ∀ b, b ∉ Finset.univ.image (Pipeline.arrRef spec0) → VR2 m c b = VR1 m c b :=
  fun b hb => W2_of_ne m c b fun e => hb (Finset.mem_image.mpr ⟨2, Finset.mem_univ _, e.symm⟩)

set_option backward.isDefEq.respectTransparency.types false in
/-- The query projection: entered holding every unscoped buffer at the first stretch's contents, left at `W2`. -/
def reg0 (hb : ∀ c, BodyObligation (dat0 (F := F) (VR1 m) c) (defs₀ (F := F)) Variants.none () Set.univ) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KernelIdeal.Reg1.lean ====
/-
  The key/value projection as one segment of the run: entered at the contents after the queries' reshape, left with its
  output array at what the write-backs leave, nothing else changed.
-/
import proofs.«151926_j33698313404453_2_alg».proof.Proof.KernelIdeal.Bounds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)
/-! ## The key/value projection as a segment -/

theorem hF1 (c : Dev nD) (w : Fin cfg1.W) : (dat1 (VR3 m) c).arrAt w cfg1.N = VR4 m c (Pipeline.arrRef spec1 w) := by
  match w with
  | ⟨0, _⟩ => exact ((dat1 (VR3 m) c).arrAt_in 0 rfl _).trans ((A_eq1 (VR3 m) c 0).trans (W4_of_ne m c main_v1 (by decide)).symm)
  | ⟨1, _⟩ => exact ((dat1 (VR3 m) c).arrAt_in 1 rfl _).trans ((A_eq1 (VR3 m) c 1).trans (W4_of_ne m c main_v6 (by decide)).symm)
  | ⟨2, _⟩ => exact (W4_out m c).symm
theorem hrest1 (c : Dev nD) : ∀ b, b ∉ Finset.univ.image (Pipeline.arrRef spec1) → VR4 m c b = VR3 m c b :=
  fun b hb => W4_of_ne m c b fun e => hb (Finset.mem_image.mpr ⟨2, Finset.mem_univ _, e.symm⟩)

set_option backward.isDefEq.respectTransparency.types false in
/-- The key/value projection: entered at `W3`, left at `W4`. -/
def reg1 (hb : ∀ c, BodyObligation (dat1 (F := F) (VR3 m) c) (defs₀ (F := F)) Variants.none () Set.univ) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (VR3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VR3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VR3 m c) (VR4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KernelIdeal.Reg2.lean ====
/-
  The attention kernel as one segment of the run: entered holding every unscoped buffer at the contents after the fused
  projection's reshape and the mask's widening, left with its output array at what the write-backs leave, nothing else changed.
-/
import proofs.«151926_j33698313404453_2_alg».proof.Proof.KernelIdeal.Bounds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The attention kernel as a segment

Its key window and its value window read ONE array (the fused projection), so the arrays are not distinct buffers: the
four buffers behind the five windows are split explicitly — the shared one into two half shares — and joined back. -/

/-- The buffers behind the five windows, each whole at the full share, make the pipeline's arrays at entry: the fused
    projection's buffer splits into the two windows' half shares. -/
theorem arrays2_of_arrBufs (c : Dev nD) (V : (b : Ref sig .tc) → Buf (Elt F) ((c : Thread nD τ).loc b))
    (dat : Dat τ (Elt F) Unit ℕ (UR sig nD τ) ℕ cfg2 c)
    (hq1 : dat.q 1 = fullShare.left) (hq2 : dat.q 2 = fullShare.right) (hq0 : dat.q 0 = fullShare) (hq3 : dat.q 3 = fullShare)
    (G : (w : Fin cfg2.W) → Buf (Elt F) ((cfg2.win w).arr.view.loc (c : Thread nD τ))) (hG : ∀ w, G w = V (Pipeline.arrRef spec2 w)) :
    (Pipeline.arrBufs (Ix := Unit) (Name := ℕ) (U := UR sig nD τ) (Lvl := ℕ) spec2 c V : sProp 𝕄) ⊢ dat.arrays G := by
  unfold Pipeline.arrBufs Dat.arrays
  rw [bigSep_eq_bigSepL_of_eq [main_v8, main_v10, main_v11, main_v12] (by decide) (by decide), bigSep_W2]
  have s0 : dat.share 0 = fullShare := by unfold Dat.share; rw [if_neg (by decide), hq0]
  have s1 : dat.share 1 = fullShare.left := by unfold Dat.share; rw [if_neg (by decide), hq1]
  have s2 : dat.share 2 = fullShare.right := by unfold Dat.share; rw [if_neg (by decide), hq2]
  have s3 : dat.share 3 = fullShare := by unfold Dat.share; rw [if_neg (by decide), hq3]
  have s4 : dat.share 4 = fullShare := by unfold Dat.share; rw [if_pos (by decide)]
  rw [s0, s1, s2, s3, s4, (arr_whole2 0).set_eq_univ, (arr_whole2 1).set_eq_univ,
    (arr_whole2 3).set_eq_univ, (arr_whole2 4).set_eq_univ, hG 0, hG 1, hG 2, hG 3, hG 4]
  show (iprop((((c : Thread nD τ).loc main_v8) ↦{fullShare} V main_v8) ∗ (((c : Thread nD τ).loc main_v10) ↦{fullShare} V main_v10) ∗ (((c : Thread nD τ).loc main_v11) ↦{fullShare} V main_v11) ∗ (((c : Thread nD τ).loc main_v12) ↦{fullShare} V main_v12)) : sProp 𝕄) ⊢ _
  iintro ⟨H8, H10, H11, H12⟩
  ihave H10s := (pointsTo_share (PosShare.mem_left_op_right fullShare)).1 $$ H10
  icases H10s with ⟨H10l, H10r⟩
  isplitl [H8]; · iexact H8
  isplitl [H10l]; · iexact H10l
  isplitl [H10r]; · iexact H10r
  isplitl [H11]; · iexact H11
  iexact H12

/-- The way back: the five windows' arrays, held at contents that are one valuation's, are the four buffers behind them
    whole at the full share: the two half shares of the fused projection's buffer join. -/
theorem arrBufs_of_arrays2 (c : Dev nD) (V : (b : Ref sig .tc) → Buf (Elt F) ((c : Thread nD τ).loc b))
    (dat : Dat τ (Elt F) Unit ℕ (UR sig nD τ) ℕ cfg2 c)
    (hq1 : dat.q 1 = fullShare.left) (hq2 : dat.q 2 = fullShare.right) (hq0 : dat.q 0 = fullShare) (hq3 : dat.q 3 = fullShare)
    (G : (w : Fin cfg2.W) → Buf (Elt F) ((cfg2.win w).arr.view.loc (c : Thread nD τ))) (hG : ∀ w, G w = V (Pipeline.arrRef spec2 w)) :
    dat.arrays G ⊢ (Pipeline.arrBufs (Ix := Unit) (Name := ℕ) (U := UR sig nD τ) (Lvl := ℕ) spec2 c V : sProp 𝕄) := by
  unfold Pipeline.arrBufs Dat.arrays
  rw [bigSep_eq_bigSepL_of_eq [main_v8, main_v10, main_v11, main_v12] (by decide) (by decide), bigSep_W2]
  have s0 : dat.share 0 = fullShare := by unfold Dat.share; rw [if_neg (by decide), hq0]
  have s1 : dat.share 1 = fullShare.left := by unfold Dat.share; rw [if_neg (by decide), hq1]
  have s2 : dat.share 2 = fullShare.right := by unfold Dat.share; rw [if_neg (by decide), hq2]
  have s3 : dat.share 3 = fullShare := by unfold Dat.share; rw [if_neg (by decide), hq3]
  have s4 : dat.share 4 = fullShare := by unfold Dat.share; rw [if_pos (by decide)]
  rw [s0, s1, s2, s3, s4, (arr_whole2 0).set_eq_univ, (arr_whole2 1).set_eq_univ,
    (arr_whole2 3).set_eq_univ, (arr_whole2 4).set_eq_univ, hG 0, hG 1, hG 2, hG 3, hG 4]
  show _ ⊢ (iprop((((c : Thread nD τ).loc main_v8) ↦{fullShare} V main_v8) ∗ (((c : Thread nD τ).loc main_v10) ↦{fullShare} V main_v10) ∗ (((c : Thread nD τ).loc main_v11) ↦{fullShare} V main_v11) ∗ (((c : Thread nD τ).loc main_v12) ↦{fullShare} V main_v12)) : sProp 𝕄)
  iintro ⟨H8, H10l, H10r, H11, H12⟩
  ihave H10 := (pointsTo_share (PosShare.mem_left_op_right fullShare)).2 $$ [H10l H10r]
  · isplitl [H10l]; · iexact H10l
    iexact H10r
  isplitl [H8]; · iexact H8
  isplitl [H10]; · iexact H10
  isplitl [H11]; · iexact H11
  iexact H12

theorem hF2 (c : Dev nD) (w : Fin cfg2.W) : (dat2 (VR5 m) c).arrAt w cfg2.N = VR6 m c (Pipeline.arrRef spec2 w) := by
  match w with
  | ⟨0, _⟩ => exact ((dat2 (VR5 m) c).arrAt_in 0 rfl _).trans ((A_eq2 (VR5 m) c 0).trans (W6_of_ne m c main_v8 (by decide)).symm)
  | ⟨1, _⟩ => exact ((dat2 (VR5 m) c).arrAt_in 1 rfl _).trans ((A_eq2 (VR5 m) c 1).trans (W6_of_ne m c main_v10 (by decide)).symm)
  | ⟨2, _⟩ => exact ((dat2 (VR5 m) c).arrAt_in 2 rfl _).trans ((A_eq2 (VR5 m) c 2).trans (W6_of_ne m c main_v10 (by decide)).symm)
  | ⟨3, _⟩ => exact ((dat2 (VR5 m) c).arrAt_in 3 rfl _).trans ((A_eq2 (VR5 m) c 3).trans (W6_of_ne m c main_v11 (by decide)).symm)
  | ⟨4, _⟩ => exact (W6_out m c).symm
theorem hrest2 (c : Dev nD) : ∀ b, b ∉ Finset.univ.image (Pipeline.arrRef spec2) → VR6 m c b = VR5 m c b :=
  fun b hb => W6_of_ne m c b fun e => hb (Finset.mem_image.mpr ⟨4, Finset.mem_univ _, e.symm⟩)

/-- The last thread state without the `owes`: every unscoped buffer at the final contents, the generator register
    at some state. -/
abbrev Tₙ (c : Dev nD) : sProp 𝕄 := iprop(StableHlo.held (c : Thread nD τ) (Pipeline.ucRefs τ sig) (W6 m c) ∗ ∃ r, prngReg c r)

set_option backward.isDefEq.respectTransparency.types false in
/-- The attention kernel: entered at `W5`, left at `W6`. -/
def reg2 (hb : ∀ c, BodyObligation (dat2 (F := F) (VR5 m) c) (defs₀ (F := F)) Variants.none () Set.univ) :
    Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VR5 m c)
  hentry c := by
    rw [Pipeline.ownSems0_none]
    have hsplit : (unscopedBufs (Ix := Unit) (Name := ℕ) (U := UR sig nD τ) (Lvl := ℕ) c (VR5 m c) : sProp 𝕄)
        ⊢ iprop((pdats m 2 c).arrays ((pdats m 2 c).arrAt · 0) ∗ Pipeline.unscopedRest spec2 c (VR5 m c)) := by
      rw [Pipeline.unscopedBufs_split₀ (Pipeline.pin (pcfgs (F := F)) adm) 2 winFacts₀2.arr_unscoped c (VR5 m c)]
      exact sep_mono (arrays2_of_arrBufs c (VR5 m c) (pdats m 2 c) rfl rfl rfl rfl _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (VR5 m c))
        ⊢ (unscopedBufs (Ix := Unit) (Name := ℕ) (U := UR sig nD τ) (Lvl := ℕ) c (VR6 m c) : sProp 𝕄) := by
      rw [Pipeline.unscopedBufs_split₀ (Pipeline.pin (pcfgs (F := F)) adm) 2 winFacts₀2.arr_unscoped c (VR6 m c)]
      refine sep_mono (arrBufs_of_arrays2 c (VR6 m c) (pdats m 2 c) rfl rfl rfl rfl _ (hF2 m c)) (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Frame

end
-- ==== Proof.KernelIdeal.Run.lean ====
/-
  The whole run: the program is its six segments in order (three host stretches, three kernel regions), each entered
  from the thread state the one before leaves; so every weakly fair execution ends, faulting nowhere, with every unscoped
  buffer at the last boundary's contents. Read at the arguments (no host operation writes one, no region changes one)
  this is the frame; read at the result it is the attention kernel's final output array.
-/
import proofs.«151926_j33698313404453_2_alg».proof.Proof.KernelIdeal.Reg0
import proofs.«151926_j33698313404453_2_alg».proof.Proof.KernelIdeal.Reg1
import proofs.«151926_j33698313404453_2_alg».proof.Proof.KernelIdeal.Reg2

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

variable (hb0 : ∀ c, BodyObligation (dat0 (F := F) (VR1 m) c) (defs₀ (F := F)) Variants.none () Set.univ)
  (hb1 : ∀ c, BodyObligation (dat1 (F := F) (VR3 m) c) (defs₀ (F := F)) Variants.none () Set.univ)
  (hb2 : ∀ c, BodyObligation (dat2 (F := F) (VR5 m) c) (defs₀ (F := F)) Variants.none () Set.univ)

/-- The program's six segments in order. -/
abbrev segs : List (Pipeline.Seg (pcfgs (F := F)) adm (pdats m) () defs₀ 𝒱₀ L lv) :=
  [ .host (hseg hostOps0 hostOps0_sub hostOps0_fresh (Gen.V0 m)),
    .region (reg0 m hb0),
    .host (hseg hostOps1 hostOps1_sub hostOps1_fresh (W2 m)),
    .region (reg1 m hb1),
    .host (hseg hostOps2 hostOps2_sub hostOps2_fresh (W4 m)),
    .region (reg2 m hb2) ]

/-- The program IS the run of its segments. -/
theorem main_run (c : Dev nD) : main (F := F) c = Pipeline.Seg.run (segs m hb0 hb1 hb2) := (main_chain c).trans (by chain_rfl)

include hb0 hb1 hb2 in
set_option backward.isDefEq.respectTransparency.types false in
/-- Every weakly fair execution from memory `m` with zero counters terminates, nothing faulting, and ends with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m hb0 hb1 hb2)
    (fun c Q => by rw [main_run m hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- No segment changes an argument: no host stretch writes it, a region changes its output array only. -/
theorem W6_arg (c : Dev nD) (r : Ref sig .tc) (h12 : r ≠ main_v12) (h2 : r ∉ hostOps2_W) (h9 : r ≠ main_v9)
    (h1 : r ∉ hostOps1_W) (h7 : r ≠ main_v7) (h0 : r ∉ hostOps0_W) : W6 m c r = m ((c : Thread nD τ).loc r) :=
  (W6_of_ne m c r h12).trans <| (StableHlo.after_of_writes_sub hostOps2 _ hostOps2_writes h2).trans <|
    (W4_of_ne m c r h9).trans <| (StableHlo.after_of_writes_sub hostOps1 _ hostOps1_writes h1).trans <|
    (W2_of_ne m c r h7).trans <| (Gen.V1_of m c r h0).trans rfl

include hb0 hb1 hb2 in
/-- The run read at the result and at the six arguments. -/
theorem run_value : θ_run defs (onTc (τ := τ) (main (F := F))) ⟨m, fun _ => 0, ρ⟩ (fun r => ∀ c : Dev nD,
      r.2.mem ((c.tc : Thread nD τ).loc main_v12) = (dat2 (VR5 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v12 (by decide))).trans (W6_out m c),
     (h c _ (mem_uc main_arg0 (by decide))).trans (W6_arg m c main_arg0 (by decide) (by decide) (by decide) (by decide) (by decide) (by decide)),
     (h c _ (mem_uc main_arg1 (by decide))).trans (W6_arg m c main_arg1 (by decide) (by decide) (by decide) (by decide) (by decide) (by decide)),
     (h c _ (mem_uc main_arg2 (by decide))).trans (W6_arg m c main_arg2 (by decide) (by decide) (by decide) (by decide) (by decide) (by decide)),
     (h c _ (mem_uc main_arg3 (by decide))).trans (W6_arg m c main_arg3 (by decide) (by decide) (by decide) (by decide) (by decide) (by decide)),
     (h c _ (mem_uc main_arg4 (by decide))).trans (W6_arg m c main_arg4 (by decide) (by decide) (by decide) (by decide) (by decide) (by decide)),
     (h c _ (mem_uc main_arg5 (by decide))).trans (W6_arg m c main_arg5 (by decide) (by decide) (by decide) (by decide) (by decide) (by decide))⟩)
    (run_all m ρ hb0 hb1 hb2)

include hb0 hb1 hb2 in
/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_value m ρ hb0 hb1 hb2)

end Cert.KernelIdeal.Frame

end
-- ==== Proof.KernelIdeal.Chain.lean ====
/-
  Which boundary a buffer was last written at: the projected queries' reshape is untouched by the second projection and
  the last host stretch; the second projection's operands are untouched by the first region and the reshape between;
  the mask is untouched up to its widening. Each fact walks the fold of the boundaries back to where the buffer was written.
-/
import proofs.«151926_j33698313404453_2_alg».proof.Proof.KernelIdeal.Bounds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

theorem W5_v8 (c : Dev nD) : W5 m c main_v8 = StableHlo.after hostOps1 (W2 m c) main_v8 :=
  (StableHlo.after_of_writes_sub hostOps2 _ hostOps2_writes (by decide : main_v8 ∉ hostOps2_W)).trans (W4_of_ne m c main_v8 (by decide))

theorem W3_v1 (c : Dev nD) : W3 m c main_v1 = Gen.V1 m c main_v1 :=
  (StableHlo.after_of_writes_sub hostOps1 _ hostOps1_writes (by decide : main_v1 ∉ hostOps1_W)).trans (W2_of_ne m c main_v1 (by decide))

theorem W3_v6 (c : Dev nD) : W3 m c main_v6 = Gen.V1 m c main_v6 :=
  (StableHlo.after_of_writes_sub hostOps1 _ hostOps1_writes (by decide : main_v6 ∉ hostOps1_W)).trans (W2_of_ne m c main_v6 (by decide))

theorem W4_arg2 (c : Dev nD) : W4 m c main_arg2 = m ((c : Thread nD τ).loc main_arg2) :=
  (W4_of_ne m c main_arg2 (by decide)).trans <|
    (StableHlo.after_of_writes_sub hostOps1 _ hostOps1_writes (by decide : main_arg2 ∉ hostOps1_W)).trans <|
    (W2_of_ne m c main_arg2 (by decide)).trans <| (Gen.V1_of m c main_arg2 (by decide)).trans rfl

end Cert.KernelIdeal.Frame

end
-- ==== Proof.Spec.lean ====
/-
  The function this certificate is about: single-head attention whose softmax runs over the QUERY axis, at one
  output coordinate, as an expression of the six argument arrays over the extended reals.

  For a batch b: the projections q = x₁·Wqᵀ, k = x₂·Wkᵀ, v = x₂·Wvᵀ (sums over the 1024 input features); the
  logit of query i against key j is the mask's constant where the mask bit is set and (Σ_h q[i,h]·k[j,h])·(1/32)
  elsewhere (1/32 = 1/√1024); each key column j is normalised over ALL queries i — its maximum, the exponentials
  of the differences, their sum, the quotient — and the result at (b, i, h) is Σ_j p[i,j]·v[j,h].
-/
import Idealize.ShloMosaic.PureOps.Ideal
import Idealize.ShloMosaic.Lib.ValueIdx

noncomputable section

open scoped BigOperators

namespace Cert.Spec

open Idealize.ShloMosaic Idealize.ShloMosaic.ValueIdx

/-- The activations' shape, the mask's (and the scores'), a weight's. -/
abbrev SA : Shape := ⟨3, ![4, 2048, 1024]⟩
abbrev SM : Shape := ⟨3, ![4, 2048, 2048]⟩
abbrev SW : Shape := ⟨2, ![1024, 1024]⟩

/-- The value a masked position takes (the same word in both programs; never evaluated). -/
def maskWord : EReal := Ideal.ofBits .f32 0x3089705F#32
/-- The value a column maximum starts from (the same word in both programs; never evaluated). -/
def negInf : EReal := Ideal.ofBits .f32 0xFF800000#32

/-- A projection x·Wᵀ at (b, s, h). -/
def proj (x : SA.Idx → EReal) (W : SW.Idx → EReal) (b : Fin 4) (s : Fin 2048) (h : Fin 1024) : EReal :=
  ∑ d : Fin 1024, x (ix3 b s d) * W (ix2 h d)

/-- The masked, scaled score of query i against key j. -/
def logit (mask : SM.Idx → BitVec 1) (q k : Fin 4 → Fin 2048 → Fin 1024 → EReal) (b : Fin 4) (i j : Fin 2048) : EReal :=
  Scalar.select (mask (ix3 b i j)) maskWord ((∑ h : Fin 1024, q b i h * k b j h) * ((1 / 32 : ℝ) : EReal))

/-- Key column j's maximum over all queries. -/
def colMax (z : Fin 4 → Fin 2048 → Fin 2048 → EReal) (b : Fin 4) (j : Fin 2048) : EReal :=
  (Finset.univ : Finset (Fin 2048)).fold max negInf fun i => z b i j

/-- The exponential of a logit less its column's maximum. -/
def ex (z : Fin 4 → Fin 2048 → Fin 2048 → EReal) (b : Fin 4) (i j : Fin 2048) : EReal :=
  Ideal.exp (z b i j - colMax z b j)

/-- Key column j's sum of exponentials over all queries. -/
def colSum (z : Fin 4 → Fin 2048 → Fin 2048 → EReal) (b : Fin 4) (j : Fin 2048) : EReal :=
  ∑ i : Fin 2048, ex z b i j

/-- The normalised weight of query i in key column j. -/
def prob (z : Fin 4 → Fin 2048 → Fin 2048 → EReal) (b : Fin 4) (i j : Fin 2048) : EReal :=
  Ideal.div (ex z b i j) (colSum z b j)

/-- The attention output at (b, i, h). -/
def attn (x1 x2 : SA.Idx → EReal) (mask : SM.Idx → BitVec 1) (Wq Wk Wv : SW.Idx → EReal)
    (b : Fin 4) (i : Fin 2048) (h : Fin 1024) : EReal :=
  ∑ j : Fin 2048, prob (logit mask (proj x1 Wq) (proj x2 Wk)) b i j * proj x2 Wv b j h

/-- The same as an array. -/
def attnArr (x1 x2 : SA.Idx → EReal) (mask : SM.Idx → BitVec 1) (Wq Wk Wv : SW.Idx → EReal) : SA.Idx → EReal :=
  fun y => attn x1 x2 mask Wq Wk Wv ⟨(y 0).val, (y 0).isLt⟩ ⟨(y 1).val, (y 1).isLt⟩ ⟨(y 2).val, (y 2).isLt⟩

theorem attnArr_ix3 (x1 x2 : SA.Idx → EReal) (mask : SM.Idx → BitVec 1) (Wq Wk Wv : SW.Idx → EReal)
    (b : Fin 4) (i : Fin 2048) (h : Fin 1024) :
    attnArr x1 x2 mask Wq Wk Wv (ix3 b i h) = attn x1 x2 mask Wq Wk Wv b i h := rfl

end Cert.Spec

end
-- ==== Proof.KSpec.lean ====
/-
  What the attention kernel computes from the arrays it is handed, at one output coordinate: the projected queries
  Q [4, 2048, 1024], the fused projected keys and values KV [4, 2048, 2048] (keys in the first 1024 features, values in
  the last 1024) and the mask as 32-bit words M [4, 2048, 2048]. The logit of query i against key j is the mask's
  constant where the word is not zero and (Σ_h Q[i,h]·KV[j,h]) times the word of 1/32 elsewhere; the column-wise
  normalisation is the specification's own (`Cert.Spec.prob`, over all 2048 queries); the result sums the eight key
  blocks of 256 keys one after the other.
-/
import proofs.«151926_j33698313404453_2_alg».proof.Proof.Spec

noncomputable section

open scoped BigOperators

namespace Cert.KSpec

open Idealize.ShloMosaic Idealize.ShloMosaic.ValueIdx Cert.Spec

/-- Key feature h of the fused projection (its first half). -/
abbrev kf (h : Fin 1024) : Fin 2048 := ⟨h.val, by omega⟩
/-- Value feature h of the fused projection (its second half). -/
abbrev vf (h : Fin 1024) : Fin 2048 := ⟨1024 + h.val, by omega⟩
/-- Key jj of key block kb. -/
abbrev key (kb : Fin 8) (jj : Fin 256) : Fin 2048 := ⟨kb.val * 256 + jj.val, by omega⟩

/-- The kernel's masked, scaled score of query i against key j. -/
def klogit (Q : SA.Idx → EReal) (KV : SM.Idx → EReal) (M : SM.Idx → BitVec 32) (b : Fin 4) (i j : Fin 2048) : EReal :=
  Scalar.select (IntOp.cmpi .ne (M (ix3 b i j)) 0#32) maskWord
    ((∑ h : Fin 1024, Q (ix3 b i h) * KV (ix3 b j (kf h))) * Ideal.ofBits .f32 0x3D000000#32)

/-- Key block kb's contribution to the output at (b, i, h). -/
def contrib (Q : SA.Idx → EReal) (KV : SM.Idx → EReal) (M : SM.Idx → BitVec 32) (b : Fin 4) (kb : Fin 8)
    (i : Fin 2048) (h : Fin 1024) : EReal :=
  ∑ jj : Fin 256, prob (klogit Q KV M) b i (key kb jj) * KV (ix3 b (key kb jj) (vf h))

/-- The kernel's output at (b, i, h): the eight contributions. -/
def kattn (Q : SA.Idx → EReal) (KV : SM.Idx → EReal) (M : SM.Idx → BitVec 32) (b : Fin 4) (i : Fin 2048) (h : Fin 1024) : EReal :=
  ∑ kb : Fin 8, contrib Q KV M b kb i h

end Cert.KSpec

end
-- ==== Proof.Value.Host.lean ====
/-
  What the host operations of the kernel's program leave in the arrays the three kernel regions read and in the
  arrays the program returns, at an index.

  Before the first region: each activation array [4, 2048, 1024] is laid out again as [8192, 1024], row 2048·b + s
  of the result being row (b, s) of the operand (the two row-major positions are equal); the query weight is
  transposed, entry (d, h) of the result being entry (h, d) of the operand; the key and value weights are stacked
  along the first axis into [2048, 1024] and the stack is transposed into [1024, 2048], so that column h of the
  result, for h below 1024, is row h of the key weight, and column 1024 + h is row h of the value weight.  The
  narrowing of the float format that follows a transpose is the identity on the extended reals.
  Between the regions: an array [8192, 1024] or [8192, 2048] is laid out again as [4, 2048, 1024] or
  [4, 2048, 2048], entry (b, s, h) of the result being entry (2048·b + s, h) of the operand; and every mask bit is
  widened to a 32-bit word.  These last three hold from any contents of the buffers.
-/
import proofs.«151926_j33698313404453_2_alg».proof.Proof.Gen.KernelIdeal.Regions
import proofs.«151926_j33698313404453_2_alg».proof.Proof.KSpec
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.ShloMosaic.ValueIdx

/-- Row (b, s) of a [4, 2048, ·] array in the [8192, ·] layout. -/
abbrev row (b : Fin 4) (s : Fin 2048) : Fin 8192 := ⟨2048 * b.val + s.val, by omega⟩

/-! ### The layout operations at an index, over any operand -/

/-- [4, 2048, 1024] laid out as [8192, 1024]: entry (2048·b + s, d) is entry (b, s, d). -/
theorem rows_of_batches (x : S4x2048x1024.Idx → EReal) (b : Fin 4) (s : Fin 2048) (d : Fin 1024) :
    shapeCast S8192x1024 x shapeCasts_S4x2048x1024_S8192x1024 (ix2 (row b s) d) = x (ix3 b s d) :=
  shapeCast_apply x shapeCasts_S4x2048x1024_S8192x1024 (ix2 (row b s) d) (ix3 b s d) (by
    rw [Shape.rowMajor_val_three, Shape.rowMajor_val_two]
    show (b.val * 2048 + s.val) * 1024 + d.val = (2048 * b.val + s.val) * 1024 + d.val
    omega)

/-- [8192, 1024] laid out as [4, 2048, 1024]: entry (b, s, h) is entry (2048·b + s, h). -/
theorem batches_of_rows (x : S8192x1024.Idx → EReal) (b : Fin 4) (s : Fin 2048) (h : Fin 1024) :
    shapeCast S4x2048x1024 x shapeCasts_S8192x1024_S4x2048x1024 (ix3 b s h) = x (ix2 (row b s) h) :=
  shapeCast_apply x shapeCasts_S8192x1024_S4x2048x1024 (ix3 b s h) (ix2 (row b s) h) (by
    rw [Shape.rowMajor_val_three, Shape.rowMajor_val_two]
    show (2048 * b.val + s.val) * 1024 + h.val = (b.val * 2048 + s.val) * 1024 + h.val
    omega)

/-- [8192, 2048] laid out as [4, 2048, 2048]: entry (b, s, n) is entry (2048·b + s, n). -/
theorem batches_of_rows_wide (x : S8192x2048.Idx → EReal) (b : Fin 4) (s n : Fin 2048) :
    shapeCast S4x2048x2048 x shapeCasts_S8192x2048_S4x2048x2048 (ix3 b s n) = x (ix2 (row b s) n) :=
  shapeCast_apply x shapeCasts_S8192x2048_S4x2048x2048 (ix3 b s n) (ix2 (row b s) n) (by
    rw [Shape.rowMajor_val_three, Shape.rowMajor_val_two]
    show (2048 * b.val + s.val) * 2048 + n.val = (b.val * 2048 + s.val) * 2048 + n.val
    omega)

/-- The transpose of a [1024, 1024] array: entry (d, h) is entry (h, d). -/
theorem transpose_square (x : S1024x1024.Idx → EReal) (d h : Fin 1024) :
    transpose S1024x1024 [1, 0] x transposes_S1024x1024_S1024x1024_1_0 (ix2 d h) = x (ix2 h d) :=
  transpose_apply [1, 0] x transposes_S1024x1024_S1024x1024_1_0 (ix2 d h) (ix2 h d)
    (fun b => match b with | ⟨0, _⟩ => rfl | ⟨1, _⟩ => rfl)

/-- The transpose of a [2048, 1024] array: entry (d, n) is entry (n, d). -/
theorem transpose_stack (x : S2048x1024.Idx → EReal) (d : Fin 1024) (n : Fin 2048) :
    transpose S1024x2048 [1, 0] x transposes_S2048x1024_S1024x2048_1_0 (ix2 d n) = x (ix2 n d) :=
  transpose_apply [1, 0] x transposes_S2048x1024_S1024x2048_1_0 (ix2 d n) (ix2 n d)
    (fun b => match b with | ⟨0, _⟩ => rfl | ⟨1, _⟩ => rfl)

/-- Two [1024, 1024] arrays stacked along the first axis: row h, below 1024, is row h of the first. -/
theorem stack_first (x y : S1024x1024.Idx → EReal) (h d : Fin 1024) :
    concatenate S2048x1024 0 [⟨S1024x1024, x⟩, ⟨S1024x1024, y⟩] concatenates_S1024x1024_S1024x1024_S2048x1024_d0
      (ix2 (Cert.KSpec.kf h) d) = x (ix2 h d) :=
  concatenate_pair_apply_left 0 x y concatenates_S1024x1024_S1024x1024_S2048x1024_d0 (ix2 (Cert.KSpec.kf h) d) rfl (ix2 h d)
    (fun b => match b with | ⟨0, _⟩ => rfl | ⟨1, _⟩ => rfl)

/-- Two [1024, 1024] arrays stacked along the first axis: row 1024 + h is row h of the second. -/
theorem stack_second (x y : S1024x1024.Idx → EReal) (h d : Fin 1024) :
    concatenate S2048x1024 0 [⟨S1024x1024, x⟩, ⟨S1024x1024, y⟩] concatenates_S1024x1024_S1024x1024_S2048x1024_d0
      (ix2 (Cert.KSpec.vf h) d) = y (ix2 h d) :=
  concatenate_pair_apply_right 0 x y concatenates_S1024x1024_S1024x1024_S2048x1024_d0 (ix2 (Cert.KSpec.vf h) d) rfl rfl (ix2 h d)
    (fun b hb => match b, hb with | ⟨0, _⟩, hb => absurd rfl hb | ⟨1, _⟩, _ => rfl)
    (by show h.val + 1024 = 1024 + h.val; omega)

/-! ### Before the first region, from the launch memory -/

variable (m : (ℓ : Loc nD τ sig) → Buf (Elt Ideal) ℓ) (c : Dev nD)

/-- The first activation array as rows. -/
theorem host_v0 (b : Fin 4) (s : Fin 2048) (d : Fin 1024) :
    (Gen.V1 (F := Ideal) m c main_v0 : S8192x1024.Idx → EReal) (ix2 (row b s) d)
      = (m ((c : Thread nD τ).loc main_arg0) : S4x2048x1024.Idx → EReal) (ix3 b s d) := by
  have e : (Gen.V1 (F := Ideal) m c main_v0 : S8192x1024.Idx → EReal)
      = shapeCast S8192x1024 (m ((c : Thread nD τ).loc main_arg0) : S4x2048x1024.Idx → EReal) shapeCasts_S4x2048x1024_S8192x1024 := by
    show StableHlo.after hostOps0 _ (Proc.devRef .tc main_v0) = _
    after_results <;> rfl
  rw [e]
  exact rows_of_batches _ b s d

/-- The second activation array as rows. -/
theorem host_v1 (b : Fin 4) (s : Fin 2048) (d : Fin 1024) :
    (Gen.V1 (F := Ideal) m c main_v1 : S8192x1024.Idx → EReal) (ix2 (row b s) d)
      = (m ((c : Thread nD τ).loc main_arg1) : S4x2048x1024.Idx → EReal) (ix3 b s d) := by
  have e : (Gen.V1 (F := Ideal) m c main_v1 : S8192x1024.Idx → EReal)
      = shapeCast S8192x1024 (m ((c : Thread nD τ).loc main_arg1) : S4x2048x1024.Idx → EReal) shapeCasts_S4x2048x1024_S8192x1024 := by
    show StableHlo.after hostOps0 _ (Proc.devRef .tc main_v1) = _
    after_results <;> rfl
  rw [e]
  exact rows_of_batches _ b s d

/-- The query weight transposed: entry (d, h) is the weight's entry (h, d). -/
theorem host_v3 (d h : Fin 1024) :
    (Gen.V1 (F := Ideal) m c main_v3 : S1024x1024.Idx → EReal) (ix2 d h)
      = (m ((c : Thread nD τ).loc main_arg3) : S1024x1024.Idx → EReal) (ix2 h d) := by
  have e : (Gen.V1 (F := Ideal) m c main_v3 : S1024x1024.Idx → EReal)
      = (truncf (F := Ideal) .bf16 (transpose S1024x1024 [1, 0] (m ((c : Thread nD τ).loc main_arg3) : S1024x1024.Idx → EReal)
          transposes_S1024x1024_S1024x1024_1_0) bitsLt_bf16_f32 : S1024x1024.Idx → EReal) := by
    show StableHlo.after hostOps0 _ (Proc.devRef .tc main_v3) = _
    after_results <;> rfl
  rw [e]
  exact transpose_square _ d h

/-- The stacked key and value weights transposed, as one term. -/
theorem host_v6_term :
    (Gen.V1 (F := Ideal) m c main_v6 : S1024x2048.Idx → EReal)
      = (truncf (F := Ideal) .bf16 (transpose S1024x2048 [1, 0] (concatenate S2048x1024 0
          [⟨S1024x1024, (m ((c : Thread nD τ).loc main_arg4) : S1024x1024.Idx → EReal)⟩,
           ⟨S1024x1024, (m ((c : Thread nD τ).loc main_arg5) : S1024x1024.Idx → EReal)⟩]
          concatenates_S1024x1024_S1024x1024_S2048x1024_d0) transposes_S2048x1024_S1024x2048_1_0) bitsLt_bf16_f32
          : S1024x2048.Idx → EReal) := by
  show StableHlo.after hostOps0 _ (Proc.devRef .tc main_v6) = _
  after_results <;> rfl

/-- Column h of the fused weight, for h below 1024: entry (d, h) is the key weight's entry (h, d). -/
theorem host_v6k (d h : Fin 1024) :
    (Gen.V1 (F := Ideal) m c main_v6 : S1024x2048.Idx → EReal) (ix2 d (Cert.KSpec.kf h))
      = (m ((c : Thread nD τ).loc main_arg4) : S1024x1024.Idx → EReal) (ix2 h d) := by
  rw [host_v6_term]
  exact (transpose_stack _ d (Cert.KSpec.kf h)).trans (stack_first _ _ h d)

/-- Column 1024 + h of the fused weight: entry (d, 1024 + h) is the value weight's entry (h, d). -/
theorem host_v6v (d h : Fin 1024) :
    (Gen.V1 (F := Ideal) m c main_v6 : S1024x2048.Idx → EReal) (ix2 d (Cert.KSpec.vf h))
      = (m ((c : Thread nD τ).loc main_arg5) : S1024x1024.Idx → EReal) (ix2 h d) := by
  rw [host_v6_term]
  exact (transpose_stack _ d (Cert.KSpec.vf h)).trans (stack_second _ _ h d)

/-! ### Between the regions, from any contents -/

variable (W : Valuation τ sig (Elt Ideal))

/-- The first region's rows as [4, 2048, 1024]. -/
theorem host_v8 (b : Fin 4) (s : Fin 2048) (h : Fin 1024) :
    (StableHlo.after (hostOps1 (F := Ideal)) W main_v8 : S4x2048x1024.Idx → EReal) (ix3 b s h)
      = (W main_v7 : S8192x1024.Idx → EReal) (ix2 (row b s) h) := by
  have e : (StableHlo.after (hostOps1 (F := Ideal)) W main_v8 : S4x2048x1024.Idx → EReal)
      = shapeCast S4x2048x1024 (W main_v7 : S8192x1024.Idx → EReal) shapeCasts_S8192x1024_S4x2048x1024 := by
    show StableHlo.after hostOps1 _ (Proc.devRef .tc main_v8) = _
    after_results <;> rfl
  rw [e]
  exact batches_of_rows _ b s h

/-- The second region's rows as [4, 2048, 2048]. -/
theorem host_v10 (b : Fin 4) (s n : Fin 2048) :
    (StableHlo.after (hostOps2 (F := Ideal)) W main_v10 : S4x2048x2048.Idx → EReal) (ix3 b s n)
      = (W main_v9 : S8192x2048.Idx → EReal) (ix2 (row b s) n) := by
  have e : (StableHlo.after (hostOps2 (F := Ideal)) W main_v10 : S4x2048x2048.Idx → EReal)
      = shapeCast S4x2048x2048 (W main_v9 : S8192x2048.Idx → EReal) shapeCasts_S8192x2048_S4x2048x2048 := by
    show StableHlo.after hostOps2 _ (Proc.devRef .tc main_v10) = _
    after_results <;> rfl
  rw [e]
  exact batches_of_rows_wide _ b s n

/-- The mask, each bit widened to a 32-bit word. -/
theorem host_v11 (y : S4x2048x2048.Idx) :
    (StableHlo.after (hostOps2 (F := Ideal)) W main_v11 : S4x2048x2048.Idx → BitVec 32) y
      = ((W main_arg2 : S4x2048x2048.Idx → BitVec 1) y).setWidth 32 := by
  have e : (StableHlo.after (hostOps2 (F := Ideal)) W main_v11 : S4x2048x2048.Idx → BitVec 32)
      = extui 32 (W main_arg2 : S4x2048x2048.Idx → BitVec 1) natLt_1_32 := by
    show StableHlo.after hostOps2 _ (Proc.devRef .tc main_v11) = _
    after_results <;> rfl
  rw [e]
  rfl

end Cert.KernelIdeal.Val

end
-- ==== Proof.Consts.lean ====
/-
  The float words the two programs spell that have to be read as numbers: 1024 (whose square root the reference
  divides by), 1/32 (which the kernel multiplies by), and the zero a sum starts from.
-/
import Idealize.ShloMosaic.PureOps.Ideal

noncomputable section

namespace Cert.Consts

open Idealize.ShloMosaic

/-- The word of 1024.0 denotes the real 1024. -/
theorem ofBits_1024 : Ideal.ofBits .f32 0x44800000#32 = ((1024 : ℝ) : EReal) := by
  simp [Ideal.ofBits, Ideal.ieee, -EReal.coe_mul]; norm_num

/-- The word of 0.03125 denotes the real 1/32. -/
theorem ofBits_inv32 : Ideal.ofBits .f32 0x3D000000#32 = ((1 / 32 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  have h : Real.sqrt 1024 = 32 := by
    rw [show (1024 : ℝ) = 32 ^ 2 by norm_num]; exact Real.sqrt_sq (by norm_num)
  show (if (1024 : ℝ) < 0 then (⊥ : EReal) else ((Real.sqrt 1024 : ℝ) : EReal)) = _
  rw [if_neg (by norm_num), h]

/-- Dividing by the square root of the word 1024.0 is multiplying by 1/32, on every extended real. -/
theorem div_sqrt_1024 (x : EReal) :
    Ideal.div x (Ideal.sqrt (Ideal.ofBits .f32 0x44800000#32)) = x * ((1 / 32 : ℝ) : EReal) := by
  rw [ofBits_1024, sqrt_1024]; exact Ideal.div_coe (by norm_num) x

end Cert.Consts

end
-- ==== Proof.Value.Bridge.lean ====
/-
  The blocked form of the attention function is the attention function.

  The blocked form (KSpec.lean) takes three arrays: projected queries, the keys and values fused along the feature
  axis (keys in the first 1024 features, values in the last 1024), and the mask as 32-bit words.  When the first is
  the query projection, the two halves of the second are the key and value projections, and each mask word is the
  mask bit widened to 32 bits, its scores are the specification's scores, as functions of (batch, query, key): the
  inner sums agree term by term, the scaling word denotes 1/32, and a widened bit is different from zero exactly when
  the bit is set, so both selections choose alike.  The column normalisation is then the same function of the same
  scores, and the sum over eight blocks of 256 keys is the sum over the 2048 keys, the pairs (block, key in block)
  being in bijection with the keys through (kb, jj) ↦ kb·256 + jj.
-/
import proofs.«151926_j33698313404453_2_alg».proof.Proof.KSpec
import proofs.«151926_j33698313404453_2_alg».proof.Proof.Consts

noncomputable section

open scoped BigOperators

namespace Cert.Bridge

open Idealize.ShloMosaic Idealize.ShloMosaic.ValueIdx Cert.Spec Cert.KSpec

/-- A bit widened to 32 bits is different from zero exactly when the bit is set. -/
theorem cmpi_ne_setWidth (w : BitVec 1) : IntOp.cmpi .ne (w.setWidth 32) 0#32 = w := by
  rcases BitVec.eq_zero_or_eq_one w with rfl | rfl <;> decide

/-- A sum over eight blocks of 256 keys is the sum over the 2048 keys. -/
theorem sum_key (f : Fin 2048 → EReal) : ∑ kb : Fin 8, ∑ jj : Fin 256, f (key kb jj) = ∑ j : Fin 2048, f j := by
  have e : ∑ p : Fin 8 × Fin 256, f (finProdFinEquiv p) = ∑ j : Fin 2048, f j :=
    Equiv.sum_comp (finProdFinEquiv (m := 8) (n := 256)) f
  rw [← e, Fintype.sum_prod_type]
  refine Finset.sum_congr rfl fun kb _ => Finset.sum_congr rfl fun jj _ => congrArg f (Fin.ext ?_)
  show kb.val * 256 + jj.val = jj.val + 256 * kb.val
  omega

variable (Q : SA.Idx → EReal) (KV : SM.Idx → EReal) (M : SM.Idx → BitVec 32)
  (x1 x2 : SA.Idx → EReal) (mask : SM.Idx → BitVec 1) (Wq Wk Wv : SW.Idx → EReal)

/-- The blocked form's scores are the specification's, as functions of (batch, query, key). -/
theorem klogit_eq
    (hQ : ∀ (b : Fin 4) (s : Fin 2048) (h : Fin 1024), Q (ix3 b s h) = proj x1 Wq b s h)
    (hK : ∀ (b : Fin 4) (s : Fin 2048) (h : Fin 1024), KV (ix3 b s (kf h)) = proj x2 Wk b s h)
    (hM : ∀ (b : Fin 4) (i j : Fin 2048), M (ix3 b i j) = (mask (ix3 b i j)).setWidth 32) :
    klogit Q KV M = logit mask (proj x1 Wq) (proj x2 Wk) := by
  funext b i j
  unfold klogit logit
  rw [hM, cmpi_ne_setWidth, Cert.Consts.ofBits_inv32]
  refine congrArg (fun t => Scalar.select (mask (ix3 b i j)) maskWord (t * ((1 / 32 : ℝ) : EReal))) ?_
  refine Finset.sum_congr rfl fun h _ => ?_
  rw [hQ, hK]

/-- The blocked form at (b, i, h) is the attention function at (b, i, h). -/
theorem kattn_eq
    (hQ : ∀ (b : Fin 4) (s : Fin 2048) (h : Fin 1024), Q (ix3 b s h) = proj x1 Wq b s h)
    (hK : ∀ (b : Fin 4) (s : Fin 2048) (h : Fin 1024), KV (ix3 b s (kf h)) = proj x2 Wk b s h)
    (hV : ∀ (b : Fin 4) (s : Fin 2048) (h : Fin 1024), KV (ix3 b s (vf h)) = proj x2 Wv b s h)
    (hM : ∀ (b : Fin 4) (i j : Fin 2048), M (ix3 b i j) = (mask (ix3 b i j)).setWidth 32)
    (b : Fin 4) (i : Fin 2048) (h : Fin 1024) :
    kattn Q KV M b i h = attn x1 x2 mask Wq Wk Wv b i h := by
  have hz := klogit_eq Q KV M x1 x2 mask Wq Wk hQ hK hM
  unfold kattn contrib attn
  refine (sum_key (fun j => prob (klogit Q KV M) b i j * KV (ix3 b j (vf h)))).trans ?_
  refine Finset.sum_congr rfl fun j _ => ?_
  show prob (klogit Q KV M) b i j * KV (ix3 b j (vf h)) = _
  rw [hz, hV]

end Cert.Bridge

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.Value.Arr0.lean ====
/-
  The query projection's output array, entry by entry, at the ideal values (a float is an extended real, a format
  change the identity, a product accumulated into a zero splat a plain sum).

  The region runs over eight grid points. Point t stages rows 1024·t … 1024·t + 1023 of the input array (1024 columns)
  and the whole 1024 × 1024 weight matrix, and writes back the product of the two blocks as rows 1024·t … 1024·t + 1023
  of the output. The block's entry (p, j) is Σ_k x(p, k) · w(k, j); read through the block maps, x(p, k) is the input
  array's entry (1024·t + p, k) and w is the weight itself, so what point t writes back is the block at those rows of
  the matrix product of the two arrays. Row r lies in the block of point r / 1024, the eight row blocks tile the
  output, and the array after the region is that matrix product, whatever it held before.
-/
import proofs.«151926_j33698313404453_2_alg».proof.Proof.KernelIdeal.Data01
import proofs.«151926_j33698313404453_2_alg».proof.Proof.LibSoftplus
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame Idealize.ShloMosaic Idealize.ShloMosaic.ValueIdx
open Idealize.ShloMosaic.TcCoe Idealize.SL.Sem
open Idealize.ShloMosaic.Pipeline (Dat)
open scoped BigOperators

/-- The zero offsets of the whole-block rectangle, spelt as the constant function. -/
theorem hz2_0 : (![0, 0] : Fin 2 → Nat) = fun _ => 0 := funext fun a => by fin_cases a <;> rfl

/-- The product's dimension numbers are the plain ones: the left operand's columns against the right operand's rows. -/
theorem dot0_plain : dot_S1024x1024_S1024x1024_S1024x1024_1_0_0_1_n_n = DotDims.plain 1024 1024 1024 := rfl

/-- The output block at the entry (p, j): the sum over k of the row block's (p, k) times the weight's (k, j). -/
theorem out0_2_apply (x0 : Vec Ideal S1024x1024 .f32) (x1 : Vec Ideal S1024x1024 .bf16) (p : Fin 1024) (j : Fin 1024) :
    out0_2 (F := Ideal) x0 x1 (ix2 p j) = ∑ k : Fin 1024, x0 (ix2 p k) * x1 (ix2 k j) := by
  unfold out0_2
  rw [View.canon_unit_zero hz2_0]
  simp only [View.ld_unit_zero (S := S1024x1024) hz2_0]
  unfold k0_pay1
  rw [shapeCast_self, shapeCast_self]
  exact Cert.Lib.Softplus.matmul0_plain_apply (φ₁ := .bf16) (φ₂ := .bf16) _ dot0_plain none (truncf FTy.bf16 x0 bitsLt_bf16_f32) x1 p j

/-- The same at any index of the block, its coordinates read off. -/
theorem out0_2_at (x0 : Vec Ideal S1024x1024 .f32) (x1 : Vec Ideal S1024x1024 .bf16) (y : S1024x1024.Idx) :
    out0_2 (F := Ideal) x0 x1 y
      = ∑ k : Fin 1024, x0 (ix2 ⟨(y 0).val, idx2_lt0 y⟩ k) * x1 (ix2 k ⟨(y 1).val, idx2_lt1 y⟩) :=
  (congrArg (out0_2 (F := Ideal) x0 x1) (eq_ix2 y)).trans (out0_2_apply x0 x1 ⟨(y 0).val, idx2_lt0 y⟩ ⟨(y 1).val, idx2_lt1 y⟩)

/-- The matrix product of an 8192 × 1024 array with a 1024 × 1024 array, entry by entry. -/
def G0 (A0 : S8192x1024.Idx → EReal) (A1 : S1024x1024.Idx → EReal) : S8192x1024.Idx → EReal :=
  fun i => ∑ k : Fin 1024, A0 (ix2 ⟨(i 0).val, idx2_lt0 i⟩ k) * A1 (ix2 k ⟨(i 1).val, idx2_lt1 i⟩)

/-- The product array at the entry (r, j): the sum over k of the first array's (r, k) times the second's (k, j). -/
theorem G0_apply (A0 : S8192x1024.Idx → EReal) (A1 : S1024x1024.Idx → EReal) (r : Fin 8192) (j : Fin 1024) :
    G0 A0 A1 (ix2 r j) = ∑ k : Fin 1024, A0 (ix2 r k) * A1 (ix2 k j) := rfl

/-- The three block maps over the 8 grid points: the input's row block and the output's row block are the point's own,
    the weight's block is its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- An entry of the row block at point t is the input array's entry 1024·t rows further down. -/
theorem iblk0_0_apply (c : Dev nD) (t : Fin cfg0.N) (a k : Fin 1024) (r : Fin 8192) (h : r.val = t.val * 1024 + a.val) :
    iblk0 (F := Ideal) V c 0 t (ix2 a k) = V c main_v0 (ix2 r k) := by
  obtain ⟨e0, e1, -⟩ := idx_facts0 t
  show V c main_v0 (((cfg0.win 0).blk t).view.emb (ix2 a k)) = _
  congr 1
  funext d; apply Fin.ext
  match d with
  | ⟨0, _⟩ => show win0_0.index t (0 : Fin 2) * 1024 + 1 * a.val = r.val; omega
  | ⟨1, _⟩ => show win0_0.index t (1 : Fin 2) * 1024 + 1 * k.val = k.val; omega

/-- The weight's one block is the whole weight. -/
theorem iblk0_1_apply (c : Dev nD) (t : Fin cfg0.N) (k : Fin 1024) (j j' : Fin 1024) (h : j'.val = j.val) :
    iblk0 (F := Ideal) V c 1 t (ix2 k j) = V c main_v3 (ix2 k j') := by
  obtain ⟨-, -, e2, e3, -⟩ := idx_facts0 t
  show V c main_v3 (((cfg0.win 1).blk t).view.emb (ix2 k j)) = _
  congr 1
  funext d; apply Fin.ext
  match d with
  | ⟨0, _⟩ => show win0_1.index t (0 : Fin 2) * 1024 + 1 * k.val = k.val; omega
  | ⟨1, _⟩ => show win0_1.index t (1 : Fin 2) * 1024 + 1 * j.val = j'.val; omega

/-- What point t writes back is the block of the product at rows 1024·t … 1024·t + 1023. -/
theorem flushed0_eq (c : Dev nD) (t : Fin cfg0.N) :
    (dat0 (F := Ideal) V c).flushed 2 t = ((cfg0.win 2).blk t).view.read (Elt Ideal) (G0 (V c main_v0) (V c main_v3)) := by
  show (cfg0.win 2).cut (grid0.coords t) ((dat0 V c).after 2 t) = _
  rw [after0_2]
  obtain ⟨-, -, -, -, e4, e5⟩ := idx_facts0 t
  funext y
  show out0_2 (iblk0 V c 0 t) (iblk0 V c 1 t) ((cfg0.win 2).xinj (grid0.coords t) y)
    = G0 (V c main_v0) (V c main_v3) (((cfg0.win 2).blk t).view.emb y)
  refine (out0_2_at _ _ _).trans ?_
  unfold G0
  refine Finset.sum_congr rfl fun k _ => ?_
  have hy0 : (y 0).val < 1024 := (y 0).isLt
  have hy1 : (y 1).val < 1024 := (y 1).isLt
  have hemb0 : ((((cfg0.win 2).blk t).view.emb y) 0).val = t.val * 1024 + (y 0).val := by
    show win0_2.index t (0 : Fin 2) * 1024 + 1 * (y 0).val = _; omega
  have hemb1 : ((((cfg0.win 2).blk t).view.emb y) 1).val = (y 1).val := by
    show win0_2.index t (1 : Fin 2) * 1024 + 1 * (y 1).val = _; omega
  exact congrArg₂ (· * ·) (iblk0_0_apply V c t _ k _ hemb0) (iblk0_1_apply V c t k _ _ hemb1)

/-- An index of the output array is in point t's block iff each coordinate is in the block's range on its axis. -/
theorem mem_blk0 (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v7).slice (win0_2.rect t)).set ↔ _
  rw [View.set_slice_whole, Rect.mem_set_unit]
  exact Iff.rfl

/-- Row r of the output is written back by point r / 1024: the eight row blocks tile the array. -/
theorem cover0 (i : S8192x1024.Idx) :
    ∃ t : Fin cfg0.N, (cfg0.win 2).flush t = true ∧ i ∈ ((cfg0.win 2).blk t).view.set := by
  have hi0 : (i 0).val < 8192 := idx2_lt0 i
  have hi1 : (i 1).val < 1024 := idx2_lt1 i
  have hN : grid0.N = 8 := N_0
  let t : Fin cfg0.N := ⟨(i 0).val / 1024, by show (i 0).val / 1024 < grid0.N; omega⟩
  have ht : t.val = (i 0).val / 1024 := rfl
  obtain ⟨-, -, -, -, e4, e5⟩ := idx_facts0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the region: the product of the two input arrays as the region finds them. -/
theorem arr0_eq (c : Dev nD) :
    (dat0 (F := Ideal) V c).arrAt 2 cfg0.N = G0 (V c main_v0) (V c main_v3) :=
  (dat0 (F := Ideal) V c).arrAt_eq_of_cover 2 _ (fun t _ => flushed0_eq V c t) cover0

/-- Entry (r, j) of the projected array: the sum over k of the input's (r, k) times the weight's (k, j). -/
theorem arr0_apply (c : Dev nD) (r : Fin 8192) (j : Fin 1024) :
    (show S8192x1024.Idx → EReal from (dat0 (F := Ideal) V c).arrAt 2 cfg0.N) (ix2 r j)
      = ∑ k : Fin 1024, (show S8192x1024.Idx → EReal from V c main_v0) (ix2 r k) * (show S1024x1024.Idx → EReal from V c main_v3) (ix2 k j) :=
  congrFun (arr0_eq V c) (ix2 r j)

end Cert.KernelIdeal.Val

end
-- ==== Proof.Value.Arr1.lean ====
/-
  The key/value projection's output array, entry by entry, at the ideal values (a float is an extended real, a format
  change the identity, a product accumulated into a zero splat a plain sum).

  The region runs over eight grid points. Point t stages rows 1024·t … 1024·t + 1023 of the input array (1024 columns)
  and the whole 1024 × 2048 weight matrix, and writes back the product of the two blocks as rows 1024·t … 1024·t + 1023
  of the output. The block's entry (p, j) is Σ_k x(p, k) · w(k, j); read through the block maps, x(p, k) is the input
  array's entry (1024·t + p, k) and w is the weight itself, so what point t writes back is the block at those rows of
  the matrix product of the two arrays. Row r lies in the block of point r / 1024, the eight row blocks tile the
  output, and the array after the region is that matrix product, whatever it held before.
-/
import proofs.«151926_j33698313404453_2_alg».proof.Proof.KernelIdeal.Data01
import proofs.«151926_j33698313404453_2_alg».proof.Proof.LibSoftplus
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame Idealize.ShloMosaic Idealize.ShloMosaic.ValueIdx
open Idealize.ShloMosaic.TcCoe Idealize.SL.Sem
open Idealize.ShloMosaic.Pipeline (Dat)
open scoped BigOperators

/-- The zero offsets of the whole-block rectangle, spelt as the constant function. -/
theorem hz2_1 : (![0, 0] : Fin 2 → Nat) = fun _ => 0 := funext fun a => by fin_cases a <;> rfl

/-- The product's dimension numbers are the plain ones: the left operand's columns against the right operand's rows. -/
theorem dot1_plain : dot_S1024x1024_S1024x2048_S1024x2048_1_0_0_1_n_n = DotDims.plain 1024 1024 2048 := rfl

/-- The output block at the entry (p, j): the sum over k of the row block's (p, k) times the weight's (k, j). -/
theorem out1_2_apply (x0 : Vec Ideal S1024x1024 .f32) (x1 : Vec Ideal S1024x2048 .bf16) (p : Fin 1024) (j : Fin 2048) :
    out1_2 (F := Ideal) x0 x1 (ix2 p j) = ∑ k : Fin 1024, x0 (ix2 p k) * x1 (ix2 k j) := by
  unfold out1_2
  rw [View.canon_unit_zero hz2_1]
  simp only [View.ld_unit_zero (S := S1024x1024) hz2_1, View.ld_unit_zero (S := S1024x2048) hz2_1]
  unfold k1_pay1
  rw [shapeCast_self, shapeCast_self]
  exact Cert.Lib.Softplus.matmul0_plain_apply (φ₁ := .bf16) (φ₂ := .bf16) _ dot1_plain none (truncf FTy.bf16 x0 bitsLt_bf16_f32) x1 p j

/-- The same at any index of the block, its coordinates read off. -/
theorem out1_2_at (x0 : Vec Ideal S1024x1024 .f32) (x1 : Vec Ideal S1024x2048 .bf16) (y : S1024x2048.Idx) :
    out1_2 (F := Ideal) x0 x1 y
      = ∑ k : Fin 1024, x0 (ix2 ⟨(y 0).val, idx2_lt0 y⟩ k) * x1 (ix2 k ⟨(y 1).val, idx2_lt1 y⟩) :=
  (congrArg (out1_2 (F := Ideal) x0 x1) (eq_ix2 y)).trans (out1_2_apply x0 x1 ⟨(y 0).val, idx2_lt0 y⟩ ⟨(y 1).val, idx2_lt1 y⟩)

/-- The matrix product of an 8192 × 1024 array with a 1024 × 2048 array, entry by entry. -/
def G1 (A0 : S8192x1024.Idx → EReal) (A1 : S1024x2048.Idx → EReal) : S8192x2048.Idx → EReal :=
  fun i => ∑ k : Fin 1024, A0 (ix2 ⟨(i 0).val, idx2_lt0 i⟩ k) * A1 (ix2 k ⟨(i 1).val, idx2_lt1 i⟩)

/-- The product array at the entry (r, j): the sum over k of the first array's (r, k) times the second's (k, j). -/
theorem G1_apply (A0 : S8192x1024.Idx → EReal) (A1 : S1024x2048.Idx → EReal) (r : Fin 8192) (j : Fin 2048) :
    G1 A0 A1 (ix2 r j) = ∑ k : Fin 1024, A0 (ix2 r k) * A1 (ix2 k j) := rfl

/-- The three block maps over the 8 grid points: the input's row block and the output's row block are the point's own,
    the weight's block is its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- An entry of the row block at point t is the input array's entry 1024·t rows further down. -/
theorem iblk1_0_apply (c : Dev nD) (t : Fin cfg1.N) (a k : Fin 1024) (r : Fin 8192) (h : r.val = t.val * 1024 + a.val) :
    iblk1 (F := Ideal) V c 0 t (ix2 a k) = V c main_v1 (ix2 r k) := by
  obtain ⟨e0, e1, -⟩ := idx_facts1 t
  show V c main_v1 (((cfg1.win 0).blk t).view.emb (ix2 a k)) = _
  congr 1
  funext d; apply Fin.ext
  match d with
  | ⟨0, _⟩ => show win1_0.index t (0 : Fin 2) * 1024 + 1 * a.val = r.val; omega
  | ⟨1, _⟩ => show win1_0.index t (1 : Fin 2) * 1024 + 1 * k.val = k.val; omega

/-- The weight's one block is the whole weight. -/
theorem iblk1_1_apply (c : Dev nD) (t : Fin cfg1.N) (k : Fin 1024) (j j' : Fin 2048) (h : j'.val = j.val) :
    iblk1 (F := Ideal) V c 1 t (ix2 k j) = V c main_v6 (ix2 k j') := by
  obtain ⟨-, -, e2, e3, -⟩ := idx_facts1 t
  show V c main_v6 (((cfg1.win 1).blk t).view.emb (ix2 k j)) = _
  congr 1
  funext d; apply Fin.ext
  match d with
  | ⟨0, _⟩ => show win1_1.index t (0 : Fin 2) * 1024 + 1 * k.val = k.val; omega
  | ⟨1, _⟩ => show win1_1.index t (1 : Fin 2) * 2048 + 1 * j.val = j'.val; omega

/-- What point t writes back is the block of the product at rows 1024·t … 1024·t + 1023. -/
theorem flushed1_eq (c : Dev nD) (t : Fin cfg1.N) :
    (dat1 (F := Ideal) V c).flushed 2 t = ((cfg1.win 2).blk t).view.read (Elt Ideal) (G1 (V c main_v1) (V c main_v6)) := by
  show (cfg1.win 2).cut (grid1.coords t) ((dat1 V c).after 2 t) = _
  rw [after1_2]
  obtain ⟨-, -, -, -, e4, e5⟩ := idx_facts1 t
  funext y
  show out1_2 (iblk1 V c 0 t) (iblk1 V c 1 t) ((cfg1.win 2).xinj (grid1.coords t) y)
    = G1 (V c main_v1) (V c main_v6) (((cfg1.win 2).blk t).view.emb y)
  refine (out1_2_at _ _ _).trans ?_
  unfold G1
  refine Finset.sum_congr rfl fun k _ => ?_
  have hy0 : (y 0).val < 1024 := (y 0).isLt
  have hy1 : (y 1).val < 2048 := (y 1).isLt
  have hemb0 : ((((cfg1.win 2).blk t).view.emb y) 0).val = t.val * 1024 + (y 0).val := by
    show win1_2.index t (0 : Fin 2) * 1024 + 1 * (y 0).val = _; omega
  have hemb1 : ((((cfg1.win 2).blk t).view.emb y) 1).val = (y 1).val := by
    show win1_2.index t (1 : Fin 2) * 2048 + 1 * (y 1).val = _; omega
  exact congrArg₂ (· * ·) (iblk1_0_apply V c t _ k _ hemb0) (iblk1_1_apply V c t k _ _ hemb1)

/-- An index of the output array is in point t's block iff each coordinate is in the block's range on its axis. -/
theorem mem_blk1 (t : Fin cfg1.N) (i : S8192x2048.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v9).slice (win1_2.rect t)).set ↔ _
  rw [View.set_slice_whole, Rect.mem_set_unit]
  exact Iff.rfl

/-- Row r of the output is written back by point r / 1024: the eight row blocks tile the array. -/
theorem cover1 (i : S8192x2048.Idx) :
    ∃ t : Fin cfg1.N, (cfg1.win 2).flush t = true ∧ i ∈ ((cfg1.win 2).blk t).view.set := by
  have hi0 : (i 0).val < 8192 := idx2_lt0 i
  have hi1 : (i 1).val < 2048 := idx2_lt1 i
  have hN : grid1.N = 8 := N_1
  let t : Fin cfg1.N := ⟨(i 0).val / 1024, by show (i 0).val / 1024 < grid1.N; omega⟩
  have ht : t.val = (i 0).val / 1024 := rfl
  obtain ⟨-, -, -, -, e4, e5⟩ := idx_facts1 t
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 2048 ≤ (i 1).val ∧ (i 1).val < win1_2.index t (1 : Fin 2) * 2048 + 2048; omega

/-- The output array after the region: the product of the two input arrays as the region finds them. -/
theorem arr1_eq (c : Dev nD) :
    (dat1 (F := Ideal) V c).arrAt 2 cfg1.N = G1 (V c main_v1) (V c main_v6) :=
  (dat1 (F := Ideal) V c).arrAt_eq_of_cover 2 _ (fun t _ => flushed1_eq V c t) cover1

/-- Entry (r, j) of the projected array: the sum over k of the input's (r, k) times the weight's (k, j). -/
theorem arr1_apply (c : Dev nD) (r : Fin 8192) (j : Fin 2048) :
    (show S8192x2048.Idx → EReal from (dat1 (F := Ideal) V c).arrAt 2 cfg1.N) (ix2 r j)
      = ∑ k : Fin 1024, (show S8192x1024.Idx → EReal from V c main_v1) (ix2 r k) * (show S1024x2048.Idx → EReal from V c main_v6) (ix2 k j) :=
  congrFun (arr1_eq V c) (ix2 r j)

end Cert.KernelIdeal.Val

end
-- ==== Proof.Value.Arr2Blocks.lean ====
/-
  The attention region's grid and what its windows read. Point t of the 32 is (batch t / 8, key block t % 8); the
  block indices of the five windows there are (b, 0, 0) for the queries, (b, kb, 0) and (b, kb, 1) for the two windows
  on the fused projection (the same array: last-axis block 0 is the key features, block 1 the value features),
  (b, 0, kb) for the mask and (b, 0, 0) for the output. A block's element sits in its array, on each axis, at the
  block index times the block's size plus its own coordinate; so each input block read at an index is its array read
  at the batch, the key kb·256 + jj and the feature h or 1024 + h.
-/
import proofs.«151926_j33698313404453_2_alg».proof.Proof.KernelIdeal.Data2
import proofs.«151926_j33698313404453_2_alg».proof.Proof.KSpec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame Idealize.ShloMosaic Idealize.ShloMosaic.ValueIdx
open Idealize.ShloMosaic.TcCoe
open Cert.KSpec
open scoped BigOperators

variable (V : (c : Dev nD) → (b : Ref sig .tc) → Buf (Elt Ideal) ((c : Thread nD τ).loc b))

/-- The grid has 32 points. -/
theorem N2 : cfg2.N = 32 := N_2

/-- The five windows' block indices at point t, decided over the grid. -/
theorem idx2 : ∀ t : Fin cfg2.N,
      win2_0.index t (0 : Fin 3) = t.val / 8 ∧ win2_0.index t (1 : Fin 3) = 0 ∧ win2_0.index t (2 : Fin 3) = 0
    ∧ win2_1.index t (0 : Fin 3) = t.val / 8 ∧ win2_1.index t (1 : Fin 3) = t.val % 8 ∧ win2_1.index t (2 : Fin 3) = 0
    ∧ win2_2.index t (0 : Fin 3) = t.val / 8 ∧ win2_2.index t (1 : Fin 3) = t.val % 8 ∧ win2_2.index t (2 : Fin 3) = 1
    ∧ win2_3.index t (0 : Fin 3) = t.val / 8 ∧ win2_3.index t (1 : Fin 3) = 0 ∧ win2_3.index t (2 : Fin 3) = t.val % 8
    ∧ win2_4.index t (0 : Fin 3) = t.val / 8 ∧ win2_4.index t (1 : Fin 3) = 0 ∧ win2_4.index t (2 : Fin 3) = 0 :=
  (by decide +kernel : ∀ t : Fin grid2.N, _)

/-- The query block at point t is batch t / 8 of the projected queries. -/
theorem iblk2_0_apply (c : Dev nD) (t : Fin cfg2.N) (b : Fin 4) (hb : b.val = t.val / 8) (i : Fin 2048) (h : Fin 1024) :
    (iblk2 V c 0 t : S1x2048x1024.Idx → EReal) (ix3 (0 : Fin 1) i h)
      = (V c main_v8 : S4x2048x1024.Idx → EReal) (ix3 b i h) := by
  obtain ⟨e0, e1, e2, -⟩ := idx2 t
  unfold iblk2
  rw [View.read_apply]
  show (V c main_v8 : S4x2048x1024.Idx → EReal) _ = _
  congr 1
  funext a
  apply Fin.ext
  match a with
  | ⟨0, _⟩ => show win2_0.index t 0 * 1 + 1 * 0 = b.val; omega
  | ⟨1, _⟩ => show win2_0.index t 1 * 2048 + 1 * i.val = i.val; omega
  | ⟨2, _⟩ => show win2_0.index t 2 * 1024 + 1 * h.val = h.val; omega

/-- The key block at point t is the key features of the fused projection at the keys of key block t % 8. -/
theorem iblk2_1_apply (c : Dev nD) (t : Fin cfg2.N) (b : Fin 4) (kb : Fin 8) (hb : b.val = t.val / 8) (hkb : kb.val = t.val % 8)
    (jj : Fin 256) (h : Fin 1024) :
    (iblk2 V c 1 t : S1x256x1024.Idx → EReal) (ix3 (0 : Fin 1) jj h)
      = (V c main_v10 : S4x2048x2048.Idx → EReal) (ix3 b (key kb jj) (kf h)) := by
  obtain ⟨-, -, -, e0, e1, e2, -⟩ := idx2 t
  unfold iblk2
  rw [View.read_apply]
  show (V c main_v10 : S4x2048x2048.Idx → EReal) _ = _
  congr 1
  funext a
  apply Fin.ext
  match a with
  | ⟨0, _⟩ => show win2_1.index t 0 * 1 + 1 * 0 = b.val; omega
  | ⟨1, _⟩ => show win2_1.index t 1 * 256 + 1 * jj.val = kb.val * 256 + jj.val; omega
  | ⟨2, _⟩ => show win2_1.index t 2 * 1024 + 1 * h.val = h.val; omega

/-- The value block at point t is the value features of the fused projection at the same keys. -/
theorem iblk2_2_apply (c : Dev nD) (t : Fin cfg2.N) (b : Fin 4) (kb : Fin 8) (hb : b.val = t.val / 8) (hkb : kb.val = t.val % 8)
    (jj : Fin 256) (h : Fin 1024) :
    (iblk2 V c 2 t : S1x256x1024.Idx → EReal) (ix3 (0 : Fin 1) jj h)
      = (V c main_v10 : S4x2048x2048.Idx → EReal) (ix3 b (key kb jj) (vf h)) := by
  obtain ⟨-, -, -, -, -, -, e0, e1, e2, -⟩ := idx2 t
  unfold iblk2
  rw [View.read_apply]
  show (V c main_v10 : S4x2048x2048.Idx → EReal) _ = _
  congr 1
  funext a
  apply Fin.ext
  match a with
  | ⟨0, _⟩ => show win2_2.index t 0 * 1 + 1 * 0 = b.val; omega
  | ⟨1, _⟩ => show win2_2.index t 1 * 256 + 1 * jj.val = kb.val * 256 + jj.val; omega
  | ⟨2, _⟩ => show win2_2.index t 2 * 1024 + 1 * h.val = 1024 + h.val; omega

/-- The mask block at point t is the mask words of all queries against the keys of key block t % 8. -/
theorem iblk2_3_apply (c : Dev nD) (t : Fin cfg2.N) (b : Fin 4) (kb : Fin 8) (hb : b.val = t.val / 8) (hkb : kb.val = t.val % 8)
    (i : Fin 2048) (jj : Fin 256) :
    (iblk2 V c 3 t : S1x2048x256.Idx → BitVec 32) (ix3 (0 : Fin 1) i jj)
      = (V c main_v11 : S4x2048x2048.Idx → BitVec 32) (ix3 b i (key kb jj)) := by
  obtain ⟨-, -, -, -, -, -, -, -, -, e0, e1, e2, -⟩ := idx2 t
  unfold iblk2
  rw [View.read_apply]
  show (V c main_v11 : S4x2048x2048.Idx → BitVec 32) _ = _
  congr 1
  funext a
  apply Fin.ext
  match a with
  | ⟨0, _⟩ => show win2_3.index t 0 * 1 + 1 * 0 = b.val; omega
  | ⟨1, _⟩ => show win2_3.index t 1 * 2048 + 1 * i.val = i.val; omega
  | ⟨2, _⟩ => show win2_3.index t 2 * 256 + 1 * jj.val = kb.val * 256 + jj.val; omega

end Cert.KernelIdeal.Val

end
-- ==== Proof.Tile.lean ====
/-
  One grid point of the attention kernel, at an index: from the query block x0 [1, 2048, 1024], the key block x1 and the
  value block x2 [1, 256, 1024] and the mask block x3 [1, 2048, 256] (32-bit words), the weight of query i in the
  column of the block's key jj — the logit is the mask's constant where the word is not zero and
  (Σ_h x0[i,h]·x1[jj,h]) times the word of 1/32 elsewhere; the column is normalised over all 2048 queries — and what
  the point adds to the output at (i, h): Σ_jj weight(i, jj)·x2[jj, h].
-/
import proofs.«151926_j33698313404453_2_alg».proof.Proof.Spec

noncomputable section

open scoped BigOperators

namespace Cert.Tile

open Idealize.ShloMosaic Idealize.ShloMosaic.ValueIdx Cert.Spec

abbrev SQ : Shape := ⟨3, ![1, 2048, 1024]⟩
abbrev SK : Shape := ⟨3, ![1, 256, 1024]⟩
abbrev SMk : Shape := ⟨3, ![1, 2048, 256]⟩

variable (x0 : SQ.Idx → EReal) (x1 : SK.Idx → EReal) (x3 : SMk.Idx → BitVec 32)

/-- The masked, scaled score of query i against the block's key jj. -/
def logit (i : Fin 2048) (jj : Fin 256) : EReal :=
  Scalar.select (IntOp.cmpi .ne (x3 (ix3 (0 : Fin 1) i jj)) 0#32) maskWord
    ((∑ h : Fin 1024, x0 (ix3 (0 : Fin 1) i h) * x1 (ix3 (0 : Fin 1) jj h)) * Ideal.ofBits .f32 0x3D000000#32)

/-- Column jj's maximum over all queries. -/
def colMax (jj : Fin 256) : EReal :=
  (Finset.univ : Finset (Fin 2048)).fold max negInf fun i => logit x0 x1 x3 i jj

/-- The exponential of a logit less its column's maximum. -/
def ex (i : Fin 2048) (jj : Fin 256) : EReal := Ideal.exp (logit x0 x1 x3 i jj - colMax x0 x1 x3 jj)

/-- Column jj's sum of exponentials over all queries. -/
def colSum (jj : Fin 256) : EReal := ∑ i : Fin 2048, ex x0 x1 x3 i jj

/-- The normalised weight of query i in column jj. -/
def prob (i : Fin 2048) (jj : Fin 256) : EReal := Ideal.div (ex x0 x1 x3 i jj) (colSum x0 x1 x3 jj)

/-- What the point adds to the output at (i, h). -/
def add (x2 : SK.Idx → EReal) (i : Fin 2048) (h : Fin 1024) : EReal :=
  ∑ jj : Fin 256, prob x0 x1 x3 i jj * x2 (ix3 (0 : Fin 1) jj h)

end Cert.Tile

end
-- ==== Proof.Value.Arr2Tile.lean ====
/-
  One grid point of the attention kernel against the arrays. When the point's four blocks are the arrays read at
  batch b and key block kb — the query block Q[b, ·, ·], the key block the first 1024 features of KV at the keys
  kb·256 + jj, the value block its last 1024 features at the same keys, the mask block M[b, ·, kb·256 + jj] — every
  quantity of the tile is the corresponding quantity of the array-level description at the key kb·256 + jj: the
  logit, the column's maximum, exponentials, sum and weight (the maximum and the sum range over the same 2048
  queries on both sides), and what the point adds to the output is key block kb's contribution.
-/
import proofs.«151926_j33698313404453_2_alg».proof.Proof.KSpec
import proofs.«151926_j33698313404453_2_alg».proof.Proof.Tile

noncomputable section

open scoped BigOperators

namespace Cert.KernelIdeal.Val

open Idealize.ShloMosaic Idealize.ShloMosaic.ValueIdx Cert.Spec Cert.KSpec

section Tile

variable (Q : SA.Idx → EReal) (KV : SM.Idx → EReal) (M : SM.Idx → BitVec 32) (b : Fin 4) (kb : Fin 8)
variable (x0 : Cert.Tile.SQ.Idx → EReal) (x1 x2 : Cert.Tile.SK.Idx → EReal) (x3 : Cert.Tile.SMk.Idx → BitVec 32)
variable (h0 : ∀ (i : Fin 2048) (h : Fin 1024), x0 (ix3 (0 : Fin 1) i h) = Q (ix3 b i h))
variable (h1 : ∀ (jj : Fin 256) (h : Fin 1024), x1 (ix3 (0 : Fin 1) jj h) = KV (ix3 b (key kb jj) (kf h)))
variable (h2 : ∀ (jj : Fin 256) (h : Fin 1024), x2 (ix3 (0 : Fin 1) jj h) = KV (ix3 b (key kb jj) (vf h)))
variable (h3 : ∀ (i : Fin 2048) (jj : Fin 256), x3 (ix3 (0 : Fin 1) i jj) = M (ix3 b i (key kb jj)))

include h0 h1 h3 in
/-- The tile's logit of query i against its key jj is the arrays' logit against key kb·256 + jj. -/
theorem tile_logit (i : Fin 2048) (jj : Fin 256) :
    Cert.Tile.logit x0 x1 x3 i jj = klogit Q KV M b i (key kb jj) := by
  unfold Cert.Tile.logit klogit
  rw [h3 i jj]
  refine congrArg (fun s => Scalar.select _ maskWord (s * _)) ?_
  exact Finset.sum_congr rfl fun h _ => by rw [h0 i h, h1 jj h]

include h0 h1 h3 in
/-- The column's maximum over the 2048 queries. -/
theorem tile_colMax (jj : Fin 256) :
    Cert.Tile.colMax x0 x1 x3 jj = Cert.Spec.colMax (klogit Q KV M) b (key kb jj) := by
  unfold Cert.Tile.colMax Cert.Spec.colMax
  refine congrArg (fun f : Fin 2048 → EReal => (Finset.univ : Finset (Fin 2048)).fold max negInf f) ?_
  exact funext fun i => tile_logit Q KV M b kb x0 x1 x3 h0 h1 h3 i jj

include h0 h1 h3 in
/-- The exponential of a logit less its column's maximum. -/
theorem tile_ex (i : Fin 2048) (jj : Fin 256) :
    Cert.Tile.ex x0 x1 x3 i jj = Cert.Spec.ex (klogit Q KV M) b i (key kb jj) := by
  unfold Cert.Tile.ex Cert.Spec.ex
  rw [tile_logit Q KV M b kb x0 x1 x3 h0 h1 h3 i jj, tile_colMax Q KV M b kb x0 x1 x3 h0 h1 h3 jj]

include h0 h1 h3 in
/-- The column's sum of exponentials over the 2048 queries. -/
theorem tile_colSum (jj : Fin 256) :
    Cert.Tile.colSum x0 x1 x3 jj = Cert.Spec.colSum (klogit Q KV M) b (key kb jj) := by
  unfold Cert.Tile.colSum Cert.Spec.colSum
  exact Finset.sum_congr rfl fun i _ => tile_ex Q KV M b kb x0 x1 x3 h0 h1 h3 i jj

include h0 h1 h3 in
/-- The normalised weight of query i in the column of key kb·256 + jj. -/
theorem tile_prob (i : Fin 2048) (jj : Fin 256) :
    Cert.Tile.prob x0 x1 x3 i jj = Cert.Spec.prob (klogit Q KV M) b i (key kb jj) := by
  unfold Cert.Tile.prob Cert.Spec.prob
  rw [tile_ex Q KV M b kb x0 x1 x3 h0 h1 h3 i jj, tile_colSum Q KV M b kb x0 x1 x3 h0 h1 h3 jj]

include h0 h1 h2 h3 in
/-- What the point adds to the output at (i, h) is key block kb's contribution. -/
theorem tile_add (i : Fin 2048) (h : Fin 1024) :
    Cert.Tile.add x0 x1 x3 x2 i h = contrib Q KV M b kb i h := by
  unfold Cert.Tile.add contrib
  exact Finset.sum_congr rfl fun jj _ => by
    rw [tile_prob Q KV M b kb x0 x1 x3 h0 h1 h3 i jj, h2 jj h]

end Tile

end Cert.KernelIdeal.Val

end
-- ==== Proof.Value.Acc2Logit.lean ====
/-
  The attention kernel's scores at one grid point, read at an index. The scores' product contracts the feature axis of
  the query block [2048, 1024] with the feature axis of the key block [256, 1024] (the key block enters transposed), into
  a zero accumulator: at (p, q) it is Σ_h query[p, h] · key[q, h]. The logit is that sum times the word of 1/32, replaced
  by the mask's constant where the mask word at (p, q) is not zero.
-/
import proofs.«151926_j33698313404453_2_alg».proof.Proof.Gen.KernelIdeal
import proofs.«151926_j33698313404453_2_alg».proof.Proof.Tile
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx
open scoped BigOperators

/-- The scores' product contracts axis 1 of the query block with axis 1 of the key block. At output index i and
    contraction index c the left operand's row is i's row … -/
theorem qk_lhs_0 (i : S2048x256.Idx) (c : dot_S2048x1024_S256x1024_S2048x256_1_1_0_0_n_n.contr.Idx) :
    (dot_S2048x1024_S256x1024_S2048x256_1_1_0_0_n_n.lhsIdx i c 0).val = (i 0).val := by
  unfold DotDims.lhsIdx
  rw [dif_neg (show ¬(0 : Fin S2048x1024.rank) ∈ dot_S2048x1024_S256x1024_S2048x256_1_1_0_0_n_n.lhsBatch by decide),
    dif_pos (show (0 : Fin S2048x1024.rank) ∈ dot_S2048x1024_S256x1024_S2048x256_1_1_0_0_n_n.lhsNonContracting by decide)]
  rfl

/-- … and its column the contraction coordinate; -/
theorem qk_lhs_1 (i : S2048x256.Idx) (c : dot_S2048x1024_S256x1024_S2048x256_1_1_0_0_n_n.contr.Idx) :
    (dot_S2048x1024_S256x1024_S2048x256_1_1_0_0_n_n.lhsIdx i c 1).val = (c ⟨0, by decide⟩).val :=
  dot_S2048x1024_S256x1024_S2048x256_1_1_0_0_n_n.lhsIdx_val_of_single rfl i c

/-- the right operand's row is i's column … -/
theorem qk_rhs_0 (i : S2048x256.Idx) (c : dot_S2048x1024_S256x1024_S2048x256_1_1_0_0_n_n.contr.Idx) :
    (dot_S2048x1024_S256x1024_S2048x256_1_1_0_0_n_n.rhsIdx i c 0).val = (i 1).val := by
  unfold DotDims.rhsIdx
  rw [dif_neg (show ¬(0 : Fin S256x1024.rank) ∈ dot_S2048x1024_S256x1024_S2048x256_1_1_0_0_n_n.rhsBatch by decide),
    dif_pos (show (0 : Fin S256x1024.rank) ∈ dot_S2048x1024_S256x1024_S2048x256_1_1_0_0_n_n.rhsNonContracting by decide)]
  rfl

/-- … and its column the contraction coordinate. -/
theorem qk_rhs_1 (i : S2048x256.Idx) (c : dot_S2048x1024_S256x1024_S2048x256_1_1_0_0_n_n.contr.Idx) :
    (dot_S2048x1024_S256x1024_S2048x256_1_1_0_0_n_n.rhsIdx i c 1).val = (c ⟨0, by decide⟩).val :=
  dot_S2048x1024_S256x1024_S2048x256_1_1_0_0_n_n.rhsIdx_val_of_single rfl i c

/-- The product of the query block with the transposed key block, into a zero accumulator, at (p, q): the sum over the
    1024 features of query p's entry times key q's entry. -/
theorem qk_apply (a : FVec Ideal S2048x1024 .bf16) (b : FVec Ideal S256x1024 .bf16) (p : Fin 2048) (q : Fin 256) :
    matmul dot_S2048x1024_S256x1024_S2048x256_1_1_0_0_n_n none a b (constant (F := Ideal) S2048x256 .f32 0x00000000#32) (ix2 p q)
      = ∑ h : Fin 1024, a (ix2 p h) * b (ix2 q h) := by
  refine (Ideal.matmul_constant_zero_apply dot_S2048x1024_S256x1024_S2048x256_1_1_0_0_n_n none a b (ix2 p q)).trans ?_
  rw [← Equiv.sum_comp (contrEquiv1 dot_S2048x1024_S256x1024_S2048x256_1_1_0_0_n_n 1024 rfl rfl).symm]
  refine Finset.sum_congr rfl fun k _ => ?_
  have hk := contrEquiv1_symm_val dot_S2048x1024_S256x1024_S2048x256_1_1_0_0_n_n 1024 rfl rfl k
  have el : dot_S2048x1024_S256x1024_S2048x256_1_1_0_0_n_n.lhsIdx (ix2 p q) ((contrEquiv1 dot_S2048x1024_S256x1024_S2048x256_1_1_0_0_n_n 1024 rfl rfl).symm k) = ix2 p k :=
    funext fun a => Fin.ext (by
      match a with
      | ⟨0, _⟩ => exact qk_lhs_0 _ _
      | ⟨1, _⟩ => exact (qk_lhs_1 _ _).trans hk)
  have er : dot_S2048x1024_S256x1024_S2048x256_1_1_0_0_n_n.rhsIdx (ix2 p q) ((contrEquiv1 dot_S2048x1024_S256x1024_S2048x256_1_1_0_0_n_n 1024 rfl rfl).symm k) = ix2 q k :=
    funext fun a => Fin.ext (by
      match a with
      | ⟨0, _⟩ => exact qk_rhs_0 _ _
      | ⟨1, _⟩ => exact (qk_rhs_1 _ _).trans hk)
  rw [el, er]

/-- The masked, scaled scores as the body computes them from the query, key and mask blocks: the blocks with their
    leading unit axis dropped, the mask word tested against zero, the scores' product times the word of 1/32, and the
    mask's constant selected where the word is not zero. -/
def kLogit (x0 : Vec Ideal S1x2048x1024 .bf16) (x1 : Vec Ideal S1x256x1024 .bf16) (x3 : Vec Ideal S1x2048x256 .i32) :
    FVec Ideal S2048x256 .f32 :=
  select (cmpi .ne (shapeCast S2048x256 x3 shapeCasts_S1x2048x256_S2048x256 : IVec S2048x256 32) (constantI S2048x256 32 0#32))
    (broadcast S2048x256 (Scalar.ofBits (F := Ideal) .f32 0x3089705F#32))
    (mulf
      (matmul dot_S2048x1024_S256x1024_S2048x256_1_1_0_0_n_n none (shapeCast S2048x1024 x0 shapeCasts_S1x2048x1024_S2048x1024 : FVec Ideal S2048x1024 .bf16)
        (shapeCast S256x1024 x1 shapeCasts_S1x256x1024_S256x1024 : FVec Ideal S256x1024 .bf16) (constant S2048x256 .f32 0x00000000#32))
      (broadcast S2048x256 (Scalar.ofBits (F := Ideal) .f32 0x3D000000#32)))

/-- At (p, q) it is the logit of query p against the block's key q. -/
theorem kLogit_apply (x0 : Vec Ideal S1x2048x1024 .bf16) (x1 : Vec Ideal S1x256x1024 .bf16) (x3 : Vec Ideal S1x2048x256 .i32)
    (p : Fin 2048) (q : Fin 256) : kLogit x0 x1 x3 (ix2 p q) = Cert.Tile.logit x0 x1 x3 p q := by
  have e3 : (shapeCast S2048x256 x3 shapeCasts_S1x2048x256_S2048x256 : IVec S2048x256 32) (ix2 p q) = x3 (ix3 (0 : Fin 1) p q) :=
    shapeCast_1ab_ab_apply x3 _ p q
  have eS : matmul dot_S2048x1024_S256x1024_S2048x256_1_1_0_0_n_n none (shapeCast S2048x1024 x0 shapeCasts_S1x2048x1024_S2048x1024 : FVec Ideal S2048x1024 .bf16)
        (shapeCast S256x1024 x1 shapeCasts_S1x256x1024_S256x1024 : FVec Ideal S256x1024 .bf16) (constant (F := Ideal) S2048x256 .f32 0x00000000#32) (ix2 p q)
      = ∑ h : Fin 1024, x0 (ix3 (0 : Fin 1) p h) * x1 (ix3 (0 : Fin 1) q h) := by
    refine (qk_apply _ _ p q).trans (Finset.sum_congr rfl fun h _ => ?_)
    exact congrArg₂ (· * ·) (shapeCast_1ab_ab_apply x0 _ p h) (shapeCast_1ab_ab_apply x1 _ q h)
  unfold kLogit Cert.Tile.logit
  show Scalar.select (IntOp.cmpi .ne ((shapeCast S2048x256 x3 shapeCasts_S1x2048x256_S2048x256 : IVec S2048x256 32) (ix2 p q)) 0#32)
      (Ideal.ofBits .f32 0x3089705F#32)
      (matmul dot_S2048x1024_S256x1024_S2048x256_1_1_0_0_n_n none (shapeCast S2048x1024 x0 shapeCasts_S1x2048x1024_S2048x1024 : FVec Ideal S2048x1024 .bf16)
        (shapeCast S256x1024 x1 shapeCasts_S1x256x1024_S256x1024 : FVec Ideal S256x1024 .bf16) (constant (F := Ideal) S2048x256 .f32 0x00000000#32) (ix2 p q)
        * Ideal.ofBits .f32 0x3D000000#32) = _
  rw [e3, eS]
  rfl

end Cert.KernelIdeal.Val

end
-- ==== Proof.LibMaxReduce.lean ====
/-
  Maximum reductions read at an index, over the extended reals, as folds of `max` over one coordinate.

  A vector maximum-reduction of an [a, b] array over its rows, at lane q, is the fold of max from the accumulator's
  value over the entries (j, q); the host's reduce with a maximum body over the middle axis of an [a, b, c] array,
  at (n, k), is the fold of max from the initial value over the entries (n, j, k).  Each index with the reduced
  coordinate put back is named by its coordinates, so a proof continues entry by entry.
-/
import Idealize.ShloMosaic.PureOps.Ideal.Laws
import Idealize.ShloMosaic.PureOps.Reduce
import Idealize.ShloMosaic.Lib.ValueIdx

noncomputable section

namespace MaxReduce

open Idealize.ShloMosaic Idealize.ShloMosaic.ValueIdx

variable {a b c : ℕ}

/-- In an [a, b] array reduced over its rows, the reduced index `q` with row `j` put back is (j, q). -/
theorem lift_rows (h : (⟨2, ![a, b]⟩ : Shape).Reduces [0] (⟨1, ![b]⟩ : Shape)) (q : Fin b)
    (j : Fin ((⟨2, ![a, b]⟩ : Shape).size 0)) : h.lift (ix1 q) j = ix2 (⟨j.val, j.isLt⟩ : Fin a) q := by
  funext d; apply Fin.ext
  fin_cases d <;> rfl

/-- A vector maximum-reduction of an [a, b] array over its rows, at lane `q`: the fold of max from the accumulator's
    value over the rows' entries at that lane. -/
theorem multiReduction_max_rows {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (q : Fin b) :
    multiReduction .maximumf [0] (⟨1, ![b]⟩ : Shape) src acc h hφ hacc (ix1 q)
      = (Finset.univ : Finset (Fin a)).fold max (Ideal.ofBits φ acc) fun j => src (ix2 j q) := by
  refine (Ideal.multiReduction_maximumf_single src acc h hφ hacc (ix1 q)).trans ?_
  refine congrArg (fun f => Finset.fold max (Ideal.ofBits φ acc) f (Finset.univ : Finset (Fin a))) ?_
  funext j
  exact congrArg src (lift_rows h q j)

/-- In an [a, b, c] array reduced over its middle axis, the reduced index (n, k) with coordinate `j` put back is
    (n, j, k). -/
theorem lift_mid (h : (⟨3, ![a, b, c]⟩ : Shape).Reduces [1] (⟨2, ![a, c]⟩ : Shape)) (n : Fin a) (k : Fin c)
    (j : Fin ((⟨3, ![a, b, c]⟩ : Shape).size 1)) : h.lift (ix2 n k) j = ix3 n (⟨j.val, j.isLt⟩ : Fin b) k := by
  funext d; apply Fin.ext
  fin_cases d <;> rfl

/-- The host's reduce with a maximum body over the middle axis of an [a, b, c] array, at (n, k): the fold of max
    from the initial value's element over the entries (n, j, k). -/
theorem hostReduce_max_mid {φ : FTy} {u : Shape} (x : FVec Ideal ⟨3, ![a, b, c]⟩ φ) (init : u.Idx → Ideal φ)
    (h' : (⟨3, ![a, b, c]⟩ : Shape).ReducesTo [1] (⟨2, ![a, c]⟩ : Shape))
    (h : (⟨3, ![a, b, c]⟩ : Shape).Reduces [1] (⟨2, ![a, c]⟩ : Shape)) (hu : 0 < u.numel) (n : Fin a) (k : Fin c) :
    Host.reduce FloatOps.maximumf x init h' hu (ix2 n k)
      = (Finset.univ : Finset (Fin b)).fold max (init (Shape.Idx.first hu)) fun j => x (ix3 n j k) := by
  rw [Host.reduce_eq_fold_single FloatOps.maximumf x init h' h hu]
  refine congrArg (fun f => Finset.fold max (init (Shape.Idx.first hu)) f (Finset.univ : Finset (Fin b))) ?_
  funext j
  exact congrArg x (lift_mid h n k j)

end MaxReduce

end
-- ==== Proof.Value.Acc2Softmax.lean ====
/-
  The column-wise softmax of one grid point, read at an index, for any [2048, 256] array of logits. The maximum of
  column q is taken over all 2048 rows starting from the word of -∞ and put back on every row; the exponential of an entry
  less its column's maximum is e(p, q); the sum of column q of the exponentials, starting from the zero word, is put back
  on every row, and the weight is e(p, q) over that sum. Storing the weight in the narrower format changes no value here.
-/
import proofs.«151926_j33698313404453_2_alg».proof.Proof.Gen.KernelIdeal
import proofs.«151926_j33698313404453_2_alg».proof.Proof.Spec
import proofs.«151926_j33698313404453_2_alg».proof.Proof.LibMaxReduce
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Idealize.ShloMosaic Idealize.ShloMosaic.ValueIdx
open scoped BigOperators

/-- The exponentials as the body computes them from the logits: each column's maximum over the 2048 rows, from the word of
    -∞, put back on every row; the logit less it; the exponential. -/
def kEx (L : FVec Ideal S2048x256 .f32) : FVec Ideal S2048x256 .f32 :=
  exp (subf L
    (broadcastTo S2048x256
      (shapeCast S1x256 (multiReduction .maximumf [0] S256 L 0xFF800000#32 reduces_S2048x256_S256 (.inl rfl) rfl)
        shapeCasts_S256_S1x256)
      broadcasts_S1x256_S2048x256))

/-- At (p, q): the exponential of the entry less the maximum of column q. -/
theorem kEx_apply (L : FVec Ideal S2048x256 .f32) (p : Fin 2048) (q : Fin 256) :
    kEx L (ix2 p q)
      = Ideal.exp (L (ix2 p q) - (Finset.univ : Finset (Fin 2048)).fold max Cert.Spec.negInf fun i => L (ix2 i q)) := by
  unfold kEx
  show Ideal.exp (L (ix2 p q) -
      broadcastTo S2048x256
        (shapeCast S1x256 (multiReduction .maximumf [0] S256 L 0xFF800000#32 reduces_S2048x256_S256 (.inl rfl) rfl)
          shapeCasts_S256_S1x256)
        broadcasts_S1x256_S2048x256 (ix2 p q)) = _
  refine congrArg (fun m => Ideal.exp (L (ix2 p q) - m)) ?_
  refine (broadcastTo_1b_ab_apply _ broadcasts_S1x256_S2048x256 p q).trans ?_
  refine (shapeCast_a_1a_apply _ shapeCasts_S256_S1x256 (0 : Fin 1) q).trans ?_
  exact MaxReduce.multiReduction_max_rows L 0xFF800000#32 reduces_S2048x256_S256 (.inl rfl) rfl q

/-- The weights as the body computes them from the exponentials: each column's sum over the 2048 rows, from the zero
    word, put back on every row; the quotient; the result stored in the narrower format (no change of value here). -/
def kProb (E : FVec Ideal S2048x256 .f32) : FVec Ideal S2048x256 .bf16 :=
  truncf .bf16
    (divf E
      (broadcastTo S2048x256
        (shapeCast S1x256 (multiReduction .add [0] S256 E 0x00000000#32 reduces_S2048x256_S256 (.inl rfl) rfl)
          shapeCasts_S256_S1x256)
        broadcasts_S1x256_S2048x256))
    bitsLt_bf16_f32

/-- At (p, q): the entry over the sum of column q. -/
theorem kProb_apply (E : FVec Ideal S2048x256 .f32) (p : Fin 2048) (q : Fin 256) :
    kProb E (ix2 p q) = Ideal.div (E (ix2 p q)) (∑ i : Fin 2048, E (ix2 i q)) := by
  unfold kProb
  show Ideal.div (E (ix2 p q))
      (broadcastTo S2048x256
        (shapeCast S1x256 (multiReduction .add [0] S256 E 0x00000000#32 reduces_S2048x256_S256 (.inl rfl) rfl)
          shapeCasts_S256_S1x256)
        broadcasts_S1x256_S2048x256 (ix2 p q)) = _
  refine congrArg (Ideal.div (E (ix2 p q))) ?_
  refine (broadcastTo_1b_ab_apply _ broadcasts_S1x256_S2048x256 p q).trans ?_
  refine (shapeCast_a_1a_apply _ shapeCasts_S256_S1x256 (0 : Fin 1) q).trans ?_
  refine (Ideal.multiReduction_add_single E 0x00000000#32 reduces_S2048x256_S256 (.inl rfl) rfl (ix1 q)).trans ?_
  exact Finset.sum_congr rfl fun k _ => congrArg E (MaxReduce.lift_rows reduces_S2048x256_S256 q k)

end Cert.KernelIdeal.Val

end
-- ==== Proof.Value.Acc2.lean ====
/-
  One grid point of the attention kernel at an index. The point's arithmetic is the previous contents of the output
  block plus the product of the weights [2048, 256] with the value block [256, 1024] into a zero accumulator; with the
  logits, exponentials and weights read entry by entry, the entry (i, h) gains Σ_jj weight(i, jj) · value[jj, h], the
  tile's contribution. The block a batch's first key block starts from is zero at every index.
-/
import proofs.«151926_j33698313404453_2_alg».proof.Proof.KernelIdeal.Data2
import proofs.«151926_j33698313404453_2_alg».proof.Proof.Tile
import proofs.«151926_j33698313404453_2_alg».proof.Proof.LibSoftplus
import proofs.«151926_j33698313404453_2_alg».proof.Proof.Value.Acc2Logit
import proofs.«151926_j33698313404453_2_alg».proof.Proof.Value.Acc2Softmax
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Frame Idealize.ShloMosaic Idealize.ShloMosaic.ValueIdx
open scoped BigOperators

/-- The body's arithmetic is the previous contents, with their leading unit axis dropped, plus the product of the
    weights with the value block into a zero accumulator. -/
theorem pay3_eq (x0 : Vec Ideal S1x2048x1024 .bf16) (x1 x2 : Vec Ideal S1x256x1024 .bf16) (x3 : Vec Ideal S1x2048x256 .i32)
    (prev : Vec Ideal S1x2048x1024 .f32) :
    k2_pay3 (F := Ideal) x0 x1 x2 x3 prev
      = addf (shapeCast S2048x1024 prev shapeCasts_S1x2048x1024_S2048x1024 : FVec Ideal S2048x1024 .f32)
          (matmul dot_S2048x256_S256x1024_S2048x1024_1_0_0_1_n_n none (kProb (kEx (kLogit x0 x1 x3)))
            (shapeCast S256x1024 x2 shapeCasts_S1x256x1024_S256x1024 : FVec Ideal S256x1024 .bf16) (constant S2048x1024 .f32 0x00000000#32)) := rfl

/-- The exponentials of the block's logits are the tile's. -/
theorem ex_apply (x0 : Vec Ideal S1x2048x1024 .bf16) (x1 : Vec Ideal S1x256x1024 .bf16) (x3 : Vec Ideal S1x2048x256 .i32)
    (p : Fin 2048) (q : Fin 256) : kEx (kLogit x0 x1 x3) (ix2 p q) = Cert.Tile.ex x0 x1 x3 p q := by
  have hf : (fun i : Fin 2048 => kLogit x0 x1 x3 (ix2 i q)) = fun i => Cert.Tile.logit x0 x1 x3 i q :=
    funext fun i => kLogit_apply x0 x1 x3 i q
  rw [kEx_apply, hf, kLogit_apply]
  rfl

/-- The weights are the tile's. -/
theorem prob_apply (x0 : Vec Ideal S1x2048x1024 .bf16) (x1 : Vec Ideal S1x256x1024 .bf16) (x3 : Vec Ideal S1x2048x256 .i32)
    (p : Fin 2048) (q : Fin 256) : kProb (kEx (kLogit x0 x1 x3)) (ix2 p q) = Cert.Tile.prob x0 x1 x3 p q := by
  have hf : (fun i : Fin 2048 => kEx (kLogit x0 x1 x3) (ix2 i q)) = fun i => Cert.Tile.ex x0 x1 x3 i q :=
    funext fun i => ex_apply x0 x1 x3 i q
  rw [kProb_apply, hf, ex_apply]
  rfl

/-- One grid point's arithmetic at (i, h): what the buffer held there plus the key block's contribution. -/
theorem pay3_apply (x0 : Vec Ideal S1x2048x1024 .bf16) (x1 x2 : Vec Ideal S1x256x1024 .bf16) (x3 : Vec Ideal S1x2048x256 .i32)
    (prev : Vec Ideal S1x2048x1024 .f32) (i : Fin 2048) (h : Fin 1024) :
    k2_pay3 (F := Ideal) x0 x1 x2 x3 prev (ix2 i h) = prev (ix3 (0 : Fin 1) i h) + Cert.Tile.add x0 x1 x3 x2 i h := by
  rw [pay3_eq]
  refine (addf_apply _ _ _).trans ?_
  refine congrArg₂ (· + ·) (shapeCast_1ab_ab_apply prev _ i h) ?_
  refine (Cert.Lib.Softplus.matmul0_plain_apply dot_S2048x256_S256x1024_S2048x1024_1_0_0_1_n_n rfl none _ _ i h).trans ?_
  unfold Cert.Tile.add
  refine Finset.sum_congr rfl fun jj _ => ?_
  exact congrArg₂ (· * ·) (prob_apply x0 x1 x3 i jj) (shapeCast_1ab_ab_apply x2 _ jj h)

/-- One grid point's step on the output buffer, at (0, i, h). -/
theorem acc2_apply (x0 : Vec Ideal S1x2048x1024 .bf16) (x1 x2 : Vec Ideal S1x256x1024 .bf16) (x3 : Vec Ideal S1x2048x256 .i32)
    (prev : Vec Ideal S1x2048x1024 .f32) (i : Fin 2048) (h : Fin 1024) :
    acc2 (F := Ideal) x0 x1 x2 x3 prev (ix3 (0 : Fin 1) i h) = prev (ix3 (0 : Fin 1) i h) + Cert.Tile.add x0 x1 x3 x2 i h := by
  unfold acc2 k2_pay1
  exact (shapeCast_ab_1ab_apply _ shapeCasts_S2048x1024_S1x2048x1024 (0 : Fin 1) i h).trans (pay3_apply x0 x1 x2 x3 prev i h)

/-- The block the first key block starts from is zero everywhere. -/
theorem zero2_apply (y : S1x2048x1024.Idx) : zero2 (F := Ideal) y = 0 := by
  obtain ⟨u, i, h, rfl⟩ : ∃ (u : Fin 1) (i : Fin 2048) (h : Fin 1024), y = ix3 u i h := ⟨y 0, y 1, y 2, eq_ix3 y⟩
  unfold zero2 k2_pay2
  refine (shapeCast_ab_1ab_apply _ shapeCasts_S2048x1024_S1x2048x1024 u i h).trans ?_
  show Ideal.ofBits .f32 0x00000000#32 = 0
  exact Ideal.ofBits_zero_f32

end Cert.KernelIdeal.Val

end
-- ==== Proof.Value.Arr2Acc.lean ====
/-
  What the output's staging buffer holds after each point of a batch's run of eight key blocks. One point's step adds
  that key block's contribution to what the buffer held (zero at the first key block), and the tile at the point's
  blocks is the array-level description at (batch, key block); so after key block n of batch b the buffer holds, at
  (i, h), the sum of the contributions of key blocks 0 … n — by induction on n —, and after the eighth the kernel's
  output at (b, i, h).
-/
import proofs.«151926_j33698313404453_2_alg».proof.Proof.Value.Arr2Blocks
import proofs.«151926_j33698313404453_2_alg».proof.Proof.Value.Arr2Tile
import proofs.«151926_j33698313404453_2_alg».proof.Proof.Value.Acc2

set_option maxRecDepth 16384

noncomputable section

namespace Cert.KernelIdeal.Val

open Cert.KernelIdeal Cert.KernelIdeal.Gen Cert.KernelIdeal.Frame Idealize.ShloMosaic Idealize.ShloMosaic.ValueIdx
open Idealize.ShloMosaic.TcCoe
open Cert.KSpec
open scoped BigOperators

variable (V : (c : Dev nD) → (b : Ref sig .tc) → Buf (Elt Ideal) ((c : Thread nD τ).loc b))

/-- The three arrays the region reads: the projected queries, the fused projected keys and values, the mask words. -/
abbrev Qof (c : Dev nD) : S4x2048x1024.Idx → EReal := V c main_v8
abbrev KVof (c : Dev nD) : S4x2048x2048.Idx → EReal := V c main_v10
abbrev Mof (c : Dev nD) : S4x2048x2048.Idx → BitVec 32 := V c main_v11

/-- What point t adds to the output is the contribution of its key block to its batch. -/
theorem add_at (c : Dev nD) (t : Fin cfg2.N) (b : Fin 4) (kb : Fin 8) (hb : b.val = t.val / 8) (hkb : kb.val = t.val % 8)
    (i : Fin 2048) (h : Fin 1024) :
    Cert.Tile.add (iblk2 V c 0 t) (iblk2 V c 1 t) (iblk2 V c 3 t) (iblk2 V c 2 t) i h
      = contrib (Qof V c) (KVof V c) (Mof V c) b kb i h :=
  tile_add (Qof V c) (KVof V c) (Mof V c) b kb (iblk2 V c 0 t) (iblk2 V c 1 t) (iblk2 V c 2 t) (iblk2 V c 3 t)
    (fun i h => iblk2_0_apply V c t b hb i h) (fun jj h => iblk2_1_apply V c t b kb hb hkb jj h)
    (fun jj h => iblk2_2_apply V c t b kb hb hkb jj h) (fun i jj => iblk2_3_apply V c t b kb hb hkb i jj) i h

/-- Key block k's contribution to batch b at (i, h), for any natural k (zero past the eight key blocks). -/
def cN (c : Dev nD) (b : Fin 4) (i : Fin 2048) (h : Fin 1024) (k : ℕ) : EReal :=
  if hk : k < 8 then contrib (Qof V c) (KVof V c) (Mof V c) b ⟨k, hk⟩ i h else 0

/-- The buffer's contents do not depend on how the point's position is written. -/
theorem outsAt2_same (c : Dev nD) (u v : ℕ) (hu : u < cfg2.N) (hv : v < cfg2.N) (e : u = v) :
    outsAt2 V c u hu = outsAt2 V c v hv := by subst e; rfl

/-- After key block n of batch b the buffer holds the sum of the contributions of key blocks 0 … n. -/
theorem outsAt2_sum (c : Dev nD) (b : Fin 4) (i : Fin 2048) (h : Fin 1024) :
    ∀ (n : ℕ) (hn : n < 8) (hlt : 8 * b.val + n < cfg2.N),
      outsAt2 V c (8 * b.val + n) hlt (ix3 (0 : Fin 1) i h) = ∑ k ∈ Finset.range (n + 1), cN V c b i h k
  | 0, hn, hlt => by
    have hb : b.val = (⟨8 * b.val + 0, hlt⟩ : Fin cfg2.N).val / 8 := by show b.val = (8 * b.val + 0) / 8; omega
    have hkb : (⟨0, hn⟩ : Fin 8).val = (⟨8 * b.val + 0, hlt⟩ : Fin cfg2.N).val % 8 := by show 0 = (8 * b.val + 0) % 8; omega
    refine (congrFun (outsAt2_first V c ⟨8 * b.val + 0, hlt⟩ (by show (8 * b.val + 0) % 8 = 0; omega)) _).trans ?_
    refine (acc2_apply _ _ _ _ _ i h).trans ?_
    rw [zero2_apply, zero_add, Finset.sum_range_one, add_at V c ⟨8 * b.val + 0, hlt⟩ b ⟨0, hn⟩ hb hkb i h]
    unfold cN
    rw [dif_pos hn]
  | n + 1, hn, hlt => by
    have hb : b.val = (⟨8 * b.val + (n + 1), hlt⟩ : Fin cfg2.N).val / 8 := by show b.val = (8 * b.val + (n + 1)) / 8; omega
    have hkb : (⟨n + 1, hn⟩ : Fin 8).val = (⟨8 * b.val + (n + 1), hlt⟩ : Fin cfg2.N).val % 8 := by
      show n + 1 = (8 * b.val + (n + 1)) % 8; omega
    have hne : ¬(⟨8 * b.val + (n + 1), hlt⟩ : Fin cfg2.N).val % 8 = 0 := by show ¬(8 * b.val + (n + 1)) % 8 = 0; omega
    have hlt' : 8 * b.val + n < cfg2.N := by omega
    have hprev : ∀ hp, outsAt2 V c ((⟨8 * b.val + (n + 1), hlt⟩ : Fin cfg2.N).val - 1) hp (ix3 (0 : Fin 1) i h)
        = ∑ k ∈ Finset.range (n + 1), cN V c b i h k := fun hp =>
      (congrFun (outsAt2_same V c _ (8 * b.val + n) hp hlt' (by show 8 * b.val + (n + 1) - 1 = 8 * b.val + n; omega)) _).trans
        (outsAt2_sum c b i h n (by omega) hlt')
    refine (congrFun (outsAt2_later V c ⟨8 * b.val + (n + 1), hlt⟩ hne) _).trans ?_
    refine (acc2_apply _ _ _ _ _ i h).trans ?_
    rw [hprev, add_at V c ⟨8 * b.val + (n + 1), hlt⟩ b ⟨n + 1, hn⟩ hb hkb i h, Finset.sum_range_succ _ (n + 1)]
    congr 1
    unfold cN
    rw [dif_pos hn]

/-- After the eighth key block of batch b the buffer holds the kernel's output at (b, i, h). -/
theorem outsAt2_last (c : Dev nD) (b : Fin 4) (i : Fin 2048) (h : Fin 1024) (t : ℕ) (ht : t < cfg2.N) (e : t = 8 * b.val + 7) :
    outsAt2 V c t ht (ix3 (0 : Fin 1) i h) = kattn (Qof V c) (KVof V c) (Mof V c) b i h := by
  subst e
  rw [outsAt2_sum V c b i h 7 (by omega) ht]
  unfold kattn
  show ∑ k ∈ Finset.range 8, cN V c b i h k = _
  rw [Finset.sum_range]
  exact Finset.sum_congr rfl fun kb _ => by unfold cN; rw [dif_pos kb.isLt]

end Cert.KernelIdeal.Val

end
-- ==== Proof.Value.Arr2.lean ====
/-
  What the attention region leaves in its output array. The output block of batch b — all 2048 × 1024 of it — is
  written back once, after the batch's eighth key block (the points t with t % 8 = 7), holding the kernel's output
  for that batch; the four blocks cover the array. So after the run the array holds, at (b, i, h), the sum over the
  eight key blocks of their contributions: the kernel's attention of the arrays the region was handed.
-/
import proofs.«151926_j33698313404453_2_alg».proof.Proof.Value.Arr2Acc

set_option maxRecDepth 16384

noncomputable section

namespace Cert.KernelIdeal.Val

open Cert.KernelIdeal Cert.KernelIdeal.Gen Cert.KernelIdeal.Frame Idealize.ShloMosaic Idealize.ShloMosaic.ValueIdx
open Idealize.ShloMosaic.TcCoe
open Idealize.ShloMosaic.Pipeline (Dat)
open Cert.KSpec
open scoped BigOperators

variable (V : (c : Dev nD) → (b : Ref sig .tc) → Buf (Elt Ideal) ((c : Thread nD τ).loc b))

/-- The kernel's output as an array of the three arrays the region reads. -/
abbrev G2 (c : Dev nD) : S4x2048x1024.Idx → EReal := fun y =>
  kattn (Qof V c) (KVof V c) (Mof V c) ⟨(y 0).val, (y 0).isLt⟩ ⟨(y 1).val, (y 1).isLt⟩ ⟨(y 2).val, (y 2).isLt⟩

/-- It is read at an index through the index's three coordinates. -/
theorem G2_of (c : Dev nD) (y : S4x2048x1024.Idx) (b : Fin 4) (i : Fin 2048) (h : Fin 1024)
    (h0 : (y 0).val = b.val) (h1 : (y 1).val = i.val) (h2 : (y 2).val = h.val) :
    G2 V c y = kattn (Qof V c) (KVof V c) (Mof V c) b i h := by
  have e : y = ix3 b i h := by
    funext a; apply Fin.ext
    match a with
    | ⟨0, _⟩ => exact h0
    | ⟨1, _⟩ => exact h1
    | ⟨2, _⟩ => exact h2
  subst e; rfl

/-- What a point with t % 8 = 7 writes back is its block — batch t / 8 — of that array. -/
theorem flushed2_eq (c : Dev nD) (t : Fin cfg2.N) (hf : (cfg2.win 4).flush t = true) :
    (dat2 V c).flushed 4 t = ((cfg2.win 4).blk t).view.read (Elt Ideal) (G2 V c) := by
  have h7 : t.val % 8 = 7 := (flush2_4 t).mp hf
  have hN := N2
  have htl : t.val < 32 := by have := t.isLt; omega
  obtain ⟨-, -, -, -, -, -, -, -, -, -, -, -, e0, e1, e2⟩ := idx2 t
  show (cfg2.win 4).cut (grid2.coords t) ((dat2 V c).after 4 t) = _
  rw [after2_4]
  funext j
  obtain ⟨j0, j1, j2, rfl⟩ : ∃ (j0 : Fin 1) (j1 : Fin 2048) (j2 : Fin 1024), j = ix3 j0 j1 j2 :=
    ⟨j 0, j 1, j 2, eq_ix3 (n0 := 1) (n1 := 2048) (n2 := 1024) j⟩
  obtain rfl : j0 = 0 := Fin.ext (by omega)
  rw [View.read_apply]
  show outsAt2 V c t.val t.isLt (ix3 (0 : Fin 1) j1 j2) = G2 V c (((cfg2.win 4).blk t).view.emb (ix3 (0 : Fin 1) j1 j2))
  rw [outsAt2_last V c ⟨t.val / 8, by omega⟩ j1 j2 t.val t.isLt (by show t.val = 8 * (t.val / 8) + 7; omega)]
  refine (G2_of V c _ ⟨t.val / 8, by omega⟩ j1 j2 ?_ ?_ ?_).symm
  · show win2_4.index t 0 * 1 + 1 * 0 = t.val / 8; omega
  · show win2_4.index t 1 * 2048 + 1 * j1.val = j1.val; omega
  · show win2_4.index t 2 * 1024 + 1 * j2.val = j2.val; omega

/-- An index of the array is in point t's block iff each coordinate is in the block's range on its axis. -/
theorem mem_blk2_4 (t : Fin cfg2.N) (y : S4x2048x1024.Idx) :
    y ∈ ((cfg2.win 4).blk t).view.set ↔ ∀ a : Fin 3, win2_4.index t a * S1x2048x1024.size a ≤ (y a).val
      ∧ (y a).val < win2_4.index t a * S1x2048x1024.size a + S1x2048x1024.size a := by
  show y ∈ ((View.whole main_v12).slice (win2_4.rect t)).set ↔ _
  rw [View.set_slice_whole, Rect.mem_set_unit]
  exact Iff.rfl

/-- Every index of the array is in the block written back after the eighth key block of its batch. -/
theorem cover2 (y : S4x2048x1024.Idx) :
    ∃ t : Fin cfg2.N, (cfg2.win 4).flush t = true ∧ y ∈ ((cfg2.win 4).blk t).view.set := by
  have hy0 : (y 0).val < 4 := (y 0).isLt
  have hy1 : (y 1).val < 2048 := (y 1).isLt
  have hy2 : (y 2).val < 1024 := (y 2).isLt
  have hN := N2
  obtain ⟨t, ht⟩ : ∃ t : Fin cfg2.N, t.val = 8 * (y 0).val + 7 := ⟨⟨8 * (y 0).val + 7, by omega⟩, rfl⟩
  obtain ⟨-, -, -, -, -, -, -, -, -, -, -, -, e0, e1, e2⟩ := idx2 t
  refine ⟨t, (flush2_4 t).mpr (by omega), ?_⟩
  rw [mem_blk2_4]
  intro a
  match a with
  | ⟨0, _⟩ => show win2_4.index t 0 * 1 ≤ (y 0).val ∧ (y 0).val < win2_4.index t 0 * 1 + 1; omega
  | ⟨1, _⟩ => show win2_4.index t 1 * 2048 ≤ (y 1).val ∧ (y 1).val < win2_4.index t 1 * 2048 + 2048; omega
  | ⟨2, _⟩ => show win2_4.index t 2 * 1024 ≤ (y 2).val ∧ (y 2).val < win2_4.index t 2 * 1024 + 1024; omega

/-- The output array after the run. -/
theorem arr2_eq (c : Dev nD) : (dat2 V c).arrAt 4 cfg2.N = G2 V c :=
  (dat2 V c).arrAt_eq_of_cover 4 (G2 V c) (flushed2_eq V c) (fun y => cover2 y)

/-- The output array after the run, at an index: the kernel's attention of the arrays the region was handed. -/
theorem arr2_apply (c : Dev nD) (b : Fin 4) (i : Fin 2048) (h : Fin 1024) :
    ((dat2 (F := Ideal) V c).arrAt 4 cfg2.N : S4x2048x1024.Idx → EReal) (ix3 b i h)
      = Cert.KSpec.kattn (V c main_v8 : S4x2048x1024.Idx → EReal) (V c main_v10 : S4x2048x2048.Idx → EReal)
          (V c main_v11 : S4x2048x2048.Idx → BitVec 32) b i h :=
  (congrFun (arr2_eq V c) (ix3 b i h)).trans rfl

end Cert.KernelIdeal.Val

end
-- ==== Proof.Value.KernelValue.lean ====
/-
  The attention kernel's output array, at the buffer contents the run finds at the kernel's entry, is the attention
  function of the launch memory's six argument arrays.

  The output at (b, i, h) is the blocked form of KSpec.lean of the three arrays the kernel is handed.  The first is the
  query projection: it is the first matrix product's rows laid out as [4, 2048, 1024], the product's row 2048·b + s
  being the sum over the input features of the first activation's row (b, s) against the transposed query weight.
  The second is the fused key and value projection: the second matrix product's rows laid out as [4, 2048, 2048],
  whose column h below 1024 is the key projection's feature h and whose column 1024 + h is the value projection's,
  the fused weight's columns being the rows of the key weight followed by those of the value weight.  The third is
  the mask with each bit widened to a 32-bit word.  Under these three readings the blocked form is the attention
  function (Bridge.lean).
-/
import proofs.«151926_j33698313404453_2_alg».proof.Proof.KernelIdeal.Chain
import proofs.«151926_j33698313404453_2_alg».proof.Proof.Value.Host
import proofs.«151926_j33698313404453_2_alg».proof.Proof.Value.Bridge
import proofs.«151926_j33698313404453_2_alg».proof.Proof.Value.Arr0
import proofs.«151926_j33698313404453_2_alg».proof.Proof.Value.Arr1
import proofs.«151926_j33698313404453_2_alg».proof.Proof.Value.Arr2

set_option maxRecDepth 16384

noncomputable section

open scoped BigOperators

namespace Cert.KernelIdeal.Val.Asm

open Cert.KernelIdeal Cert.KernelIdeal.Gen Cert.KernelIdeal.Frame Cert.KernelIdeal.Val
open Idealize.ShloMosaic Idealize.ShloMosaic.TcCoe Idealize.ShloMosaic.ValueIdx

variable (m : (ℓ : Loc nD τ sig) → Buf (Elt Ideal) ℓ) (c : Dev nD)

/-! The buffers read below, each as a function on its literal index set. -/

/-- The six argument arrays of the launch memory on core c. -/
abbrev A0 : S4x2048x1024.Idx → EReal := m ((c : Thread nD τ).loc main_arg0)
abbrev A1 : S4x2048x1024.Idx → EReal := m ((c : Thread nD τ).loc main_arg1)
abbrev A2 : S4x2048x2048.Idx → BitVec 1 := m ((c : Thread nD τ).loc main_arg2)
abbrev A3 : S1024x1024.Idx → EReal := m ((c : Thread nD τ).loc main_arg3)
abbrev A4 : S1024x1024.Idx → EReal := m ((c : Thread nD τ).loc main_arg4)
abbrev A5 : S1024x1024.Idx → EReal := m ((c : Thread nD τ).loc main_arg5)

/-- The two activation arrays as rows, the transposed query weight and the fused transposed weight, as the first
    host operations leave them. -/
abbrev X0 : S8192x1024.Idx → EReal := Gen.V1 (F := Ideal) m c main_v0
abbrev X1 : S8192x1024.Idx → EReal := Gen.V1 (F := Ideal) m c main_v1
abbrev X3 : S1024x1024.Idx → EReal := Gen.V1 (F := Ideal) m c main_v3
abbrev X6 : S1024x2048.Idx → EReal := Gen.V1 (F := Ideal) m c main_v6

/-- The two matrix products' output arrays, where the run leaves them. -/
abbrev P0 : S8192x1024.Idx → EReal := W2 m c main_v7
abbrev P1 : S8192x2048.Idx → EReal := W4 m c main_v9

/-- The attention kernel's three operands at its entry. -/
abbrev Q5 : S4x2048x1024.Idx → EReal := VR5 m c main_v8
abbrev KV5 : S4x2048x2048.Idx → EReal := VR5 m c main_v10
abbrev M5 : S4x2048x2048.Idx → BitVec 32 := VR5 m c main_v11

/-- The first product's array is the product of the first activation's rows with the transposed query weight. -/
theorem p0_eq : P0 m c = G0 (X0 m c) (X3 m c) := (W2_out m c).trans (arr0_eq (VR1 m) c)

/-- The second product's array is the product of the second activation's rows with the fused transposed weight. -/
theorem p1_eq : P1 m c = G1 (X1 m c) (X6 m c) := by
  have e3 : @Eq (S8192x1024.Idx → EReal) (VR3 m c main_v1) (X1 m c) := W3_v1 m c
  have e4 : @Eq (S1024x2048.Idx → EReal) (VR3 m c main_v6) (X6 m c) := W3_v6 m c
  have e : P1 m c = G1 (VR3 m c main_v1) (VR3 m c main_v6) := (W4_out m c).trans (arr1_eq (VR3 m) c)
  rw [e, e3, e4]

/-- The kernel's first operand is the query projection. -/
theorem q_read (b : Fin 4) (s : Fin 2048) (h : Fin 1024) :
    Q5 m c (ix3 b s h) = Cert.Spec.proj (A0 m c) (A3 m c) b s h := by
  have e1 : @Eq (S4x2048x1024.Idx → EReal) (Q5 m c) (StableHlo.after (hostOps1 (F := Ideal)) (W2 m c) main_v8) := W5_v8 m c
  have e2 : Q5 m c (ix3 b s h) = P0 m c (ix2 (row b s) h) := (congrFun e1 _).trans (host_v8 (W2 m c) b s h)
  refine e2.trans ((congrFun (p0_eq m c) _).trans ((G0_apply (X0 m c) (X3 m c) (row b s) h).trans ?_))
  unfold Cert.Spec.proj
  refine Finset.sum_congr rfl fun k _ => ?_
  have h_0 : X0 m c (ix2 (row b s) k) = A0 m c (ix3 b s k) := host_v0 m c b s k
  have h_3 : X3 m c (ix2 k h) = A3 m c (ix2 h k) := host_v3 m c k h
  rw [h_0, h_3]

/-- The kernel's second operand at (b, s, n): the second activation's row (b, s) against column n of the fused weight. -/
theorem kv_read (b : Fin 4) (s n : Fin 2048) :
    KV5 m c (ix3 b s n) = ∑ k : Fin 1024, A1 m c (ix3 b s k) * X6 m c (ix2 k n) := by
  have e2 : KV5 m c (ix3 b s n) = P1 m c (ix2 (row b s) n) := host_v10 (W4 m c) b s n
  refine e2.trans ((congrFun (p1_eq m c) _).trans ((G1_apply (X1 m c) (X6 m c) (row b s) n).trans ?_))
  refine Finset.sum_congr rfl fun k _ => ?_
  have h_1 : X1 m c (ix2 (row b s) k) = A1 m c (ix3 b s k) := host_v1 m c b s k
  rw [h_1]

/-- Its first 1024 features are the key projection. -/
theorem k_read (b : Fin 4) (s : Fin 2048) (h : Fin 1024) :
    KV5 m c (ix3 b s (Cert.KSpec.kf h)) = Cert.Spec.proj (A1 m c) (A4 m c) b s h := by
  refine (kv_read m c b s (Cert.KSpec.kf h)).trans ?_
  unfold Cert.Spec.proj
  refine Finset.sum_congr rfl fun k _ => ?_
  have h_6 : X6 m c (ix2 k (Cert.KSpec.kf h)) = A4 m c (ix2 h k) := host_v6k m c k h
  rw [h_6]

/-- Its last 1024 features are the value projection. -/
theorem v_read (b : Fin 4) (s : Fin 2048) (h : Fin 1024) :
    KV5 m c (ix3 b s (Cert.KSpec.vf h)) = Cert.Spec.proj (A1 m c) (A5 m c) b s h := by
  refine (kv_read m c b s (Cert.KSpec.vf h)).trans ?_
  unfold Cert.Spec.proj
  refine Finset.sum_congr rfl fun k _ => ?_
  have h_6 : X6 m c (ix2 k (Cert.KSpec.vf h)) = A5 m c (ix2 h k) := host_v6v m c k h
  rw [h_6]

/-- The kernel's third operand is the mask, each bit widened to 32 bits. -/
theorem m_read (b : Fin 4) (i j : Fin 2048) :
    M5 m c (ix3 b i j) = (A2 m c (ix3 b i j)).setWidth 32 := by
  have e : @Eq (S4x2048x2048.Idx → BitVec 1) (W4 m c main_arg2) (A2 m c) := W4_arg2 m c
  have e2 : M5 m c (ix3 b i j) = ((W4 m c main_arg2 : S4x2048x2048.Idx → BitVec 1) (ix3 b i j)).setWidth 32 :=
    host_v11 (W4 m c) (ix3 b i j)
  exact e2.trans (congrArg (fun w : BitVec 1 => w.setWidth 32) (congrFun e _))

end Cert.KernelIdeal.Val.Asm

namespace Cert.KernelIdeal.Val

open Cert.KernelIdeal Cert.KernelIdeal.Gen Cert.KernelIdeal.Frame Cert.KernelIdeal.Val.Asm
open Idealize.ShloMosaic Idealize.ShloMosaic.TcCoe Idealize.ShloMosaic.ValueIdx

/-- The attention kernel's output array is the attention function of the six argument arrays. -/
theorem kernel_value (m : (ℓ : Loc nD τ sig) → Buf (Elt Ideal) ℓ) (c : Dev nD) :
    ((dat2 (F := Ideal) (VR5 m) c).arrAt 4 cfg2.N : S4x2048x1024.Idx → EReal)
      = Cert.Spec.attnArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext y
  have e : y = ix3 (⟨(y 0).val, (y 0).isLt⟩ : Fin 4) (⟨(y 1).val, (y 1).isLt⟩ : Fin 2048) (⟨(y 2).val, (y 2).isLt⟩ : Fin 1024) :=
    funext fun a => by match a with | ⟨0, _⟩ => rfl | ⟨1, _⟩ => rfl | ⟨2, _⟩ => rfl
  have e2 := arr2_apply (VR5 m) c (⟨(y 0).val, (y 0).isLt⟩ : Fin 4) (⟨(y 1).val, (y 1).isLt⟩ : Fin 2048) (⟨(y 2).val, (y 2).isLt⟩ : Fin 1024)
  rw [← e] at e2
  refine e2.trans ?_
  exact Cert.Bridge.kattn_eq (Q5 m c) (KV5 m c) (M5 m c) (A0 m c) (A1 m c) (A2 m c) (A3 m c) (A4 m c) (A5 m c)
    (q_read m c) (k_read m c) (v_read m c) (m_read m c) _ _ _

end Cert.KernelIdeal.Val

end
-- ==== Proof.RefValue.lean ====
/-
  The reference program's result, as a function of its six argument arrays over the extended reals, is the
  attention function of Spec.lean, coordinate by coordinate.

  The program computes, in this order: the three projections (sums over the 1024 input features); the scores, a sum
  over the 1024 projected features divided by the square root of 1024, which is a multiplication by 1/32, with the
  masked positions replaced by a constant; for each key column its maximum over all queries, a fold of max from the
  word of minus infinity, then the maximum of that same word with the fold, which changes nothing since a fold of max
  is at least its starting value; the exponentials of the differences; their sum over all queries, started from
  the word of zero; the quotients; and the sum over keys of quotient times projected value.  Each lemma below reads
  one of these groups at a coordinate named by its batch, query, key or feature, and identifies it with the
  corresponding function of Spec.lean; the index functions the stages carry are identified with the coordinates
  axis by axis.
-/
import proofs.«151926_j33698313404453_2_alg».proof.Proof.Gen.ReferenceIdeal.Read
import proofs.«151926_j33698313404453_2_alg».proof.Proof.Spec
import proofs.«151926_j33698313404453_2_alg».proof.Proof.Consts
import proofs.«151926_j33698313404453_2_alg».proof.Proof.LibMaxReduce

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 : (⟨S4x2048x1024, .f32⟩ : BufTy).Contents (Elt Ideal))
  (x2 : (⟨S4x2048x2048, .i1⟩ : BufTy).Contents (Elt Ideal))
  (x3 x4 x5 : (⟨S1024x1024, .f32⟩ : BufTy).Contents (Elt Ideal))

/-! ### Projections -/

/-- The activation entry a projection's k-th term reads at (b, s, h) is (b, s, k). -/
theorem lidx_proj (b : Fin 4) (s : Fin 2048) (h k : Fin 1024) : lidx_main_v0 (ix3 b s h) k = ix3 b s k :=
  funext fun a => by match a with | ⟨0, _⟩ => rfl | ⟨1, _⟩ => rfl | ⟨2, _⟩ => rfl

/-- The weight entry a projection's k-th term reads at (b, s, h) is (h, k). -/
theorem ridx_proj (b : Fin 4) (s : Fin 2048) (h k : Fin 1024) : ridx_main_v0 (ix3 b s h) k = ix2 h k :=
  funext fun a => by match a with | ⟨0, _⟩ => rfl | ⟨1, _⟩ => rfl

/-- A projection at (b, s, h) is the sum over the input features of activation times weight. -/
theorem proj_read (x : (⟨S4x2048x1024, .f32⟩ : BufTy).Contents (Elt Ideal)) (W : (⟨S1024x1024, .f32⟩ : BufTy).Contents (Elt Ideal))
    (b : Fin 4) (s : Fin 2048) (h : Fin 1024) :
    val_main_v0 (F := Ideal) x W (ix3 b s h) = Cert.Spec.proj x W b s h := by
  rw [val_main_v0_apply]
  unfold Cert.Spec.proj
  refine Finset.sum_congr rfl fun k _ => ?_
  rw [lidx_proj, ridx_proj]

/-- The key projection is the same sum, of the second activation array against its own weight. -/
theorem proj_k_read (b : Fin 4) (s : Fin 2048) (h : Fin 1024) :
    val_main_v1 (F := Ideal) x1 x4 (ix3 b s h) = Cert.Spec.proj x1 x4 b s h := proj_read x1 x4 b s h

/-- The value projection likewise. -/
theorem proj_v_read (b : Fin 4) (s : Fin 2048) (h : Fin 1024) :
    val_main_v2 (F := Ideal) x1 x5 (ix3 b s h) = Cert.Spec.proj x1 x5 b s h := proj_read x1 x5 b s h

/-! ### Scores -/

/-- The masked, scaled scores of Spec.lean, of the two projections of the arguments. -/
abbrev scores : Fin 4 → Fin 2048 → Fin 2048 → EReal :=
  Cert.Spec.logit x2 (Cert.Spec.proj x0 x3) (Cert.Spec.proj x1 x4)

/-- The query entry the score's k-th term reads at (b, i, j) is (b, i, k). -/
theorem lidx_score (b : Fin 4) (i j : Fin 2048) (k : Fin 1024) : lidx_main_v3 (ix3 b i j) k = ix3 b i k :=
  funext fun a => by match a with | ⟨0, _⟩ => rfl | ⟨1, _⟩ => rfl | ⟨2, _⟩ => rfl

/-- The key entry the score's k-th term reads at (b, i, j) is (b, j, k). -/
theorem ridx_score (b : Fin 4) (i j : Fin 2048) (k : Fin 1024) : ridx_main_v3 (ix3 b i j) k = ix3 b j k :=
  funext fun a => by match a with | ⟨0, _⟩ => rfl | ⟨1, _⟩ => rfl | ⟨2, _⟩ => rfl

/-- The unscaled score at (b, i, j): the sum over the projected features of query times key. -/
theorem dot_read (b : Fin 4) (i j : Fin 2048) :
    val_main_v3 (F := Ideal) x0 x1 x3 x4 (ix3 b i j)
      = ∑ h : Fin 1024, Cert.Spec.proj x0 x3 b i h * Cert.Spec.proj x1 x4 b j h := by
  rw [val_main_v3_apply]
  refine Finset.sum_congr rfl fun k _ => ?_
  rw [lidx_score, ridx_score, proj_read, proj_k_read]

/-- The masked score at (b, i, j): dividing by the square root of 1024 is multiplying by 1/32. -/
theorem score_read (b : Fin 4) (i j : Fin 2048) :
    val_main_v7 (F := Ideal) x0 x1 x2 x3 x4 (ix3 b i j) = scores x0 x1 x2 x3 x4 b i j := by
  rw [val_main_v7_apply, val_main_call0_v0_apply, val_main_cst_0_apply, val_main_v6_apply, val_main_v5_apply,
    val_main_v4_apply, val_main_cst_apply, dot_read]
  exact congrArg (Scalar.select (x2 (ix3 b i j)) (Ideal.ofBits .f32 0x3089705F#32)) (Cert.Consts.div_sqrt_1024 _)

/-! ### Column maxima -/

/-- A key column's maximum at (b, j): the fold of max over all queries from the word of minus infinity; taking the
    maximum with that word once more changes nothing, a fold of max being at least its starting value. -/
theorem colMax_read (b : Fin 4) (j : Fin 2048) :
    val_main_v10 (F := Ideal) x0 x1 x2 x3 x4 (ix2 b j) = Cert.Spec.colMax (scores x0 x1 x2 x3 x4) b j := by
  have h8 : val_main_v8 (F := Ideal) x0 x1 x2 x3 x4 (ix2 b j)
      = (Finset.univ : Finset (Fin 2048)).fold max (Ideal.ofBits .f32 0xFF800000#32)
          fun i => val_main_v7 (F := Ideal) x0 x1 x2 x3 x4 (ix3 b i j) :=
    MaxReduce.hostReduce_max_mid (val_main_v7 (F := Ideal) x0 x1 x2 x3 x4) (val_main_cst_1 (F := Ideal))
      reducesTo_S4x2048x2048_S4x2048_d1 (by decide) h_S_ b j
  rw [val_main_v10_apply, val_main_v9_apply, val_main_cst_2_apply, h8]
  refine (max_eq_right ((Finset.le_fold_max _).mpr (Or.inl le_rfl))).trans ?_
  unfold Cert.Spec.colMax Cert.Spec.negInf
  refine congrArg (fun f => Finset.fold max (Ideal.ofBits .f32 0xFF800000#32) f (Finset.univ : Finset (Fin 2048))) ?_
  funext i
  exact score_read x0 x1 x2 x3 x4 b i j

/-! ### Exponentials and column sums -/

/-- The column entry a position (b, i, j) reads, through the two broadcasts, is (b, j). -/
theorem idx_col_max (b : Fin 4) (i j : Fin 2048) : idx_main_v11 (idx_main_v12 (ix3 b i j)) = ix2 b j :=
  funext fun a => by match a with | ⟨0, _⟩ => rfl | ⟨1, _⟩ => rfl

theorem idx_col_sum (b : Fin 4) (i j : Fin 2048) : idx_main_v16 (idx_main_v17 (ix3 b i j)) = ix2 b j :=
  funext fun a => by match a with | ⟨0, _⟩ => rfl | ⟨1, _⟩ => rfl

/-- The k-th term of the column sum at (b, j) reads (b, k, j). -/
theorem idx_sum_term (b : Fin 4) (j k : Fin 2048) : idx_main_v15 (ix2 b j) k = ix3 b k j :=
  funext fun a => by match a with | ⟨0, _⟩ => rfl | ⟨1, _⟩ => rfl | ⟨2, _⟩ => rfl

/-- The exponential at (b, i, j): of the score less its column's maximum. -/
theorem ex_read (b : Fin 4) (i j : Fin 2048) :
    val_main_v14 (F := Ideal) x0 x1 x2 x3 x4 (ix3 b i j) = Cert.Spec.ex (scores x0 x1 x2 x3 x4) b i j := by
  rw [val_main_v14_apply, val_main_v13_apply, val_main_v12_apply, val_main_v11_apply, idx_col_max, colMax_read,
    score_read]
  rfl

/-- The column sum at (b, j): the sum starts from the word of zero, which is zero. -/
theorem colSum_read (b : Fin 4) (j : Fin 2048) :
    val_main_v15 (F := Ideal) x0 x1 x2 x3 x4 (ix2 b j) = Cert.Spec.colSum (scores x0 x1 x2 x3 x4) b j := by
  rw [val_main_v15_apply, val_main_cst_3_apply]
  refine (congrArg (· + _) Ideal.ofBits_zero_f32).trans ?_
  rw [zero_add]
  unfold Cert.Spec.colSum
  refine Finset.sum_congr rfl fun k _ => ?_
  rw [idx_sum_term, ex_read]

/-! ### Weights and output -/

/-- The normalised weight at (b, i, j): the exponential over its column's sum. -/
theorem prob_read (b : Fin 4) (i j : Fin 2048) :
    val_main_v18 (F := Ideal) x0 x1 x2 x3 x4 (ix3 b i j) = Cert.Spec.prob (scores x0 x1 x2 x3 x4) b i j := by
  rw [val_main_v18_apply, val_main_v17_apply, val_main_v16_apply, idx_col_sum, ex_read, colSum_read]
  rfl

/-- The weight the output's k-th term reads at (b, i, h) is (b, i, k). -/
theorem lidx_out (b : Fin 4) (i : Fin 2048) (h : Fin 1024) (k : Fin 2048) : lidx_main_v19 (ix3 b i h) k = ix3 b i k :=
  funext fun a => by match a with | ⟨0, _⟩ => rfl | ⟨1, _⟩ => rfl | ⟨2, _⟩ => rfl

/-- The value entry the output's k-th term reads at (b, i, h) is (b, k, h). -/
theorem ridx_out (b : Fin 4) (i : Fin 2048) (h : Fin 1024) (k : Fin 2048) : ridx_main_v19 (ix3 b i h) k = ix3 b k h :=
  funext fun a => by match a with | ⟨0, _⟩ => rfl | ⟨1, _⟩ => rfl | ⟨2, _⟩ => rfl

/-- The output at (b, i, h): the sum over keys of weight times projected value. -/
theorem out_read (b : Fin 4) (i : Fin 2048) (h : Fin 1024) :
    val_main_v19 (F := Ideal) x0 x1 x2 x3 x4 x5 (ix3 b i h) = Cert.Spec.attn x0 x1 x2 x3 x4 x5 b i h := by
  rw [val_main_v19_apply]
  unfold Cert.Spec.attn
  refine Finset.sum_congr rfl fun k _ => ?_
  rw [lidx_out, ridx_out, prob_read, proj_v_read]

/-- The reference program's result is the attention function of Spec.lean, as arrays. -/
theorem result_eq :
    val_main_v19 (F := Ideal) x0 x1 x2 x3 x4 x5 = Cert.Spec.attnArr x0 x1 x2 x3 x4 x5 := by
  funext y
  have e : y = ix3 (⟨(y 0).val, (y 0).isLt⟩ : Fin 4) (⟨(y 1).val, (y 1).isLt⟩ : Fin 2048) (⟨(y 2).val, (y 2).isLt⟩ : Fin 1024) :=
    funext fun a => by match a with | ⟨0, _⟩ => rfl | ⟨1, _⟩ => rfl | ⟨2, _⟩ => rfl
  exact (congrArg (val_main_v19 (F := Ideal) x0 x1 x2 x3 x4 x5) e).trans (out_read x0 x1 x2 x3 x4 x5 _ _ _)

end Cert.ReferenceIdeal.RefValue

end
-- ==== Proof.lean ====
/-
  Single-head attention whose softmax runs over the QUERY axis, computed by three kernels — a projection x₁·Wqᵀ, a fused
  projection x₂·[Wk; Wv]ᵀ, and an attention kernel that, for each batch, keeps all 2048 queries resident, walks the keys
  in eight blocks of 256, normalises each key column over all queries within the block, and accumulates the weighted
  values into the output block — against the same attention written with whole-array einsums.

  Over the extended reals both are one function of the six argument arrays (`Cert.Spec.attn`): the kernel's scale 1/32
  is the reference's division by √1024; a masked position takes the same constant on both sides; a column's maximum,
  exponentials, sum and quotient are taken over the same 2048 queries; the reference's one sum over 2048 keys is the
  kernel's eight sums over 256 keys, added from zero. None of these steps needs the inputs to be finite.

  The frames: each program is its host operations and its three kernel regions in order; each region runs its body at
  every grid point on the blocks the pipeline stages (the attention kernel's key and value windows read ONE array at
  half a share each; its output block stays in its staging buffer over the eight key blocks of a batch), and changes
  nothing but its output array. The word-level program and its reading over the extended reals are the same text, so
  the frame is proved once for any float instance.
-/
import proofs.«151926_j33698313404453_2_alg».proof.Defs
import proofs.«151926_j33698313404453_2_alg».proof.Proof.Gen.Kernel
import proofs.«151926_j33698313404453_2_alg».proof.Proof.Gen.KernelIdeal
import proofs.«151926_j33698313404453_2_alg».proof.Proof.Gen.ReferenceIdeal
import proofs.«151926_j33698313404453_2_alg».proof.Proof.Gen.Pre_finite_inputs
import proofs.«151926_j33698313404453_2_alg».proof.Proof.Gen.ReferenceIdeal.Run
import proofs.«151926_j33698313404453_2_alg».proof.Proof.Gen.ReferenceIdeal.Read
import proofs.«151926_j33698313404453_2_alg».proof.Proof.Kernel.Body0
import proofs.«151926_j33698313404453_2_alg».proof.Proof.Kernel.Body1
import proofs.«151926_j33698313404453_2_alg».proof.Proof.Kernel.Body2
import proofs.«151926_j33698313404453_2_alg».proof.Proof.Kernel.Run
import proofs.«151926_j33698313404453_2_alg».proof.Proof.KernelIdeal.Body0
import proofs.«151926_j33698313404453_2_alg».proof.Proof.KernelIdeal.Body1
import proofs.«151926_j33698313404453_2_alg».proof.Proof.KernelIdeal.Body2
import proofs.«151926_j33698313404453_2_alg».proof.Proof.KernelIdeal.Run
import proofs.«151926_j33698313404453_2_alg».proof.Proof.Value.KernelValue
import proofs.«151926_j33698313404453_2_alg».proof.Proof.RefValue
import Idealize.ShloMosaic.Adequacy
import Idealize.ShloMosaic.Init

noncomputable section

namespace Cert.Proof

open Idealize.ShloMosaic Idealize.SL.Sem

/-- The word-level program runs to the end, faults nowhere and leaves its arguments as launched: the run of its six
    segments, with each kernel's body obligation. -/
theorem frame_p : Cert.frame_Kernel := fun m ρ _ =>
  Cert.Kernel.Frame.frame (F := Bits) m ρ
    (fun c => Cert.Kernel.Frame.body_obligation0 (Cert.Kernel.Frame.VR1 m) c)
    (fun c => Cert.Kernel.Frame.body_obligation1 (Cert.Kernel.Frame.VR3 m) c)
    (fun c => Cert.Kernel.Frame.body_obligation2 (Cert.Kernel.Frame.VR5 m) c)

/-- The same for the program read over the extended reals. -/
theorem frame_pi : Cert.frame_KernelIdeal := fun m ρ _ =>
  Cert.KernelIdeal.Frame.frame (F := Ideal) m ρ
    (fun c => Cert.KernelIdeal.Frame.body_obligation0 (Cert.KernelIdeal.Frame.VR1 m) c)
    (fun c => Cert.KernelIdeal.Frame.body_obligation1 (Cert.KernelIdeal.Frame.VR3 m) c)
    (fun c => Cert.KernelIdeal.Frame.body_obligation2 (Cert.KernelIdeal.Frame.VR5 m) c)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the program was printed for the extended reals. -/
theorem preserves : Cert.preserves_Kernel_KernelIdeal := trivial

/-- Over the extended reals both programs end with the attention of the six argument arrays
    (`Cert.Spec.attnArr`): the kernel's final output array by the value of its run, the reference's result by
    reading its operations one by one; the arguments agree by hypothesis. -/
theorem algebraic : Cert.algebraic_KernelIdeal_ReferenceIdeal := by
  intro m ρ m' ρ' _ hagree
  refine ⟨fun c => Cert.Spec.attnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Val.kernel_value m c), (h c).2⟩)
      (Cert.KernelIdeal.Frame.run_value (F := Ideal) m ρ
        (fun c => Cert.KernelIdeal.Frame.body_obligation0 (Cert.KernelIdeal.Frame.VR1 m) c)
        (fun c => Cert.KernelIdeal.Frame.body_obligation1 (Cert.KernelIdeal.Frame.VR3 m) c)
        (fun c => Cert.KernelIdeal.Frame.body_obligation2 (Cert.KernelIdeal.Frame.VR5 m) c))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.RefValue.result_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
